-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S64x128 .f32) (main_arg3 : FVec F S128 .f32) (main_arg4 : FVec F S64x128 .f32) (main_arg5 : FVec F S128 .f32) (main_arg6 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩

abbrev nBuf : Space → Nat
  | .hbm => 75
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S100000x128, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44_0 : Ref sig .tc := ⟨.hbm, 60, rfl⟩
abbrev main_v44_1 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S128 : S5000x128.Reduces [0] S128
  bcast_S_S1x128 : S_.BroadcastsInDim S1x128 (![] : Fin 0 → Fin S1x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v39) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S100000x128, .f32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x1, .f32⟩
  | .hbm, ⟨51, _⟩ => ⟨S1700000x128, .f32⟩
  | .hbm, ⟨52, _⟩ => ⟨S1700000x128, .f32⟩
  | .hbm, ⟨53, _⟩ => ⟨S_, .f32⟩
  | .hbm, ⟨54, _⟩ => ⟨S100000x128, .f32⟩
  | .hbm, ⟨55, _⟩ => ⟨S1700000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_cst_1 : Ref sig .tc := ⟨.hbm, 78, rfl⟩
abbrev main_call0_v8 : Ref sig .tc := ⟨.hbm, 79, rfl⟩
abbrev main_call0_cst_2 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_cst_3 : Ref sig .tc := ⟨.hbm, 84, rfl⟩
abbrev main_call0_v12 : Ref sig .tc := ⟨.hbm, 85, rfl⟩
abbrev main_call0_cst_4 : Ref sig .tc := ⟨.hbm, 86, rfl⟩
abbrev main_call0_call0_v0 : Ref sig .tc := ⟨.hbm, 87, rfl⟩
abbrev main_call0_call0_v1 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_10 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call1_cst : Ref sig .tc := ⟨.hbm, 106, rfl⟩
abbrev main_call1_v0 : Ref sig .tc := ⟨.hbm, 107, rfl⟩
abbrev main_v65 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S100000x64_S64x128_S100000x128_1_0_0_1_n_n_wf : DotDims.WF S100000x64 S64x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.K.Region0.lean ====
import proofs.«163546_j27127013442152_2_alg».proof.Proof.K.LaunchP
import proofs.«163546_j27127013442152_2_alg».proof.Proof.Gen.Kernel.Skeleton
import proofs.«163546_j27127013442152_2_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic

/-! # The fused projection (pallas_call 0): its half of the frame, at any float instance

The grid has 20 points; point `t` sees rows `5000·t … 5000·t + 4999` of the two 100000×64 row operands
(the aggregated rows and the input rows), the two whole 64×128 weight matrices, the whole 1×128 bias row, and writes
rows `5000·t …` of the 100000×128 result. The body reads each of its six buffers whole and overwrites the result
buffer whole with one value: the sum of the two products plus the bias row repeated down the rows. So after the body
every operand buffer holds what it held, and the result buffer holds that one value of the five operand blocks.
Everything here is stated at an arbitrary content `V` of the buffers on entry. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

-- the buffers' contents on entry to the region
variable (V : (c : Dev nD) → (b : Ref sig .tc) → Buf (Elt F) ((c : Thread nD τ).loc b))

/-! ## The operands' blocks -/

/-- Operand `w`'s block at point `t`: the rectangle of its array that the index map selects there, read off the
    entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The aggregated rows' buffer holds block `t` at point `t`: it is fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The input rows' buffer holds block `t` at point `t`: it is fetched there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The first weight matrix is fetched once; its block index never moves, so the buffer holds it at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The second weight matrix likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- The bias row likewise. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each buffer whole -/

abbrev rows0 : Rect S5000x64 := Rect.unit (s := S5000x64) ![0, 0] S5000x64.size inb_S5000x64_S5000x64_0_0
abbrev weights0 : Rect S64x128 := Rect.unit (s := S64x128) ![0, 0] S64x128.size inb_S64x128_S64x128_0_0
abbrev bias0 : Rect S1x128 := Rect.unit (s := S1x128) ![0, 0] S1x128.size inb_S1x128_S1x128_0_0
abbrev res0 : Rect S5000x128 := Rect.unit (s := S5000x128) ![0, 0] S5000x128.size inb_S5000x128_S5000x128_0_0

/-! ## What the body leaves in the result buffer -/

/-- The result buffer after the body, as a function of the five operand blocks: its one store, of the projected
    rows, over the whole buffer. -/
def out0_5 (x0 : Vec F S5000x64 .f32) (x1 : Vec F S5000x64 .f32) (x2 : Vec F S64x128 .f32) (x3 : Vec F S64x128 .f32) (x4 : Vec F S1x128 .f32) : Vec F S5000x128 .f32 :=
  View.canon [⟨res0, k0_pay1 (View.ld x0 rows0) (View.ld x1 rows0) (View.ld x2 weights0) (View.ld x3 weights0) (View.ld x4 bias0)⟩]

/-- The one stored rectangle is the whole buffer, so every index of the buffer lies in it. -/
theorem cover0_5 (p0 : Vec F S5000x128 .f32) (y : S5000x128.Idx) :
    ∃ pc ∈ ([⟨res0, p0⟩] : List (View.Piece (Elt F) S5000x128 .f32)), y ∈ pc.1.set :=
  View.cover_of_tiled [⟨res0, p0⟩] S5000x128.size (by rfl) y

/-! ## The body's triple -/

set_option maxHeartbeats 1000000 in
/-- The body on six whole buffers — the five operands' at contents `x0 … x4`, the result's at anything — ends with
    the operands' buffers as they were and the result's at `out0_5 x0 … x4`. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x64 .f32) (x1 : Vec F S5000x64 .f32) (x2 : Vec F S64x128 .f32) (x3 : Vec F S64x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The region's proof data -/

/-- On core `c`: the arrays as found on entry; after the body at point `t` each operand's buffer at its block and the
    result's at `out0_5` of the five blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- The invariant is the same at every point. -/
theorem Phi0 (c : Dev nD) (t : Fin (cfg0.N + 1)) : (dat0 V c).Φ t = Pipeline.ΦA spec0 c := rfl

/-- What the body leaves, buffer by buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each operand's buffer holds its block when the body is entered, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is entered with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it ends with. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the operands' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.Runs.lean ====
/- Region 1 of the program (the statistics reduction): the facts its frame proof shares — the body's two branch
   conditions decided over the twenty grid points, where the output windows are idle, the memrefs the body is called with —
   and the body run once in each of its three control cases: the first point (both accumulators zeroed, then accumulated
   into), a middle point (accumulated into), the last point (accumulated into, then copied to the two output buffers).
   Generic in the float instance. -/
import proofs.«163546_j27127013442152_2_alg».proof.Proof.Gen.Kernel.Skeleton
import proofs.«163546_j27127013442152_2_alg».proof.Proof.K.LaunchP
import proofs.«163546_j27127013442152_2_alg».proof.Proof.Gen.Kernel.Points
import Idealize.ShloMosaic.Lib.Pipeline.Frame
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

/-! ## The body's two branch conditions, decided over the twenty grid points -/

/-- The first `scf.if`: the grid coordinate is 0 (the kernel's scalar chain, substituted). -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 20 = 0 :=
  (by decide +kernel : ∀ t : Fin grid1.N, cond1_0 (grid1.coords t) ↔ t.val % 20 = 0)

/-- The second `scf.if`: the grid coordinate is 19. -/
abbrev cond1_1 (i : grid1.Coords) : Prop := k1_cond2 i = 1#1
/-- It holds at the last point only. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- The input window is never idle. -/
theorem liveAt1_0 : ∀ t : Fin cfg1.N, cfg1.idle 0 (grid1.coords t) = false := by decide +kernel
/-- Away from the last point the two output windows are idle and are not written back. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point both are live. -/
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-! ## The memrefs the body is called with -/

/-- One staging buffer of each output window, through which its contents are stated. -/
abbrev VO1_1 : View sig .tc .vmem S1x128 .f32 := (Memref.whole cc1_stg1_0 : Memref sig .tc .vmem S1x128 .f32).view
abbrev VO1_2 : View sig .tc .vmem S1x128 .f32 := (Memref.whole cc1_stg2_0 : Memref sig .tc .vmem S1x128 .f32).view
/-- Each window's current staging memref at point `t`, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
/-- The two accumulators: whole scoped buffers of the kernel's own, carried from one grid point to the next. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

set_option maxHeartbeats 1000000 in
/-- THE FIRST POINT (the first conditional taken, the second not). On whole memrefs — the input block at `x0`, the two
    output buffers at `xi1`, `xi2` (handed back untouched), the two accumulators at anything — the body runs to a
    continuation that holds the input as it was, the outputs untouched, and each accumulator with the pieces its stores
    wrote: first the zero vector, then the zero vector plus the block's column sums (of its squares). The piece lists are
    the witness the symbolic run finds. -/
noncomputable def kernelRun1_A (c : Dev nD) (i : grid1.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (hc0 : cond1_0 i) (hc1 : ¬cond1_1 i) (x0 : Vec F S5000x128 .f32) :
    Σ' (L1 : List (View.Piece (Elt F) S1x128 .f32)) (L2 : List (View.Piece (Elt F) S1x128 .f32)) (LS0 : List (View.Piece (Elt F) S1x128 .f32)),
      { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨[], [], ?_, ?_, fun xi1 xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- A MIDDLE POINT (neither conditional taken). The accumulators arrive at `xs0`, `xs1`, what the point before left;
    each is stored once, with its contents plus the block's column sums (of its squares); the outputs are untouched. -/
noncomputable def kernelRun1_B (c : Dev nD) (i : grid1.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (hc0 : ¬cond1_0 i) (hc1 : ¬cond1_1 i) (x0 : Vec F S5000x128 .f32) (xs0 xs1 : Vec F S1x128 .f32) :
    Σ' (L1 : List (View.Piece (Elt F) S1x128 .f32)) (L2 : List (View.Piece (Elt F) S1x128 .f32)) (LS0 : List (View.Piece (Elt F) S1x128 .f32)),
      { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨[], [], ?_, ?_, fun xi1 xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- THE LAST POINT (the second conditional taken). As at a middle point, and then each accumulator is copied whole into
    its output buffer, which arrives at anything. -/
noncomputable def kernelRun1_C (c : Dev nD) (i : grid1.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (hc0 : ¬cond1_0 i) (hc1 : cond1_1 i) (x0 : Vec F S5000x128 .f32) (xs0 xs1 : Vec F S1x128 .f32) :
    Σ' (L1 : List (View.Piece (Elt F) S1x128 .f32)) (L2 : List (View.Piece (Elt F) S1x128 .f32)) (LS0 : List (View.Piece (Elt F) S1x128 .f32)),
      { LS1 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.K.Region1.lean ====
/- Region 1 of the program (the statistics reduction), the frame half, at any contents `V` of the core's buffers when
   the region is entered and at any float instance. The grid has twenty points; the input window brings one block of 5000
   rows per point; the two accumulators are scoped buffers of the kernel's own that keep their contents from one point to
   the next, and the two output windows are written only at the last point. Here: the region's invariant opened around
   the two accumulators; what each of the three control cases leaves in the accumulators and in the output buffers, with
   the covers that let these be read back; the accumulation point by point (`outsAt1`); the invariant between points
   (`PhiS1`: the class's before the first point, afterwards each accumulator at what the point before left); the proof
   data `dat1`; the body obligation; and that the invariant is the class's on entry and gives it back on exit. -/
import proofs.«163546_j27127013442152_2_alg».proof.Proof.K.Region1.Runs
import Idealize.ShloMosaic.Lib.Pipeline.Frame
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

/-! ## The region's invariant, opened -/

/-- A scoped buffer of the core, whole, at some contents. -/
abbrev anyAt (c : Dev nD) (r : Ref sig .tc) : sProp 𝕄 :=
  iprop(∃ f : Buf (Elt F) ((c : Thread nD τ).loc r), ((c : Thread nD τ).loc r) ↦{fullShare} f)

/-- What the region's invariant holds beside the two accumulators: the other calls' staging buffers, each whole at some
    contents, and the generator register at some state. -/
def restOthers (c : Dev nD) : sProp 𝕄 :=
  iprop(anyAt c cc0_stg0_0 ∗ anyAt c cc0_stg0_1 ∗ anyAt c cc0_stg1_0 ∗ anyAt c cc0_stg1_1 ∗ anyAt c cc0_stg2_0 ∗
    anyAt c cc0_stg3_0 ∗ anyAt c cc0_stg4_0 ∗ anyAt c cc0_stg5_0 ∗ anyAt c cc0_stg5_1 ∗ anyAt c cc2_stg0_0 ∗
    anyAt c cc2_stg0_1 ∗ anyAt c cc2_stg1_0 ∗ anyAt c cc2_stg2_0 ∗ anyAt c cc2_stg3_0 ∗ anyAt c cc2_stg4_0 ∗
    anyAt c cc2_stg5_0 ∗ anyAt c cc2_stg5_1 ∗
    (∃ r, prngReg c r))

/-- The class's invariant with the two accumulators as memrefs owned at some contents. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_stg2_0 ∗
          anyAt c cc0_stg3_0 ∗ anyAt c cc0_stg4_0 ∗ anyAt c cc0_stg5_0 ∗ anyAt c cc0_stg5_1 ∗
          (∃ d, owns (c : Thread nD τ) scM1_0 fullShare d) ∗ (∃ d, owns (c : Thread nD τ) scM1_1 fullShare d) ∗
          anyAt c cc2_stg0_0 ∗ anyAt c cc2_stg0_1 ∗ anyAt c cc2_stg1_0 ∗ anyAt c cc2_stg2_0 ∗ anyAt c cc2_stg3_0 ∗
          anyAt c cc2_stg4_0 ∗ anyAt c cc2_stg5_0 ∗ anyAt c cc2_stg5_1) ∗
        (∃ r, prngReg c r)) := by
  unfold Pipeline.ΦA; rw [scopedRest1_eq]; simp only [scM1_0, scM1_1, owns_whole]; try rfl

/-- The accumulators taken out of the class's invariant, -/
theorem PhiA1_open (c : Dev nD) :
    (Pipeline.ΦA spec1 c : sProp 𝕄) ⊢ iprop((∃ d, owns (c : Thread nD τ) scM1_0 fullShare d) ∗ (∃ d, owns (c : Thread nD τ) scM1_1 fullShare d) ∗ restOthers c) := by
  rw [PhiA1_eq]; unfold restOthers
  iintro ⟨⟨Ha0, Ha1, Ha2, Ha3, Ha4, Ha5, Ha6, Ha7, Ha8, HS0, HS1, Hb0, Hb1, Hb2, Hb3, Hb4, Hb5, Hb6, Hb7⟩, Hg⟩
  isplitl [HS0]; · iexact HS0
  isplitl [HS1]; · iexact HS1
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  iexact Hg

/-- and put back. -/
theorem PhiA1_close (c : Dev nD) :
    iprop((∃ d, owns (c : Thread nD τ) scM1_0 fullShare d) ∗ (∃ d, owns (c : Thread nD τ) scM1_1 fullShare d) ∗ restOthers c) ⊢ (Pipeline.ΦA spec1 c : sProp 𝕄) := by
  rw [PhiA1_eq]; unfold restOthers
  iintro ⟨HS0, HS1, Ha0, Ha1, Ha2, Ha3, Ha4, Ha5, Ha6, Ha7, Ha8, Hb0, Hb1, Hb2, Hb3, Hb4, Hb5, Hb6, Hb7, Hg⟩
  isplitr [Hg]; swap; · iexact Hg
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [HS0]; · iexact HS0
  isplitl [HS1]; · iexact HS1
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  iexact Hb7

/-! ## Which case a point is in -/

theorem isFirst {t : Fin cfg1.N} (h : t.val = 0) : cond1_0 (grid1.coords t) := (hcond1_0 t).mpr (by omega)
theorem notLast_of_first {t : Fin cfg1.N} (h : t.val = 0) : ¬cond1_1 (grid1.coords t) :=
  fun hh => by have := (hcond1_1 t).mp hh; omega
theorem notFirst {t : Fin cfg1.N} (h : t.val ≠ 0) : ¬cond1_0 (grid1.coords t) :=
  fun hh => by have := (hcond1_0 t).mp hh; have hN : t.val < 20 := lt_of_lt_of_eq t.isLt (show cfg1.N = 20 from N_1); omega
theorem isLast {t : Fin cfg1.N} (h : t.val % 20 = 19) : cond1_1 (grid1.coords t) := (hcond1_1 t).mpr h
theorem notLast {t : Fin cfg1.N} (h : ¬t.val % 20 = 19) : ¬cond1_1 (grid1.coords t) := fun hh => h ((hcond1_1 t).mp hh)

/-! ## What each case leaves, at a grid point's own memrefs -/

/-- An idle output window's buffer: a placeholder nothing consults (the window is neither written back at such a point
    nor read at the next). -/
def idleOut : Vec F S1x128 .f32 := VO1_1.read (Elt F) (VO1_1.writes (Elt F) VO1_1.junk [])

abbrev runA (c : Dev nD) (t : Fin cfg1.N) (hc0 : cond1_0 (grid1.coords t)) (hc1 : ¬cond1_1 (grid1.coords t))
    (x0 : Vec F S5000x128 .f32) :=
  kernelRun1_A (F := F) c (grid1.coords t) (ms1_0 t) (hs1_0 t) (ms1_1 t) (hs1_1 t) (ms1_2 t) (hs1_2 t) scM1_0 (Memref.isWhole_whole _) scM1_1 (Memref.isWhole_whole _) hc0 hc1 x0

/-- What this case leaves in the two accumulators: its pieces read back. -/
def sA0 (c : Dev nD) (t : Fin cfg1.N) (hc0 : cond1_0 (grid1.coords t)) (hc1 : ¬cond1_1 (grid1.coords t)) (x0 : Vec F S5000x128 .f32) : Vec F S1x128 .f32 :=
  VS1_0.read (Elt F) (VS1_0.writes (Elt F) VS1_0.junk (runA c t hc0 hc1 x0).2.2.1)
def sA1 (c : Dev nD) (t : Fin cfg1.N) (hc0 : cond1_0 (grid1.coords t)) (hc1 : ¬cond1_1 (grid1.coords t)) (x0 : Vec F S5000x128 .f32) : Vec F S1x128 .f32 :=
  VS1_1.read (Elt F) (VS1_1.writes (Elt F) VS1_1.junk (runA c t hc0 hc1 x0).2.2.2.1)
/-- Its pieces for each accumulator tile the accumulator, so they cover it. -/
theorem coverA_s0 (c : Dev nD) (t : Fin cfg1.N) (hc0 : cond1_0 (grid1.coords t)) (hc1 : ¬cond1_1 (grid1.coords t)) (x0 : Vec F S5000x128 .f32) (y : S1x128.Idx) :
    ∃ pc ∈ (runA c t hc0 hc1 x0).2.2.1, y ∈ pc.1.set :=
  View.cover_of_tiledL (runA c t hc0 hc1 x0).2.2.1 S1x128.size (by sl_kernel_rfl) y
theorem coverA_s1 (c : Dev nD) (t : Fin cfg1.N) (hc0 : cond1_0 (grid1.coords t)) (hc1 : ¬cond1_1 (grid1.coords t)) (x0 : Vec F S5000x128 .f32) (y : S1x128.Idx) :
    ∃ pc ∈ (runA c t hc0 hc1 x0).2.2.2.1, y ∈ pc.1.set :=
  View.cover_of_tiledL (runA c t hc0 hc1 x0).2.2.2.1 S1x128.size (by sl_kernel_rfl) y

abbrev runB (c : Dev nD) (t : Fin cfg1.N) (hc0 : ¬cond1_0 (grid1.coords t)) (hc1 : ¬cond1_1 (grid1.coords t))
    (x0 : Vec F S5000x128 .f32) (xs0 xs1 : Vec F S1x128 .f32) :=
  kernelRun1_B (F := F) c (grid1.coords t) (ms1_0 t) (hs1_0 t) (ms1_1 t) (hs1_1 t) (ms1_2 t) (hs1_2 t) scM1_0 (Memref.isWhole_whole _) scM1_1 (Memref.isWhole_whole _) hc0 hc1 x0 xs0 xs1

/-- What this case leaves in the two accumulators: its pieces read back. -/
def sB0 (c : Dev nD) (t : Fin cfg1.N) (hc0 : ¬cond1_0 (grid1.coords t)) (hc1 : ¬cond1_1 (grid1.coords t)) (x0 : Vec F S5000x128 .f32) (xs0 xs1 : Vec F S1x128 .f32) : Vec F S1x128 .f32 :=
  VS1_0.read (Elt F) (VS1_0.writes (Elt F) VS1_0.junk (runB c t hc0 hc1 x0 xs0 xs1).2.2.1)
def sB1 (c : Dev nD) (t : Fin cfg1.N) (hc0 : ¬cond1_0 (grid1.coords t)) (hc1 : ¬cond1_1 (grid1.coords t)) (x0 : Vec F S5000x128 .f32) (xs0 xs1 : Vec F S1x128 .f32) : Vec F S1x128 .f32 :=
  VS1_1.read (Elt F) (VS1_1.writes (Elt F) VS1_1.junk (runB c t hc0 hc1 x0 xs0 xs1).2.2.2.1)
/-- Its pieces for each accumulator tile the accumulator, so they cover it. -/
theorem coverB_s0 (c : Dev nD) (t : Fin cfg1.N) (hc0 : ¬cond1_0 (grid1.coords t)) (hc1 : ¬cond1_1 (grid1.coords t)) (x0 : Vec F S5000x128 .f32) (xs0 xs1 : Vec F S1x128 .f32) (y : S1x128.Idx) :
    ∃ pc ∈ (runB c t hc0 hc1 x0 xs0 xs1).2.2.1, y ∈ pc.1.set :=
  View.cover_of_tiledL (runB c t hc0 hc1 x0 xs0 xs1).2.2.1 S1x128.size (by sl_kernel_rfl) y
theorem coverB_s1 (c : Dev nD) (t : Fin cfg1.N) (hc0 : ¬cond1_0 (grid1.coords t)) (hc1 : ¬cond1_1 (grid1.coords t)) (x0 : Vec F S5000x128 .f32) (xs0 xs1 : Vec F S1x128 .f32) (y : S1x128.Idx) :
    ∃ pc ∈ (runB c t hc0 hc1 x0 xs0 xs1).2.2.2.1, y ∈ pc.1.set :=
  View.cover_of_tiledL (runB c t hc0 hc1 x0 xs0 xs1).2.2.2.1 S1x128.size (by sl_kernel_rfl) y

abbrev runC (c : Dev nD) (t : Fin cfg1.N) (hc0 : ¬cond1_0 (grid1.coords t)) (hc1 : cond1_1 (grid1.coords t))
    (x0 : Vec F S5000x128 .f32) (xs0 xs1 : Vec F S1x128 .f32) :=
  kernelRun1_C (F := F) c (grid1.coords t) (ms1_0 t) (hs1_0 t) (ms1_1 t) (hs1_1 t) (ms1_2 t) (hs1_2 t) scM1_0 (Memref.isWhole_whole _) scM1_1 (Memref.isWhole_whole _) hc0 hc1 x0 xs0 xs1

/-- What this case leaves in the two accumulators: its pieces read back. -/
def sC0 (c : Dev nD) (t : Fin cfg1.N) (hc0 : ¬cond1_0 (grid1.coords t)) (hc1 : cond1_1 (grid1.coords t)) (x0 : Vec F S5000x128 .f32) (xs0 xs1 : Vec F S1x128 .f32) : Vec F S1x128 .f32 :=
  VS1_0.read (Elt F) (VS1_0.writes (Elt F) VS1_0.junk (runC c t hc0 hc1 x0 xs0 xs1).2.2.1)
def sC1 (c : Dev nD) (t : Fin cfg1.N) (hc0 : ¬cond1_0 (grid1.coords t)) (hc1 : cond1_1 (grid1.coords t)) (x0 : Vec F S5000x128 .f32) (xs0 xs1 : Vec F S1x128 .f32) : Vec F S1x128 .f32 :=
  VS1_1.read (Elt F) (VS1_1.writes (Elt F) VS1_1.junk (runC c t hc0 hc1 x0 xs0 xs1).2.2.2.1)
/-- Its pieces for each accumulator tile the accumulator, so they cover it. -/
theorem coverC_s0 (c : Dev nD) (t : Fin cfg1.N) (hc0 : ¬cond1_0 (grid1.coords t)) (hc1 : cond1_1 (grid1.coords t)) (x0 : Vec F S5000x128 .f32) (xs0 xs1 : Vec F S1x128 .f32) (y : S1x128.Idx) :
    ∃ pc ∈ (runC c t hc0 hc1 x0 xs0 xs1).2.2.1, y ∈ pc.1.set :=
  View.cover_of_tiledL (runC c t hc0 hc1 x0 xs0 xs1).2.2.1 S1x128.size (by sl_kernel_rfl) y
theorem coverC_s1 (c : Dev nD) (t : Fin cfg1.N) (hc0 : ¬cond1_0 (grid1.coords t)) (hc1 : cond1_1 (grid1.coords t)) (x0 : Vec F S5000x128 .f32) (xs0 xs1 : Vec F S1x128 .f32) (y : S1x128.Idx) :
    ∃ pc ∈ (runC c t hc0 hc1 x0 xs0 xs1).2.2.2.1, y ∈ pc.1.set :=
  View.cover_of_tiledL (runC c t hc0 hc1 x0 xs0 xs1).2.2.2.1 S1x128.size (by sl_kernel_rfl) y

/-- What the last point leaves in the two output buffers, -/
def oC1 (c : Dev nD) (t : Fin cfg1.N) (hc0 : ¬cond1_0 (grid1.coords t)) (hc1 : cond1_1 (grid1.coords t)) (x0 : Vec F S5000x128 .f32) (xs0 xs1 : Vec F S1x128 .f32) : Vec F S1x128 .f32 :=
  VO1_1.read (Elt F) (VO1_1.writes (Elt F) VO1_1.junk (runC c t hc0 hc1 x0 xs0 xs1).1)
def oC2 (c : Dev nD) (t : Fin cfg1.N) (hc0 : ¬cond1_0 (grid1.coords t)) (hc1 : cond1_1 (grid1.coords t)) (x0 : Vec F S5000x128 .f32) (xs0 xs1 : Vec F S1x128 .f32) : Vec F S1x128 .f32 :=
  VO1_2.read (Elt F) (VO1_2.writes (Elt F) VO1_2.junk (runC c t hc0 hc1 x0 xs0 xs1).2.1)
/-- each covered by the one whole store into it. -/
theorem coverC_o1 (c : Dev nD) (t : Fin cfg1.N) (hc0 : ¬cond1_0 (grid1.coords t)) (hc1 : cond1_1 (grid1.coords t)) (x0 : Vec F S5000x128 .f32) (xs0 xs1 : Vec F S1x128 .f32) (y : S1x128.Idx) :
    ∃ pc ∈ (runC c t hc0 hc1 x0 xs0 xs1).1, y ∈ pc.1.set :=
  View.cover_of_tiledL (runC c t hc0 hc1 x0 xs0 xs1).1 S1x128.size (by sl_kernel_rfl) y
theorem coverC_o2 (c : Dev nD) (t : Fin cfg1.N) (hc0 : ¬cond1_0 (grid1.coords t)) (hc1 : cond1_1 (grid1.coords t)) (x0 : Vec F S5000x128 .f32) (xs0 xs1 : Vec F S1x128 .f32) (y : S1x128.Idx) :
    ∃ pc ∈ (runC c t hc0 hc1 x0 xs0 xs1).2.1, y ∈ pc.1.set :=
  View.cover_of_tiledL (runC c t hc0 hc1 x0 xs0 xs1).2.1 S1x128.size (by sl_kernel_rfl) y

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What the buffers hold after each point -/

/-- THE ACCUMULATION. After the body at position `n`: the two output buffers, then the two accumulators. The first point
    zeroes the accumulators and adds its block's column sums (of squares); every later point adds its own to what the
    point before left; the last point also copies both accumulators to the output buffers. -/
def outsAt1 (c : Dev nD) : (n : ℕ) → n < cfg1.N → Vec F S1x128 .f32 × Vec F S1x128 .f32 × Vec F S1x128 .f32 × Vec F S1x128 .f32
  | 0, hn => (idleOut, idleOut,
      sA0 c ⟨0, hn⟩ (isFirst (t := ⟨0, hn⟩) rfl) (notLast_of_first (t := ⟨0, hn⟩) rfl) (iblk1 V c 0 ⟨0, hn⟩),
      sA1 c ⟨0, hn⟩ (isFirst (t := ⟨0, hn⟩) rfl) (notLast_of_first (t := ⟨0, hn⟩) rfl) (iblk1 V c 0 ⟨0, hn⟩))
  | n + 1, hn =>
    if h1 : (n + 1) % 20 = 19 then
      (oC1 c ⟨n + 1, hn⟩ (notFirst (t := ⟨n + 1, hn⟩) (Nat.succ_ne_zero n)) (isLast (t := ⟨n + 1, hn⟩) h1) (iblk1 V c 0 ⟨n + 1, hn⟩)
          (outsAt1 c n (Nat.lt_of_succ_lt hn)).2.2.1 (outsAt1 c n (Nat.lt_of_succ_lt hn)).2.2.2,
       oC2 c ⟨n + 1, hn⟩ (notFirst (t := ⟨n + 1, hn⟩) (Nat.succ_ne_zero n)) (isLast (t := ⟨n + 1, hn⟩) h1) (iblk1 V c 0 ⟨n + 1, hn⟩)
          (outsAt1 c n (Nat.lt_of_succ_lt hn)).2.2.1 (outsAt1 c n (Nat.lt_of_succ_lt hn)).2.2.2,
       sC0 c ⟨n + 1, hn⟩ (notFirst (t := ⟨n + 1, hn⟩) (Nat.succ_ne_zero n)) (isLast (t := ⟨n + 1, hn⟩) h1) (iblk1 V c 0 ⟨n + 1, hn⟩)
          (outsAt1 c n (Nat.lt_of_succ_lt hn)).2.2.1 (outsAt1 c n (Nat.lt_of_succ_lt hn)).2.2.2,
       sC1 c ⟨n + 1, hn⟩ (notFirst (t := ⟨n + 1, hn⟩) (Nat.succ_ne_zero n)) (isLast (t := ⟨n + 1, hn⟩) h1) (iblk1 V c 0 ⟨n + 1, hn⟩)
          (outsAt1 c n (Nat.lt_of_succ_lt hn)).2.2.1 (outsAt1 c n (Nat.lt_of_succ_lt hn)).2.2.2)
    else
      (idleOut, idleOut,
       sB0 c ⟨n + 1, hn⟩ (notFirst (t := ⟨n + 1, hn⟩) (Nat.succ_ne_zero n)) (notLast (t := ⟨n + 1, hn⟩) h1) (iblk1 V c 0 ⟨n + 1, hn⟩)
          (outsAt1 c n (Nat.lt_of_succ_lt hn)).2.2.1 (outsAt1 c n (Nat.lt_of_succ_lt hn)).2.2.2,
       sB1 c ⟨n + 1, hn⟩ (notFirst (t := ⟨n + 1, hn⟩) (Nat.succ_ne_zero n)) (notLast (t := ⟨n + 1, hn⟩) h1) (iblk1 V c 0 ⟨n + 1, hn⟩)
          (outsAt1 c n (Nat.lt_of_succ_lt hn)).2.2.1 (outsAt1 c n (Nat.lt_of_succ_lt hn)).2.2.2)

/-- `outsAt1` at the first point. -/
theorem outsAt1_A (c : Dev nD) (t : Fin cfg1.N) (h : t.val = 0) :
    outsAt1 V c t.val t.isLt = (idleOut, idleOut,
      sA0 c t (isFirst h) (notLast_of_first h) (iblk1 V c 0 t), sA1 c t (isFirst h) (notLast_of_first h) (iblk1 V c 0 t)) := by
  obtain ⟨n, hn⟩ := t
  cases n with
  | zero => rfl
  | succ n => exact absurd h (Nat.succ_ne_zero n)

/-- `outsAt1` at a middle point: over what the point before left. -/
theorem outsAt1_B (c : Dev nD) (t : Fin cfg1.N) (h0 : t.val ≠ 0) (h1 : ¬t.val % 20 = 19) :
    outsAt1 V c t.val t.isLt = (idleOut, idleOut,
      sB0 c t (notFirst h0) (notLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
      sB1 c t (notFirst h0) (notLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : t.val ≠ 0) (h1 : t.val % 20 = 19) :
    outsAt1 V c t.val t.isLt = (
      oC1 c t (notFirst h0) (isLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
      oC2 c t (notFirst h0) (isLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
      sC0 c t (notFirst h0) (isLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
      sC1 c t (notFirst h0) (isLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The invariant between points -/

/-- Before position `n`: at the first point the class's invariant (both accumulators at anything); afterwards each
    accumulator at what the point before left in it, beside the rest. -/
def PhiS1 (c : Dev nD) : (n : ℕ) → n ≤ cfg1.N → sProp 𝕄
  | 0, _ => Pipeline.ΦA spec1 c
  | n + 1, hn => iprop(owns (c : Thread nD τ) scM1_0 fullShare (outsAt1 V c n hn).2.2.1 ∗ owns (c : Thread nD τ) scM1_1 fullShare (outsAt1 V c n hn).2.2.2 ∗ restOthers c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (outsAt1 V c n hn).2.2.1 ∗ owns (c : Thread nD τ) scM1_1 fullShare (outsAt1 V c n hn).2.2.2 ∗ restOthers c) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.2.1 ∗ owns (c : Thread nD τ) scM1_1 fullShare (outsAt1 V c (n - 1) (by omega)).2.2.2 ∗ restOthers c) := by
  cases n with
  | zero => exact absurd rfl hz
  | succ n => rfl

/-! ## The pipeline's proof data -/

/-- The proof data of region 1 on core `c`: the arrays as the region finds them; after the body at point `t` the input's
    buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q := fun _ => fullShare
  owed := fun _ => 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4800000 in
/-- The body at any point. The input's memref holds its block; the closed forms of the two conditions say which of the
    three cases the point is in; the invariant hands the body the accumulators (at anything at the first point, at what
    the point before left afterwards) and takes them back at this point's contents, each read back through the cover of
    its pieces; away from the last point the output buffers go back untouched, at the last point each holds the one whole
    store into it. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  by_cases hz : t.val = 0
  · -- the first point
    rw [Dat.leavesExact_idle (dat1 V c) 1 t (idleAt1_1 t (notLast_of_first hz)) (noFlush1_1 t (notLast_of_first hz))]
    rw [Dat.leavesExact_idle (dat1 V c) 2 t (idleAt1_2 t (notLast_of_first hz)) (noFlush1_2 t (notLast_of_first hz))]
    rw [outsAt1_A V c t hz]
    unfold sA0 sA1; (try dsimp only)
    rw [PhiS1_castSucc V c t, PhiS1_zero V c _ _ hz]
    iintro ⟨HΦ, Ho, ⟨%d0, H0⟩, ⟨%d1, H1⟩, ⟨%d2, H2⟩⟩
    ihave HΦ' := PhiA1_open (F := F) c $$ HΦ
    icases HΦ' with ⟨HS0, HS1, Hr⟩
    iapply ((runA c t (isFirst hz) (notLast_of_first hz) (iblk1 V c 0 t)).2.2.2.2 ((dat1 V c).before 1 t d1) ((dat1 V c).before 2 t d2) Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr]
    · isplitl [HS0]
      · unfold owns; iexists _; isplitr
        swap; · iexact HS0
        ipureintro; exact View.read_writes_of_cover _ _ _ _ _ (coverA_s0 c t _ _ _)
      isplitl [HS1]
      · unfold owns; iexists _; isplitr
        swap; · iexact HS1
        ipureintro; exact View.read_writes_of_cover _ _ _ _ _ (coverA_s1 c t _ _ _)
      iexact Hr
    isplitl [Ho]; · iexact Ho
    isplitl [H0]; · iexact H0
    isplitl [H1]; · iexists _; iexact H1
    iexists _; iexact H2
  · rw [PhiS1_castSucc V c t, PhiS1_pos V c _ _ hz]
    by_cases h1 : t.val % 20 = 19
    · -- the last point
      rw [show (dat1 V c).leavesExact 1 t = owns (c : Thread nD τ) (ms1_1 t) fullShare ((dat1 V c).after 1 t) from by
        unfold Dat.leavesExact; rw [liveAt1_1 t (isLast h1)], after1_1]
      rw [show (dat1 V c).leavesExact 2 t = owns (c : Thread nD τ) (ms1_2 t) fullShare ((dat1 V c).after 2 t) from by
        unfold Dat.leavesExact; rw [liveAt1_2 t (isLast h1)], after1_2]
      rw [outsAt1_C V c t hz h1]
      unfold oC1 oC2 sC0 sC1; (try dsimp only)
      iintro ⟨⟨HS0, HS1, Hr⟩, Ho, ⟨%d0, H0⟩, ⟨%d1, H1⟩, ⟨%d2, H2⟩⟩
      iapply ((runC c t (notFirst hz) (isLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (coverC_s0 c t _ _ _ _ _)
        isplitl [HS1]
        · unfold owns; iexists _; isplitr
          swap; · iexact HS1
          ipureintro; exact View.read_writes_of_cover _ _ _ _ _ (coverC_s1 c t _ _ _ _ _)
        iexact Hr
      isplitl [Ho]; · iexact Ho
      isplitl [H0]; · iexact H0
      isplitl [H1]
      · unfold owns; iexists _; isplitr
        swap; · iexact H1
        ipureintro; exact View.read_writes_of_cover _ _ _ _ _ (coverC_o1 c t _ _ _ _ _)
      unfold owns; iexists _; isplitr
      swap; · iexact H2
      ipureintro; exact View.read_writes_of_cover _ _ _ _ _ (coverC_o2 c t _ _ _ _ _)
    · -- a middle point
      rw [Dat.leavesExact_idle (dat1 V c) 1 t (idleAt1_1 t (notLast h1)) (noFlush1_1 t (notLast h1))]
      rw [Dat.leavesExact_idle (dat1 V c) 2 t (idleAt1_2 t (notLast h1)) (noFlush1_2 t (notLast h1))]
      rw [outsAt1_B V c t hz h1]
      unfold sB0 sB1; (try dsimp only)
      iintro ⟨⟨HS0, HS1, Hr⟩, Ho, ⟨%d0, H0⟩, ⟨%d1, H1⟩, ⟨%d2, H2⟩⟩
      iapply ((runB c t (notFirst hz) (notLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 ((dat1 V c).before 1 t d1) ((dat1 V c).before 2 t d2) Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (coverB_s0 c t _ _ _ _ _)
        isplitl [HS1]
        · unfold owns; iexists _; isplitr
          swap; · iexact HS1
          ipureintro; exact View.read_writes_of_cover _ _ _ _ _ (coverB_s1 c t _ _ _ _ _)
        iexact Hr
      isplitl [Ho]; · iexact Ho
      isplitl [H0]; · iexact H0
      isplitl [H1]; · iexists _; iexact H1
      iexists _; iexact H2

/-- The library's body obligation, at every point. -/
theorem body_obligation1 (c : Dev nD) : BodyObligation (dat1 V c) (defs₀ (F := F)) Variants.none () Set.univ := fun t => by
  rw [bigSep_W1, bigSep_W1]
  exact sound_body1 V c t

/-- What the launch hands the region is the invariant before the first point. -/
theorem Phi1_in (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the class's back: the accumulators' named contents are forgotten. -/
theorem Phi1_out (c : Dev nD) : (dat1 V c).Φ (Fin.last cfg1.N) ⊢ (Pipeline.ΦA spec1 c : sProp 𝕄) := by
  have hN : cfg1.N = 20 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega)]
  refine .trans ?_ (PhiA1_close (F := F) c)
  iintro ⟨HS0, HS1, Hr⟩
  isplitl [HS0]; · iexists _; iexact HS0
  isplitl [HS1]; · iexists _; iexact HS1
  iexact Hr

end Cert.Kernel.Hand

end
-- ==== Proof.K.Region2.lean ====
import proofs.«163546_j27127013442152_2_alg».proof.Proof.K.LaunchP
import proofs.«163546_j27127013442152_2_alg».proof.Proof.Gen.Kernel.Skeleton
import proofs.«163546_j27127013442152_2_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic

/-! # The normalisation epilogue (pallas_call 2): its half of the frame, at any float instance

The grid has 20 points; point `t` sees rows `5000·t … 5000·t + 4999` of the 100000×128 projected rows, four whole
1×128 rows (the column means, the reciprocal standard deviations, the scale and the shift), and writes rows
`5000·t …` of the 100000×128 result. The body reads each of its six buffers whole and overwrites the result buffer
whole with one value: entrywise, (x − mean)·rstd·scale + shift, then the maximum with zero, each row operand repeated
down the rows. So after the body every operand buffer holds what it held, and the result buffer holds that one value
of the five operand blocks. Everything here is stated at an arbitrary content `V` of the buffers on entry. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

-- the buffers' contents on entry to the region
variable (V : (c : Dev nD) → (b : Ref sig .tc) → Buf (Elt F) ((c : Thread nD τ).loc b))

/-! ## The operands' blocks -/

/-- Operand `w`'s block at point `t`: the rectangle of its array that the index map selects there, read off the
    entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The projected rows' buffer holds block `t` at point `t`: it is fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The row of column means is fetched once; its block index never moves, so the buffer holds it at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The row of reciprocal standard deviations likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The scale row likewise. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- The shift row likewise. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each buffer whole -/

abbrev tile2 : Rect S5000x128 := Rect.unit (s := S5000x128) ![0, 0] S5000x128.size inb_S5000x128_S5000x128_0_0
abbrev lane2 : Rect S1x128 := Rect.unit (s := S1x128) ![0, 0] S1x128.size inb_S1x128_S1x128_0_0

/-! ## What the body leaves in the result buffer -/

/-- The result buffer after the body, as a function of the five operand blocks: its one store, of the normalised and
    clamped rows, over the whole buffer. -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨tile2, k2_pay1 (View.ld x0 tile2) (View.ld x1 lane2) (View.ld x2 lane2) (View.ld x3 lane2) (View.ld x4 lane2)⟩]

/-- The one stored rectangle is the whole buffer, so every index of the buffer lies in it. -/
theorem cover2_5 (p0 : Vec F S5000x128 .f32) (y : S5000x128.Idx) :
    ∃ pc ∈ ([⟨tile2, p0⟩] : List (View.Piece (Elt F) S5000x128 .f32)), y ∈ pc.1.set :=
  View.cover_of_tiled [⟨tile2, p0⟩] S5000x128.size (by rfl) y

/-! ## The body's triple -/

set_option maxHeartbeats 1000000 in
/-- The body on six whole buffers — the five operands' at contents `x0 … x4`, the result's at anything — ends with
    the operands' buffers as they were and the result's at `out2_5 x0 … x4`. -/
theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__norm_kernel i arg1 harg1 arg2 harg2 arg3 harg3 arg4 harg4 arg5 harg5 arg6 harg6) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The region's proof data -/

/-- On core `c`: the arrays as found on entry; after the body at point `t` each operand's buffer at its block and the
    result's at `out2_5` of the five blocks; the invariant the scoped rest and the generator register, untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- The invariant is the same at every point. -/
theorem Phi2 (c : Dev nD) (t : Fin (cfg2.N + 1)) : (dat2 V c).Φ t = Pipeline.ΦA spec2 c := rfl

/-- What the body leaves, buffer by buffer. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each operand's buffer holds its block when the body is entered, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is entered with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it ends with. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the operands' buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the program's @main as five segments — the host operations before the first pallas call, the projection
  call, the statistics call, the host operations that turn the two column sums into mean and inverse standard deviation,
  and the normalisation call — with the contents of every unscoped buffer NAMED at each of the six boundaries:
  `W0` the launch memory, `W1` after the first host stretch, `W2`, `W3` after the first two calls (each call's arrays
  at what its write-backs leave, every other buffer as entered), `W4` after the second host stretch, `W5` at the end.
  The conclusion `run_main`: every weakly fair execution terminates and the final memory holds every unscoped buffer at
  `W5`. The argument arrays read back through the six boundaries are the launch contents (`W5_main_argK`).
  Stated at any float instance `F`.
-/
import proofs.«163546_j27127013442152_2_alg».proof.Proof.K.Region0
import proofs.«163546_j27127013442152_2_alg».proof.Proof.K.Region1
import proofs.«163546_j27127013442152_2_alg».proof.Proof.K.Region2
import Idealize.ShloMosaic.Lib.Pipeline.FrameSuffix
import Idealize.ShloMosaic.Lib.Pipeline.RegionsLoop

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the first call (the first call's entry). -/
abbrev W1 : Dev nD → Valuation τ sig (Elt F) := fun c => StableHlo.after hostOps0 (W0 m ρ c)
/-- The same read at the TensorCore's references. -/
abbrev Vr1 : (c : Dev nD) → (b : Ref sig .tc) → Buf (Elt F) ((c : Thread nD τ).loc b) := fun c b => W1 m ρ c b

/-- After the projection call: its arrays at what the pipeline leaves, every other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vr2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- After the statistics call. -/
def W3 (c : Dev nD) : Valuation τ sig (Elt F) :=
  Pipeline.withArrays spec1 c (W2 m ρ c) fun w => (dat1 (Vr2 m ρ) c).arrAt w cfg1.N
theorem W3_arr (c : Dev nD) (w : Fin cfg1.W) :
    W3 m ρ c (Proc.devRef .tc (Pipeline.arrRef spec1 w)) = (dat1 (Vr2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vr3 : (c : Dev nD) → (b : Ref sig .tc) → Buf (Elt F) ((c : Thread nD τ).loc b) := fun c b => W3 m ρ c b
theorem hF1 (c : Dev nD) (w : Fin cfg1.W) : (dat1 (Vr2 m ρ) c).arrAt w cfg1.N = Vr3 m ρ c (Pipeline.arrRef spec1 w) :=
  (W3_arr m ρ c w).symm
theorem hrest1 (c : Dev nD) : ∀ b, b ∉ Finset.univ.image (Pipeline.arrRef spec1) → Vr3 m ρ c b = Vr2 m ρ c b :=
  fun b hb => W3_of_ne m ρ c b fun w e => hb (Finset.mem_image.mpr ⟨w, Finset.mem_univ _, e⟩)

/-- After the host operations between the statistics call and the normalisation call (the last call's entry). -/
abbrev W4 : Dev nD → Valuation τ sig (Elt F) := fun c => StableHlo.after hostOps2 (W3 m ρ c)
abbrev Vr4 : (c : Dev nD) → (b : Ref sig .tc) → Buf (Elt F) ((c : Thread nD τ).loc b) := fun c b => W4 m ρ c b

/-- After the normalisation call: the end of @main. -/
def W5 (c : Dev nD) : Valuation τ sig (Elt F) :=
  Pipeline.withArrays spec2 c (W4 m ρ c) fun w => (dat2 (Vr4 m ρ) c).arrAt w cfg2.N
theorem W5_arr (c : Dev nD) (w : Fin cfg2.W) :
    W5 m ρ c (Proc.devRef .tc (Pipeline.arrRef spec2 w)) = (dat2 (Vr4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev Vr5 : (c : Dev nD) → (b : Ref sig .tc) → Buf (Elt F) ((c : Thread nD τ).loc b) := fun c b => W5 m ρ c b
theorem hF2 (c : Dev nD) (w : Fin cfg2.W) : (dat2 (Vr4 m ρ) c).arrAt w cfg2.N = Vr5 m ρ c (Pipeline.arrRef spec2 w) :=
  (W5_arr m ρ c w).symm
theorem hrest2 (c : Dev nD) : ∀ b, b ∉ Finset.univ.image (Pipeline.arrRef spec2) → Vr5 m ρ c b = Vr4 m ρ c b :=
  fun b hb => W5_of_ne m ρ c b fun w e => hb (Finset.mem_image.mpr ⟨w, Finset.mem_univ _, e⟩)

/-! ## The arguments end as launched

No host operation writes an argument and no call may change one: a call reads it through an input window (the
projection call reads x, W and the skip weights) or bypasses it. So each boundary's contents at an argument's buffer
are the previous boundary's, back to the launch memory. -/

/-- No operation of a host stretch writes the buffer asked about: one small goal per operation. -/
local macro "keeps_through " ops:ident : tactic =>
  `(tactic| (refine List.forall_iff_forall_mem.mp ?_; simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide)))

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (by keeps_through hostOps2)
    _ = W2 m ρ c (Proc.devRef .tc main_arg0) := W3_of_ne m ρ c main_arg0 (by decide)
    _ = W1 m ρ c (Proc.devRef .tc main_arg0) := (W2_arr m ρ c 1).trans (((dat0 (Vr1 m ρ) c).arrAt_in 1 rfl _).trans (A_eq0 (Vr1 m ρ) c 1))
    _ = W0 m ρ c (Proc.devRef .tc main_arg0) := StableHlo.after_of_forall_not_mem (b := Proc.devRef .tc main_arg0) _ _ (by keeps_through hostOps0)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (by keeps_through hostOps2)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (by keeps_through hostOps0)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (by keeps_through hostOps2)
    _ = W2 m ρ c (Proc.devRef .tc main_arg2) := W3_of_ne m ρ c main_arg2 (by decide)
    _ = W1 m ρ c (Proc.devRef .tc main_arg2) := (W2_arr m ρ c 2).trans (((dat0 (Vr1 m ρ) c).arrAt_in 2 rfl _).trans (A_eq0 (Vr1 m ρ) c 2))
    _ = W0 m ρ c (Proc.devRef .tc main_arg2) := StableHlo.after_of_forall_not_mem (b := Proc.devRef .tc main_arg2) _ _ (by keeps_through hostOps0)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (by keeps_through hostOps2)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (by keeps_through hostOps0)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (by keeps_through hostOps2)
    _ = W2 m ρ c (Proc.devRef .tc main_arg4) := W3_of_ne m ρ c main_arg4 (by decide)
    _ = W1 m ρ c (Proc.devRef .tc main_arg4) := (W2_arr m ρ c 3).trans (((dat0 (Vr1 m ρ) c).arrAt_in 3 rfl _).trans (A_eq0 (Vr1 m ρ) c 3))
    _ = W0 m ρ c (Proc.devRef .tc main_arg4) := StableHlo.after_of_forall_not_mem (b := Proc.devRef .tc main_arg4) _ _ (by keeps_through hostOps0)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (by keeps_through hostOps2)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (by keeps_through hostOps0)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (by keeps_through hostOps2)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (by keeps_through hostOps0)
    _ = m ((c : Thread nD τ).loc main_arg6) := rfl

/-! ## The proof data family and the thread state -/

/-- No pallas call of this program has a prefetched table. -/
abbrev admH : (p : Fin 3) → (pcfgs (F := F) p).Adm := fun p => (cfgs p).toPCfg_adm
/-- Every pipeline's proof data, each at the contents its call is entered from. -/
def pdats : (p : Fin 3) → (c : Dev nD) → Dat τ (Elt F) Unit ℕ (UR sig nD τ) ℕ (Pipeline.pin (pcfgs (F := F)) admH p) c
  | ⟨0, _⟩ => fun c => dat0 (Vr1 m ρ) c
  | ⟨1, _⟩ => fun c => dat1 (Vr2 m ρ) c
  | ⟨2, _⟩ => fun c => dat2 (Vr4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The pallas calls as segments -/

set_option backward.isDefEq.respectTransparency.types false in
/-- The projection call as a segment: entered with every unscoped buffer at `W1`, left with them at `W2`. Its arrays are
    split out of the unscoped buffers on entry and put back at what its write-backs leave on exit; the generator register
    passes through the body's invariant; nothing is owed; the body has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The statistics call as a segment: entered at `W2`, left at `W3`. Its body carries the two accumulators in scratch
    buffers from one grid point to the next: the body's invariant is the plain one (the scratch at anything) before the
    first point and yields the plain one back after the last (`Phi1_in`, `Phi1_out`). -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m ρ 1 c).Φ 0 from Phi1_in (Vr2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from Phi1_out (Vr2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalisation call as a segment, the last of @main: entered at `W4`, left at `W5` beside the core owing nothing. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr4 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (Vr4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (Vr4 m ρ c) (Vr5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) admH (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final memory holds every unscoped buffer at the last boundary's contents `W5`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.Kernel.Hand

end
-- ==== Proof.K.Frame.lean ====
/-
  The frame of the program, read off its run: the final memory holds every unscoped buffer at the last boundary's
  contents, and at an argument's buffer those are the launch contents.
-/
import proofs.«163546_j27127013442152_2_alg».proof.Proof.K.Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates, nothing faulting, and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩)
    (run_main m ρ)

/-- The same run, keeping also what the result buffer holds at the end. -/
theorem frame_with_result : θ_run defs (onTc (τ := τ) (main (F := F))) ⟨m, fun _ => 0, ρ⟩ (fun r => ∀ c : Dev nD,
      r.2.mem ((c.tc : Thread nD τ).loc main_v54) = W5 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v54 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩)
    (run_main m ρ)

end Cert.Kernel.Hand

end
-- ==== Proof.KI.Region0.lean ====
import proofs.«163546_j27127013442152_2_alg».proof.Proof.KI.LaunchP
import proofs.«163546_j27127013442152_2_alg».proof.Proof.Gen.KernelIdeal.Skeleton
import proofs.«163546_j27127013442152_2_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

/-! # The fused projection (pallas_call 0): its half of the frame, at any float instance

The grid has 20 points; point `t` sees rows `5000·t … 5000·t + 4999` of the two 100000×64 row operands
(the aggregated rows and the input rows), the two whole 64×128 weight matrices, the whole 1×128 bias row, and writes
rows `5000·t …` of the 100000×128 result. The body reads each of its six buffers whole and overwrites the result
buffer whole with one value: the sum of the two products plus the bias row repeated down the rows. So after the body
every operand buffer holds what it held, and the result buffer holds that one value of the five operand blocks.
Everything here is stated at an arbitrary content `V` of the buffers on entry. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

-- the buffers' contents on entry to the region
variable (V : (c : Dev nD) → (b : Ref sig .tc) → Buf (Elt F) ((c : Thread nD τ).loc b))

/-! ## The operands' blocks -/

/-- Operand `w`'s block at point `t`: the rectangle of its array that the index map selects there, read off the
    entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The aggregated rows' buffer holds block `t` at point `t`: it is fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The input rows' buffer holds block `t` at point `t`: it is fetched there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The first weight matrix is fetched once; its block index never moves, so the buffer holds it at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The second weight matrix likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- The bias row likewise. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each buffer whole -/

abbrev rows0 : Rect S5000x64 := Rect.unit (s := S5000x64) ![0, 0] S5000x64.size inb_S5000x64_S5000x64_0_0
abbrev weights0 : Rect S64x128 := Rect.unit (s := S64x128) ![0, 0] S64x128.size inb_S64x128_S64x128_0_0
abbrev bias0 : Rect S1x128 := Rect.unit (s := S1x128) ![0, 0] S1x128.size inb_S1x128_S1x128_0_0
abbrev res0 : Rect S5000x128 := Rect.unit (s := S5000x128) ![0, 0] S5000x128.size inb_S5000x128_S5000x128_0_0

/-! ## What the body leaves in the result buffer -/

/-- The result buffer after the body, as a function of the five operand blocks: its one store, of the projected
    rows, over the whole buffer. -/
def out0_5 (x0 : Vec F S5000x64 .f32) (x1 : Vec F S5000x64 .f32) (x2 : Vec F S64x128 .f32) (x3 : Vec F S64x128 .f32) (x4 : Vec F S1x128 .f32) : Vec F S5000x128 .f32 :=
  View.canon [⟨res0, k0_pay1 (View.ld x0 rows0) (View.ld x1 rows0) (View.ld x2 weights0) (View.ld x3 weights0) (View.ld x4 bias0)⟩]

/-- The one stored rectangle is the whole buffer, so every index of the buffer lies in it. -/
theorem cover0_5 (p0 : Vec F S5000x128 .f32) (y : S5000x128.Idx) :
    ∃ pc ∈ ([⟨res0, p0⟩] : List (View.Piece (Elt F) S5000x128 .f32)), y ∈ pc.1.set :=
  View.cover_of_tiled [⟨res0, p0⟩] S5000x128.size (by rfl) y

/-! ## The body's triple -/

set_option maxHeartbeats 1000000 in
/-- The body on six whole buffers — the five operands' at contents `x0 … x4`, the result's at anything — ends with
    the operands' buffers as they were and the result's at `out0_5 x0 … x4`. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x64 .f32) (x1 : Vec F S5000x64 .f32) (x2 : Vec F S64x128 .f32) (x3 : Vec F S64x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The region's proof data -/

/-- On core `c`: the arrays as found on entry; after the body at point `t` each operand's buffer at its block and the
    result's at `out0_5` of the five blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- The invariant is the same at every point. -/
theorem Phi0 (c : Dev nD) (t : Fin (cfg0.N + 1)) : (dat0 V c).Φ t = Pipeline.ΦA spec0 c := rfl

/-- What the body leaves, buffer by buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each operand's buffer holds its block when the body is entered, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is entered with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it ends with. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the operands' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.Runs.lean ====
/- Region 1 of the program (the statistics reduction): the facts its frame proof shares — the body's two branch
   conditions decided over the twenty grid points, where the output windows are idle, the memrefs the body is called with —
   and the body run once in each of its three control cases: the first point (both accumulators zeroed, then accumulated
   into), a middle point (accumulated into), the last point (accumulated into, then copied to the two output buffers).
   Generic in the float instance. -/
import proofs.«163546_j27127013442152_2_alg».proof.Proof.Gen.KernelIdeal.Skeleton
import proofs.«163546_j27127013442152_2_alg».proof.Proof.KI.LaunchP
import proofs.«163546_j27127013442152_2_alg».proof.Proof.Gen.KernelIdeal.Points
import Idealize.ShloMosaic.Lib.Pipeline.Frame
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

/-! ## The body's two branch conditions, decided over the twenty grid points -/

/-- The first `scf.if`: the grid coordinate is 0 (the kernel's scalar chain, substituted). -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 20 = 0 :=
  (by decide +kernel : ∀ t : Fin grid1.N, cond1_0 (grid1.coords t) ↔ t.val % 20 = 0)

/-- The second `scf.if`: the grid coordinate is 19. -/
abbrev cond1_1 (i : grid1.Coords) : Prop := k1_cond2 i = 1#1
/-- It holds at the last point only. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- The input window is never idle. -/
theorem liveAt1_0 : ∀ t : Fin cfg1.N, cfg1.idle 0 (grid1.coords t) = false := by decide +kernel
/-- Away from the last point the two output windows are idle and are not written back. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point both are live. -/
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-! ## The memrefs the body is called with -/

/-- One staging buffer of each output window, through which its contents are stated. -/
abbrev VO1_1 : View sig .tc .vmem S1x128 .f32 := (Memref.whole cc1_stg1_0 : Memref sig .tc .vmem S1x128 .f32).view
abbrev VO1_2 : View sig .tc .vmem S1x128 .f32 := (Memref.whole cc1_stg2_0 : Memref sig .tc .vmem S1x128 .f32).view
/-- Each window's current staging memref at point `t`, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
/-- The two accumulators: whole scoped buffers of the kernel's own, carried from one grid point to the next. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

set_option maxHeartbeats 1000000 in
/-- THE FIRST POINT (the first conditional taken, the second not). On whole memrefs — the input block at `x0`, the two
    output buffers at `xi1`, `xi2` (handed back untouched), the two accumulators at anything — the body runs to a
    continuation that holds the input as it was, the outputs untouched, and each accumulator with the pieces its stores
    wrote: first the zero vector, then the zero vector plus the block's column sums (of its squares). The piece lists are
    the witness the symbolic run finds. -/
noncomputable def kernelRun1_A (c : Dev nD) (i : grid1.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (hc0 : cond1_0 i) (hc1 : ¬cond1_1 i) (x0 : Vec F S5000x128 .f32) :
    Σ' (L1 : List (View.Piece (Elt F) S1x128 .f32)) (L2 : List (View.Piece (Elt F) S1x128 .f32)) (LS0 : List (View.Piece (Elt F) S1x128 .f32)),
      { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨[], [], ?_, ?_, fun xi1 xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- A MIDDLE POINT (neither conditional taken). The accumulators arrive at `xs0`, `xs1`, what the point before left;
    each is stored once, with its contents plus the block's column sums (of its squares); the outputs are untouched. -/
noncomputable def kernelRun1_B (c : Dev nD) (i : grid1.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (hc0 : ¬cond1_0 i) (hc1 : ¬cond1_1 i) (x0 : Vec F S5000x128 .f32) (xs0 xs1 : Vec F S1x128 .f32) :
    Σ' (L1 : List (View.Piece (Elt F) S1x128 .f32)) (L2 : List (View.Piece (Elt F) S1x128 .f32)) (LS0 : List (View.Piece (Elt F) S1x128 .f32)),
      { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨[], [], ?_, ?_, fun xi1 xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- THE LAST POINT (the second conditional taken). As at a middle point, and then each accumulator is copied whole into
    its output buffer, which arrives at anything. -/
noncomputable def kernelRun1_C (c : Dev nD) (i : grid1.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (hc0 : ¬cond1_0 i) (hc1 : cond1_1 i) (x0 : Vec F S5000x128 .f32) (xs0 xs1 : Vec F S1x128 .f32) :
    Σ' (L1 : List (View.Piece (Elt F) S1x128 .f32)) (L2 : List (View.Piece (Elt F) S1x128 .f32)) (LS0 : List (View.Piece (Elt F) S1x128 .f32)),
      { LS1 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.KI.Region1.lean ====
/- Region 1 of the program (the statistics reduction), the frame half, at any contents `V` of the core's buffers when
   the region is entered and at any float instance. The grid has twenty points; the input window brings one block of 5000
   rows per point; the two accumulators are scoped buffers of the kernel's own that keep their contents from one point to
   the next, and the two output windows are written only at the last point. Here: the region's invariant opened around
   the two accumulators; what each of the three control cases leaves in the accumulators and in the output buffers, with
   the covers that let these be read back; the accumulation point by point (`outsAt1`); the invariant between points
   (`PhiS1`: the class's before the first point, afterwards each accumulator at what the point before left); the proof
   data `dat1`; the body obligation; and that the invariant is the class's on entry and gives it back on exit. -/
import proofs.«163546_j27127013442152_2_alg».proof.Proof.KI.Region1.Runs
import Idealize.ShloMosaic.Lib.Pipeline.Frame
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

/-! ## The region's invariant, opened -/

/-- A scoped buffer of the core, whole, at some contents. -/
abbrev anyAt (c : Dev nD) (r : Ref sig .tc) : sProp 𝕄 :=
  iprop(∃ f : Buf (Elt F) ((c : Thread nD τ).loc r), ((c : Thread nD τ).loc r) ↦{fullShare} f)

/-- What the region's invariant holds beside the two accumulators: the other calls' staging buffers, each whole at some
    contents, and the generator register at some state. -/
def restOthers (c : Dev nD) : sProp 𝕄 :=
  iprop(anyAt c cc0_stg0_0 ∗ anyAt c cc0_stg0_1 ∗ anyAt c cc0_stg1_0 ∗ anyAt c cc0_stg1_1 ∗ anyAt c cc0_stg2_0 ∗
    anyAt c cc0_stg3_0 ∗ anyAt c cc0_stg4_0 ∗ anyAt c cc0_stg5_0 ∗ anyAt c cc0_stg5_1 ∗ anyAt c cc2_stg0_0 ∗
    anyAt c cc2_stg0_1 ∗ anyAt c cc2_stg1_0 ∗ anyAt c cc2_stg2_0 ∗ anyAt c cc2_stg3_0 ∗ anyAt c cc2_stg4_0 ∗
    anyAt c cc2_stg5_0 ∗ anyAt c cc2_stg5_1 ∗
    (∃ r, prngReg c r))

/-- The class's invariant with the two accumulators as memrefs owned at some contents. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_stg2_0 ∗
          anyAt c cc0_stg3_0 ∗ anyAt c cc0_stg4_0 ∗ anyAt c cc0_stg5_0 ∗ anyAt c cc0_stg5_1 ∗
          (∃ d, owns (c : Thread nD τ) scM1_0 fullShare d) ∗ (∃ d, owns (c : Thread nD τ) scM1_1 fullShare d) ∗
          anyAt c cc2_stg0_0 ∗ anyAt c cc2_stg0_1 ∗ anyAt c cc2_stg1_0 ∗ anyAt c cc2_stg2_0 ∗ anyAt c cc2_stg3_0 ∗
          anyAt c cc2_stg4_0 ∗ anyAt c cc2_stg5_0 ∗ anyAt c cc2_stg5_1) ∗
        (∃ r, prngReg c r)) := by
  unfold Pipeline.ΦA; rw [scopedRest1_eq]; simp only [scM1_0, scM1_1, owns_whole]; try rfl

/-- The accumulators taken out of the class's invariant, -/
theorem PhiA1_open (c : Dev nD) :
    (Pipeline.ΦA spec1 c : sProp 𝕄) ⊢ iprop((∃ d, owns (c : Thread nD τ) scM1_0 fullShare d) ∗ (∃ d, owns (c : Thread nD τ) scM1_1 fullShare d) ∗ restOthers c) := by
  rw [PhiA1_eq]; unfold restOthers
  iintro ⟨⟨Ha0, Ha1, Ha2, Ha3, Ha4, Ha5, Ha6, Ha7, Ha8, HS0, HS1, Hb0, Hb1, Hb2, Hb3, Hb4, Hb5, Hb6, Hb7⟩, Hg⟩
  isplitl [HS0]; · iexact HS0
  isplitl [HS1]; · iexact HS1
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  iexact Hg

/-- and put back. -/
theorem PhiA1_close (c : Dev nD) :
    iprop((∃ d, owns (c : Thread nD τ) scM1_0 fullShare d) ∗ (∃ d, owns (c : Thread nD τ) scM1_1 fullShare d) ∗ restOthers c) ⊢ (Pipeline.ΦA spec1 c : sProp 𝕄) := by
  rw [PhiA1_eq]; unfold restOthers
  iintro ⟨HS0, HS1, Ha0, Ha1, Ha2, Ha3, Ha4, Ha5, Ha6, Ha7, Ha8, Hb0, Hb1, Hb2, Hb3, Hb4, Hb5, Hb6, Hb7, Hg⟩
  isplitr [Hg]; swap; · iexact Hg
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [HS0]; · iexact HS0
  isplitl [HS1]; · iexact HS1
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  iexact Hb7

/-! ## Which case a point is in -/

theorem isFirst {t : Fin cfg1.N} (h : t.val = 0) : cond1_0 (grid1.coords t) := (hcond1_0 t).mpr (by omega)
theorem notLast_of_first {t : Fin cfg1.N} (h : t.val = 0) : ¬cond1_1 (grid1.coords t) :=
  fun hh => by have := (hcond1_1 t).mp hh; omega
theorem notFirst {t : Fin cfg1.N} (h : t.val ≠ 0) : ¬cond1_0 (grid1.coords t) :=
  fun hh => by have := (hcond1_0 t).mp hh; have hN : t.val < 20 := lt_of_lt_of_eq t.isLt (show cfg1.N = 20 from N_1); omega
theorem isLast {t : Fin cfg1.N} (h : t.val % 20 = 19) : cond1_1 (grid1.coords t) := (hcond1_1 t).mpr h
theorem notLast {t : Fin cfg1.N} (h : ¬t.val % 20 = 19) : ¬cond1_1 (grid1.coords t) := fun hh => h ((hcond1_1 t).mp hh)

/-! ## What each case leaves, at a grid point's own memrefs -/

/-- An idle output window's buffer: a placeholder nothing consults (the window is neither written back at such a point
    nor read at the next). -/
def idleOut : Vec F S1x128 .f32 := VO1_1.read (Elt F) (VO1_1.writes (Elt F) VO1_1.junk [])

abbrev runA (c : Dev nD) (t : Fin cfg1.N) (hc0 : cond1_0 (grid1.coords t)) (hc1 : ¬cond1_1 (grid1.coords t))
    (x0 : Vec F S5000x128 .f32) :=
  kernelRun1_A (F := F) c (grid1.coords t) (ms1_0 t) (hs1_0 t) (ms1_1 t) (hs1_1 t) (ms1_2 t) (hs1_2 t) scM1_0 (Memref.isWhole_whole _) scM1_1 (Memref.isWhole_whole _) hc0 hc1 x0

/-- What this case leaves in the two accumulators: its pieces read back. -/
def sA0 (c : Dev nD) (t : Fin cfg1.N) (hc0 : cond1_0 (grid1.coords t)) (hc1 : ¬cond1_1 (grid1.coords t)) (x0 : Vec F S5000x128 .f32) : Vec F S1x128 .f32 :=
  VS1_0.read (Elt F) (VS1_0.writes (Elt F) VS1_0.junk (runA c t hc0 hc1 x0).2.2.1)
def sA1 (c : Dev nD) (t : Fin cfg1.N) (hc0 : cond1_0 (grid1.coords t)) (hc1 : ¬cond1_1 (grid1.coords t)) (x0 : Vec F S5000x128 .f32) : Vec F S1x128 .f32 :=
  VS1_1.read (Elt F) (VS1_1.writes (Elt F) VS1_1.junk (runA c t hc0 hc1 x0).2.2.2.1)
/-- Its pieces for each accumulator tile the accumulator, so they cover it. -/
theorem coverA_s0 (c : Dev nD) (t : Fin cfg1.N) (hc0 : cond1_0 (grid1.coords t)) (hc1 : ¬cond1_1 (grid1.coords t)) (x0 : Vec F S5000x128 .f32) (y : S1x128.Idx) :
    ∃ pc ∈ (runA c t hc0 hc1 x0).2.2.1, y ∈ pc.1.set :=
  View.cover_of_tiledL (runA c t hc0 hc1 x0).2.2.1 S1x128.size (by sl_kernel_rfl) y
theorem coverA_s1 (c : Dev nD) (t : Fin cfg1.N) (hc0 : cond1_0 (grid1.coords t)) (hc1 : ¬cond1_1 (grid1.coords t)) (x0 : Vec F S5000x128 .f32) (y : S1x128.Idx) :
    ∃ pc ∈ (runA c t hc0 hc1 x0).2.2.2.1, y ∈ pc.1.set :=
  View.cover_of_tiledL (runA c t hc0 hc1 x0).2.2.2.1 S1x128.size (by sl_kernel_rfl) y

abbrev runB (c : Dev nD) (t : Fin cfg1.N) (hc0 : ¬cond1_0 (grid1.coords t)) (hc1 : ¬cond1_1 (grid1.coords t))
    (x0 : Vec F S5000x128 .f32) (xs0 xs1 : Vec F S1x128 .f32) :=
  kernelRun1_B (F := F) c (grid1.coords t) (ms1_0 t) (hs1_0 t) (ms1_1 t) (hs1_1 t) (ms1_2 t) (hs1_2 t) scM1_0 (Memref.isWhole_whole _) scM1_1 (Memref.isWhole_whole _) hc0 hc1 x0 xs0 xs1

/-- What this case leaves in the two accumulators: its pieces read back. -/
def sB0 (c : Dev nD) (t : Fin cfg1.N) (hc0 : ¬cond1_0 (grid1.coords t)) (hc1 : ¬cond1_1 (grid1.coords t)) (x0 : Vec F S5000x128 .f32) (xs0 xs1 : Vec F S1x128 .f32) : Vec F S1x128 .f32 :=
  VS1_0.read (Elt F) (VS1_0.writes (Elt F) VS1_0.junk (runB c t hc0 hc1 x0 xs0 xs1).2.2.1)
def sB1 (c : Dev nD) (t : Fin cfg1.N) (hc0 : ¬cond1_0 (grid1.coords t)) (hc1 : ¬cond1_1 (grid1.coords t)) (x0 : Vec F S5000x128 .f32) (xs0 xs1 : Vec F S1x128 .f32) : Vec F S1x128 .f32 :=
  VS1_1.read (Elt F) (VS1_1.writes (Elt F) VS1_1.junk (runB c t hc0 hc1 x0 xs0 xs1).2.2.2.1)
/-- Its pieces for each accumulator tile the accumulator, so they cover it. -/
theorem coverB_s0 (c : Dev nD) (t : Fin cfg1.N) (hc0 : ¬cond1_0 (grid1.coords t)) (hc1 : ¬cond1_1 (grid1.coords t)) (x0 : Vec F S5000x128 .f32) (xs0 xs1 : Vec F S1x128 .f32) (y : S1x128.Idx) :
    ∃ pc ∈ (runB c t hc0 hc1 x0 xs0 xs1).2.2.1, y ∈ pc.1.set :=
  View.cover_of_tiledL (runB c t hc0 hc1 x0 xs0 xs1).2.2.1 S1x128.size (by sl_kernel_rfl) y
theorem coverB_s1 (c : Dev nD) (t : Fin cfg1.N) (hc0 : ¬cond1_0 (grid1.coords t)) (hc1 : ¬cond1_1 (grid1.coords t)) (x0 : Vec F S5000x128 .f32) (xs0 xs1 : Vec F S1x128 .f32) (y : S1x128.Idx) :
    ∃ pc ∈ (runB c t hc0 hc1 x0 xs0 xs1).2.2.2.1, y ∈ pc.1.set :=
  View.cover_of_tiledL (runB c t hc0 hc1 x0 xs0 xs1).2.2.2.1 S1x128.size (by sl_kernel_rfl) y

abbrev runC (c : Dev nD) (t : Fin cfg1.N) (hc0 : ¬cond1_0 (grid1.coords t)) (hc1 : cond1_1 (grid1.coords t))
    (x0 : Vec F S5000x128 .f32) (xs0 xs1 : Vec F S1x128 .f32) :=
  kernelRun1_C (F := F) c (grid1.coords t) (ms1_0 t) (hs1_0 t) (ms1_1 t) (hs1_1 t) (ms1_2 t) (hs1_2 t) scM1_0 (Memref.isWhole_whole _) scM1_1 (Memref.isWhole_whole _) hc0 hc1 x0 xs0 xs1

/-- What this case leaves in the two accumulators: its pieces read back. -/
def sC0 (c : Dev nD) (t : Fin cfg1.N) (hc0 : ¬cond1_0 (grid1.coords t)) (hc1 : cond1_1 (grid1.coords t)) (x0 : Vec F S5000x128 .f32) (xs0 xs1 : Vec F S1x128 .f32) : Vec F S1x128 .f32 :=
  VS1_0.read (Elt F) (VS1_0.writes (Elt F) VS1_0.junk (runC c t hc0 hc1 x0 xs0 xs1).2.2.1)
def sC1 (c : Dev nD) (t : Fin cfg1.N) (hc0 : ¬cond1_0 (grid1.coords t)) (hc1 : cond1_1 (grid1.coords t)) (x0 : Vec F S5000x128 .f32) (xs0 xs1 : Vec F S1x128 .f32) : Vec F S1x128 .f32 :=
  VS1_1.read (Elt F) (VS1_1.writes (Elt F) VS1_1.junk (runC c t hc0 hc1 x0 xs0 xs1).2.2.2.1)
/-- Its pieces for each accumulator tile the accumulator, so they cover it. -/
theorem coverC_s0 (c : Dev nD) (t : Fin cfg1.N) (hc0 : ¬cond1_0 (grid1.coords t)) (hc1 : cond1_1 (grid1.coords t)) (x0 : Vec F S5000x128 .f32) (xs0 xs1 : Vec F S1x128 .f32) (y : S1x128.Idx) :
    ∃ pc ∈ (runC c t hc0 hc1 x0 xs0 xs1).2.2.1, y ∈ pc.1.set :=
  View.cover_of_tiledL (runC c t hc0 hc1 x0 xs0 xs1).2.2.1 S1x128.size (by sl_kernel_rfl) y
theorem coverC_s1 (c : Dev nD) (t : Fin cfg1.N) (hc0 : ¬cond1_0 (grid1.coords t)) (hc1 : cond1_1 (grid1.coords t)) (x0 : Vec F S5000x128 .f32) (xs0 xs1 : Vec F S1x128 .f32) (y : S1x128.Idx) :
    ∃ pc ∈ (runC c t hc0 hc1 x0 xs0 xs1).2.2.2.1, y ∈ pc.1.set :=
  View.cover_of_tiledL (runC c t hc0 hc1 x0 xs0 xs1).2.2.2.1 S1x128.size (by sl_kernel_rfl) y

/-- What the last point leaves in the two output buffers, -/
def oC1 (c : Dev nD) (t : Fin cfg1.N) (hc0 : ¬cond1_0 (grid1.coords t)) (hc1 : cond1_1 (grid1.coords t)) (x0 : Vec F S5000x128 .f32) (xs0 xs1 : Vec F S1x128 .f32) : Vec F S1x128 .f32 :=
  VO1_1.read (Elt F) (VO1_1.writes (Elt F) VO1_1.junk (runC c t hc0 hc1 x0 xs0 xs1).1)
def oC2 (c : Dev nD) (t : Fin cfg1.N) (hc0 : ¬cond1_0 (grid1.coords t)) (hc1 : cond1_1 (grid1.coords t)) (x0 : Vec F S5000x128 .f32) (xs0 xs1 : Vec F S1x128 .f32) : Vec F S1x128 .f32 :=
  VO1_2.read (Elt F) (VO1_2.writes (Elt F) VO1_2.junk (runC c t hc0 hc1 x0 xs0 xs1).2.1)
/-- each covered by the one whole store into it. -/
theorem coverC_o1 (c : Dev nD) (t : Fin cfg1.N) (hc0 : ¬cond1_0 (grid1.coords t)) (hc1 : cond1_1 (grid1.coords t)) (x0 : Vec F S5000x128 .f32) (xs0 xs1 : Vec F S1x128 .f32) (y : S1x128.Idx) :
    ∃ pc ∈ (runC c t hc0 hc1 x0 xs0 xs1).1, y ∈ pc.1.set :=
  View.cover_of_tiledL (runC c t hc0 hc1 x0 xs0 xs1).1 S1x128.size (by sl_kernel_rfl) y
theorem coverC_o2 (c : Dev nD) (t : Fin cfg1.N) (hc0 : ¬cond1_0 (grid1.coords t)) (hc1 : cond1_1 (grid1.coords t)) (x0 : Vec F S5000x128 .f32) (xs0 xs1 : Vec F S1x128 .f32) (y : S1x128.Idx) :
    ∃ pc ∈ (runC c t hc0 hc1 x0 xs0 xs1).2.1, y ∈ pc.1.set :=
  View.cover_of_tiledL (runC c t hc0 hc1 x0 xs0 xs1).2.1 S1x128.size (by sl_kernel_rfl) y

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What the buffers hold after each point -/

/-- THE ACCUMULATION. After the body at position `n`: the two output buffers, then the two accumulators. The first point
    zeroes the accumulators and adds its block's column sums (of squares); every later point adds its own to what the
    point before left; the last point also copies both accumulators to the output buffers. -/
def outsAt1 (c : Dev nD) : (n : ℕ) → n < cfg1.N → Vec F S1x128 .f32 × Vec F S1x128 .f32 × Vec F S1x128 .f32 × Vec F S1x128 .f32
  | 0, hn => (idleOut, idleOut,
      sA0 c ⟨0, hn⟩ (isFirst (t := ⟨0, hn⟩) rfl) (notLast_of_first (t := ⟨0, hn⟩) rfl) (iblk1 V c 0 ⟨0, hn⟩),
      sA1 c ⟨0, hn⟩ (isFirst (t := ⟨0, hn⟩) rfl) (notLast_of_first (t := ⟨0, hn⟩) rfl) (iblk1 V c 0 ⟨0, hn⟩))
  | n + 1, hn =>
    if h1 : (n + 1) % 20 = 19 then
      (oC1 c ⟨n + 1, hn⟩ (notFirst (t := ⟨n + 1, hn⟩) (Nat.succ_ne_zero n)) (isLast (t := ⟨n + 1, hn⟩) h1) (iblk1 V c 0 ⟨n + 1, hn⟩)
          (outsAt1 c n (Nat.lt_of_succ_lt hn)).2.2.1 (outsAt1 c n (Nat.lt_of_succ_lt hn)).2.2.2,
       oC2 c ⟨n + 1, hn⟩ (notFirst (t := ⟨n + 1, hn⟩) (Nat.succ_ne_zero n)) (isLast (t := ⟨n + 1, hn⟩) h1) (iblk1 V c 0 ⟨n + 1, hn⟩)
          (outsAt1 c n (Nat.lt_of_succ_lt hn)).2.2.1 (outsAt1 c n (Nat.lt_of_succ_lt hn)).2.2.2,
       sC0 c ⟨n + 1, hn⟩ (notFirst (t := ⟨n + 1, hn⟩) (Nat.succ_ne_zero n)) (isLast (t := ⟨n + 1, hn⟩) h1) (iblk1 V c 0 ⟨n + 1, hn⟩)
          (outsAt1 c n (Nat.lt_of_succ_lt hn)).2.2.1 (outsAt1 c n (Nat.lt_of_succ_lt hn)).2.2.2,
       sC1 c ⟨n + 1, hn⟩ (notFirst (t := ⟨n + 1, hn⟩) (Nat.succ_ne_zero n)) (isLast (t := ⟨n + 1, hn⟩) h1) (iblk1 V c 0 ⟨n + 1, hn⟩)
          (outsAt1 c n (Nat.lt_of_succ_lt hn)).2.2.1 (outsAt1 c n (Nat.lt_of_succ_lt hn)).2.2.2)
    else
      (idleOut, idleOut,
       sB0 c ⟨n + 1, hn⟩ (notFirst (t := ⟨n + 1, hn⟩) (Nat.succ_ne_zero n)) (notLast (t := ⟨n + 1, hn⟩) h1) (iblk1 V c 0 ⟨n + 1, hn⟩)
          (outsAt1 c n (Nat.lt_of_succ_lt hn)).2.2.1 (outsAt1 c n (Nat.lt_of_succ_lt hn)).2.2.2,
       sB1 c ⟨n + 1, hn⟩ (notFirst (t := ⟨n + 1, hn⟩) (Nat.succ_ne_zero n)) (notLast (t := ⟨n + 1, hn⟩) h1) (iblk1 V c 0 ⟨n + 1, hn⟩)
          (outsAt1 c n (Nat.lt_of_succ_lt hn)).2.2.1 (outsAt1 c n (Nat.lt_of_succ_lt hn)).2.2.2)

/-- `outsAt1` at the first point. -/
theorem outsAt1_A (c : Dev nD) (t : Fin cfg1.N) (h : t.val = 0) :
    outsAt1 V c t.val t.isLt = (idleOut, idleOut,
      sA0 c t (isFirst h) (notLast_of_first h) (iblk1 V c 0 t), sA1 c t (isFirst h) (notLast_of_first h) (iblk1 V c 0 t)) := by
  obtain ⟨n, hn⟩ := t
  cases n with
  | zero => rfl
  | succ n => exact absurd h (Nat.succ_ne_zero n)

/-- `outsAt1` at a middle point: over what the point before left. -/
theorem outsAt1_B (c : Dev nD) (t : Fin cfg1.N) (h0 : t.val ≠ 0) (h1 : ¬t.val % 20 = 19) :
    outsAt1 V c t.val t.isLt = (idleOut, idleOut,
      sB0 c t (notFirst h0) (notLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
      sB1 c t (notFirst h0) (notLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : t.val ≠ 0) (h1 : t.val % 20 = 19) :
    outsAt1 V c t.val t.isLt = (
      oC1 c t (notFirst h0) (isLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
      oC2 c t (notFirst h0) (isLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
      sC0 c t (notFirst h0) (isLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
      sC1 c t (notFirst h0) (isLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The invariant between points -/

/-- Before position `n`: at the first point the class's invariant (both accumulators at anything); afterwards each
    accumulator at what the point before left in it, beside the rest. -/
def PhiS1 (c : Dev nD) : (n : ℕ) → n ≤ cfg1.N → sProp 𝕄
  | 0, _ => Pipeline.ΦA spec1 c
  | n + 1, hn => iprop(owns (c : Thread nD τ) scM1_0 fullShare (outsAt1 V c n hn).2.2.1 ∗ owns (c : Thread nD τ) scM1_1 fullShare (outsAt1 V c n hn).2.2.2 ∗ restOthers c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (outsAt1 V c n hn).2.2.1 ∗ owns (c : Thread nD τ) scM1_1 fullShare (outsAt1 V c n hn).2.2.2 ∗ restOthers c) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.2.1 ∗ owns (c : Thread nD τ) scM1_1 fullShare (outsAt1 V c (n - 1) (by omega)).2.2.2 ∗ restOthers c) := by
  cases n with
  | zero => exact absurd rfl hz
  | succ n => rfl

/-! ## The pipeline's proof data -/

/-- The proof data of region 1 on core `c`: the arrays as the region finds them; after the body at point `t` the input's
    buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q := fun _ => fullShare
  owed := fun _ => 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4800000 in
/-- The body at any point. The input's memref holds its block; the closed forms of the two conditions say which of the
    three cases the point is in; the invariant hands the body the accumulators (at anything at the first point, at what
    the point before left afterwards) and takes them back at this point's contents, each read back through the cover of
    its pieces; away from the last point the output buffers go back untouched, at the last point each holds the one whole
    store into it. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  by_cases hz : t.val = 0
  · -- the first point
    rw [Dat.leavesExact_idle (dat1 V c) 1 t (idleAt1_1 t (notLast_of_first hz)) (noFlush1_1 t (notLast_of_first hz))]
    rw [Dat.leavesExact_idle (dat1 V c) 2 t (idleAt1_2 t (notLast_of_first hz)) (noFlush1_2 t (notLast_of_first hz))]
    rw [outsAt1_A V c t hz]
    unfold sA0 sA1; (try dsimp only)
    rw [PhiS1_castSucc V c t, PhiS1_zero V c _ _ hz]
    iintro ⟨HΦ, Ho, ⟨%d0, H0⟩, ⟨%d1, H1⟩, ⟨%d2, H2⟩⟩
    ihave HΦ' := PhiA1_open (F := F) c $$ HΦ
    icases HΦ' with ⟨HS0, HS1, Hr⟩
    iapply ((runA c t (isFirst hz) (notLast_of_first hz) (iblk1 V c 0 t)).2.2.2.2 ((dat1 V c).before 1 t d1) ((dat1 V c).before 2 t d2) Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr]
    · isplitl [HS0]
      · unfold owns; iexists _; isplitr
        swap; · iexact HS0
        ipureintro; exact View.read_writes_of_cover _ _ _ _ _ (coverA_s0 c t _ _ _)
      isplitl [HS1]
      · unfold owns; iexists _; isplitr
        swap; · iexact HS1
        ipureintro; exact View.read_writes_of_cover _ _ _ _ _ (coverA_s1 c t _ _ _)
      iexact Hr
    isplitl [Ho]; · iexact Ho
    isplitl [H0]; · iexact H0
    isplitl [H1]; · iexists _; iexact H1
    iexists _; iexact H2
  · rw [PhiS1_castSucc V c t, PhiS1_pos V c _ _ hz]
    by_cases h1 : t.val % 20 = 19
    · -- the last point
      rw [show (dat1 V c).leavesExact 1 t = owns (c : Thread nD τ) (ms1_1 t) fullShare ((dat1 V c).after 1 t) from by
        unfold Dat.leavesExact; rw [liveAt1_1 t (isLast h1)], after1_1]
      rw [show (dat1 V c).leavesExact 2 t = owns (c : Thread nD τ) (ms1_2 t) fullShare ((dat1 V c).after 2 t) from by
        unfold Dat.leavesExact; rw [liveAt1_2 t (isLast h1)], after1_2]
      rw [outsAt1_C V c t hz h1]
      unfold oC1 oC2 sC0 sC1; (try dsimp only)
      iintro ⟨⟨HS0, HS1, Hr⟩, Ho, ⟨%d0, H0⟩, ⟨%d1, H1⟩, ⟨%d2, H2⟩⟩
      iapply ((runC c t (notFirst hz) (isLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (coverC_s0 c t _ _ _ _ _)
        isplitl [HS1]
        · unfold owns; iexists _; isplitr
          swap; · iexact HS1
          ipureintro; exact View.read_writes_of_cover _ _ _ _ _ (coverC_s1 c t _ _ _ _ _)
        iexact Hr
      isplitl [Ho]; · iexact Ho
      isplitl [H0]; · iexact H0
      isplitl [H1]
      · unfold owns; iexists _; isplitr
        swap; · iexact H1
        ipureintro; exact View.read_writes_of_cover _ _ _ _ _ (coverC_o1 c t _ _ _ _ _)
      unfold owns; iexists _; isplitr
      swap; · iexact H2
      ipureintro; exact View.read_writes_of_cover _ _ _ _ _ (coverC_o2 c t _ _ _ _ _)
    · -- a middle point
      rw [Dat.leavesExact_idle (dat1 V c) 1 t (idleAt1_1 t (notLast h1)) (noFlush1_1 t (notLast h1))]
      rw [Dat.leavesExact_idle (dat1 V c) 2 t (idleAt1_2 t (notLast h1)) (noFlush1_2 t (notLast h1))]
      rw [outsAt1_B V c t hz h1]
      unfold sB0 sB1; (try dsimp only)
      iintro ⟨⟨HS0, HS1, Hr⟩, Ho, ⟨%d0, H0⟩, ⟨%d1, H1⟩, ⟨%d2, H2⟩⟩
      iapply ((runB c t (notFirst hz) (notLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 ((dat1 V c).before 1 t d1) ((dat1 V c).before 2 t d2) Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (coverB_s0 c t _ _ _ _ _)
        isplitl [HS1]
        · unfold owns; iexists _; isplitr
          swap; · iexact HS1
          ipureintro; exact View.read_writes_of_cover _ _ _ _ _ (coverB_s1 c t _ _ _ _ _)
        iexact Hr
      isplitl [Ho]; · iexact Ho
      isplitl [H0]; · iexact H0
      isplitl [H1]; · iexists _; iexact H1
      iexists _; iexact H2

/-- The library's body obligation, at every point. -/
theorem body_obligation1 (c : Dev nD) : BodyObligation (dat1 V c) (defs₀ (F := F)) Variants.none () Set.univ := fun t => by
  rw [bigSep_W1, bigSep_W1]
  exact sound_body1 V c t

/-- What the launch hands the region is the invariant before the first point. -/
theorem Phi1_in (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the class's back: the accumulators' named contents are forgotten. -/
theorem Phi1_out (c : Dev nD) : (dat1 V c).Φ (Fin.last cfg1.N) ⊢ (Pipeline.ΦA spec1 c : sProp 𝕄) := by
  have hN : cfg1.N = 20 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega)]
  refine .trans ?_ (PhiA1_close (F := F) c)
  iintro ⟨HS0, HS1, Hr⟩
  isplitl [HS0]; · iexists _; iexact HS0
  isplitl [HS1]; · iexists _; iexact HS1
  iexact Hr

end Cert.KernelIdeal.Hand

end
-- ==== Proof.KI.Region2.lean ====
import proofs.«163546_j27127013442152_2_alg».proof.Proof.KI.LaunchP
import proofs.«163546_j27127013442152_2_alg».proof.Proof.Gen.KernelIdeal.Skeleton
import proofs.«163546_j27127013442152_2_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

/-! # The normalisation epilogue (pallas_call 2): its half of the frame, at any float instance

The grid has 20 points; point `t` sees rows `5000·t … 5000·t + 4999` of the 100000×128 projected rows, four whole
1×128 rows (the column means, the reciprocal standard deviations, the scale and the shift), and writes rows
`5000·t …` of the 100000×128 result. The body reads each of its six buffers whole and overwrites the result buffer
whole with one value: entrywise, (x − mean)·rstd·scale + shift, then the maximum with zero, each row operand repeated
down the rows. So after the body every operand buffer holds what it held, and the result buffer holds that one value
of the five operand blocks. Everything here is stated at an arbitrary content `V` of the buffers on entry. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

-- the buffers' contents on entry to the region
variable (V : (c : Dev nD) → (b : Ref sig .tc) → Buf (Elt F) ((c : Thread nD τ).loc b))

/-! ## The operands' blocks -/

/-- Operand `w`'s block at point `t`: the rectangle of its array that the index map selects there, read off the
    entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The projected rows' buffer holds block `t` at point `t`: it is fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The row of column means is fetched once; its block index never moves, so the buffer holds it at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The row of reciprocal standard deviations likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The scale row likewise. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- The shift row likewise. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each buffer whole -/

abbrev tile2 : Rect S5000x128 := Rect.unit (s := S5000x128) ![0, 0] S5000x128.size inb_S5000x128_S5000x128_0_0
abbrev lane2 : Rect S1x128 := Rect.unit (s := S1x128) ![0, 0] S1x128.size inb_S1x128_S1x128_0_0

/-! ## What the body leaves in the result buffer -/

/-- The result buffer after the body, as a function of the five operand blocks: its one store, of the normalised and
    clamped rows, over the whole buffer. -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨tile2, k2_pay1 (View.ld x0 tile2) (View.ld x1 lane2) (View.ld x2 lane2) (View.ld x3 lane2) (View.ld x4 lane2)⟩]

/-- The one stored rectangle is the whole buffer, so every index of the buffer lies in it. -/
theorem cover2_5 (p0 : Vec F S5000x128 .f32) (y : S5000x128.Idx) :
    ∃ pc ∈ ([⟨tile2, p0⟩] : List (View.Piece (Elt F) S5000x128 .f32)), y ∈ pc.1.set :=
  View.cover_of_tiled [⟨tile2, p0⟩] S5000x128.size (by rfl) y

/-! ## The body's triple -/

set_option maxHeartbeats 1000000 in
/-- The body on six whole buffers — the five operands' at contents `x0 … x4`, the result's at anything — ends with
    the operands' buffers as they were and the result's at `out2_5 x0 … x4`. -/
theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__norm_kernel i arg1 harg1 arg2 harg2 arg3 harg3 arg4 harg4 arg5 harg5 arg6 harg6) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The region's proof data -/

/-- On core `c`: the arrays as found on entry; after the body at point `t` each operand's buffer at its block and the
    result's at `out2_5` of the five blocks; the invariant the scoped rest and the generator register, untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- The invariant is the same at every point. -/
theorem Phi2 (c : Dev nD) (t : Fin (cfg2.N + 1)) : (dat2 V c).Φ t = Pipeline.ΦA spec2 c := rfl

/-- What the body leaves, buffer by buffer. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each operand's buffer holds its block when the body is entered, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is entered with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it ends with. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the operands' buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the program's @main as five segments — the host operations before the first pallas call, the projection
  call, the statistics call, the host operations that turn the two column sums into mean and inverse standard deviation,
  and the normalisation call — with the contents of every unscoped buffer NAMED at each of the six boundaries:
  `W0` the launch memory, `W1` after the first host stretch, `W2`, `W3` after the first two calls (each call's arrays
  at what its write-backs leave, every other buffer as entered), `W4` after the second host stretch, `W5` at the end.
  The conclusion `run_main`: every weakly fair execution terminates and the final memory holds every unscoped buffer at
  `W5`. The argument arrays read back through the six boundaries are the launch contents (`W5_main_argK`).
  Stated at any float instance `F`.
-/
import proofs.«163546_j27127013442152_2_alg».proof.Proof.KI.Region0
import proofs.«163546_j27127013442152_2_alg».proof.Proof.KI.Region1
import proofs.«163546_j27127013442152_2_alg».proof.Proof.KI.Region2
import Idealize.ShloMosaic.Lib.Pipeline.FrameSuffix
import Idealize.ShloMosaic.Lib.Pipeline.RegionsLoop

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the first call (the first call's entry). -/
abbrev W1 : Dev nD → Valuation τ sig (Elt F) := fun c => StableHlo.after hostOps0 (W0 m ρ c)
/-- The same read at the TensorCore's references. -/
abbrev Vr1 : (c : Dev nD) → (b : Ref sig .tc) → Buf (Elt F) ((c : Thread nD τ).loc b) := fun c b => W1 m ρ c b

/-- After the projection call: its arrays at what the pipeline leaves, every other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vr2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- After the statistics call. -/
def W3 (c : Dev nD) : Valuation τ sig (Elt F) :=
  Pipeline.withArrays spec1 c (W2 m ρ c) fun w => (dat1 (Vr2 m ρ) c).arrAt w cfg1.N
theorem W3_arr (c : Dev nD) (w : Fin cfg1.W) :
    W3 m ρ c (Proc.devRef .tc (Pipeline.arrRef spec1 w)) = (dat1 (Vr2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vr3 : (c : Dev nD) → (b : Ref sig .tc) → Buf (Elt F) ((c : Thread nD τ).loc b) := fun c b => W3 m ρ c b
theorem hF1 (c : Dev nD) (w : Fin cfg1.W) : (dat1 (Vr2 m ρ) c).arrAt w cfg1.N = Vr3 m ρ c (Pipeline.arrRef spec1 w) :=
  (W3_arr m ρ c w).symm
theorem hrest1 (c : Dev nD) : ∀ b, b ∉ Finset.univ.image (Pipeline.arrRef spec1) → Vr3 m ρ c b = Vr2 m ρ c b :=
  fun b hb => W3_of_ne m ρ c b fun w e => hb (Finset.mem_image.mpr ⟨w, Finset.mem_univ _, e⟩)

/-- After the host operations between the statistics call and the normalisation call (the last call's entry). -/
abbrev W4 : Dev nD → Valuation τ sig (Elt F) := fun c => StableHlo.after hostOps2 (W3 m ρ c)
abbrev Vr4 : (c : Dev nD) → (b : Ref sig .tc) → Buf (Elt F) ((c : Thread nD τ).loc b) := fun c b => W4 m ρ c b

/-- After the normalisation call: the end of @main. -/
def W5 (c : Dev nD) : Valuation τ sig (Elt F) :=
  Pipeline.withArrays spec2 c (W4 m ρ c) fun w => (dat2 (Vr4 m ρ) c).arrAt w cfg2.N
theorem W5_arr (c : Dev nD) (w : Fin cfg2.W) :
    W5 m ρ c (Proc.devRef .tc (Pipeline.arrRef spec2 w)) = (dat2 (Vr4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev Vr5 : (c : Dev nD) → (b : Ref sig .tc) → Buf (Elt F) ((c : Thread nD τ).loc b) := fun c b => W5 m ρ c b
theorem hF2 (c : Dev nD) (w : Fin cfg2.W) : (dat2 (Vr4 m ρ) c).arrAt w cfg2.N = Vr5 m ρ c (Pipeline.arrRef spec2 w) :=
  (W5_arr m ρ c w).symm
theorem hrest2 (c : Dev nD) : ∀ b, b ∉ Finset.univ.image (Pipeline.arrRef spec2) → Vr5 m ρ c b = Vr4 m ρ c b :=
  fun b hb => W5_of_ne m ρ c b fun w e => hb (Finset.mem_image.mpr ⟨w, Finset.mem_univ _, e⟩)

/-! ## The arguments end as launched

No host operation writes an argument and no call may change one: a call reads it through an input window (the
projection call reads x, W and the skip weights) or bypasses it. So each boundary's contents at an argument's buffer
are the previous boundary's, back to the launch memory. -/

/-- No operation of a host stretch writes the buffer asked about: one small goal per operation. -/
local macro "keeps_through " ops:ident : tactic =>
  `(tactic| (refine List.forall_iff_forall_mem.mp ?_; simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide)))

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (by keeps_through hostOps2)
    _ = W2 m ρ c (Proc.devRef .tc main_arg0) := W3_of_ne m ρ c main_arg0 (by decide)
    _ = W1 m ρ c (Proc.devRef .tc main_arg0) := (W2_arr m ρ c 1).trans (((dat0 (Vr1 m ρ) c).arrAt_in 1 rfl _).trans (A_eq0 (Vr1 m ρ) c 1))
    _ = W0 m ρ c (Proc.devRef .tc main_arg0) := StableHlo.after_of_forall_not_mem (b := Proc.devRef .tc main_arg0) _ _ (by keeps_through hostOps0)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (by keeps_through hostOps2)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (by keeps_through hostOps0)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (by keeps_through hostOps2)
    _ = W2 m ρ c (Proc.devRef .tc main_arg2) := W3_of_ne m ρ c main_arg2 (by decide)
    _ = W1 m ρ c (Proc.devRef .tc main_arg2) := (W2_arr m ρ c 2).trans (((dat0 (Vr1 m ρ) c).arrAt_in 2 rfl _).trans (A_eq0 (Vr1 m ρ) c 2))
    _ = W0 m ρ c (Proc.devRef .tc main_arg2) := StableHlo.after_of_forall_not_mem (b := Proc.devRef .tc main_arg2) _ _ (by keeps_through hostOps0)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (by keeps_through hostOps2)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (by keeps_through hostOps0)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (by keeps_through hostOps2)
    _ = W2 m ρ c (Proc.devRef .tc main_arg4) := W3_of_ne m ρ c main_arg4 (by decide)
    _ = W1 m ρ c (Proc.devRef .tc main_arg4) := (W2_arr m ρ c 3).trans (((dat0 (Vr1 m ρ) c).arrAt_in 3 rfl _).trans (A_eq0 (Vr1 m ρ) c 3))
    _ = W0 m ρ c (Proc.devRef .tc main_arg4) := StableHlo.after_of_forall_not_mem (b := Proc.devRef .tc main_arg4) _ _ (by keeps_through hostOps0)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (by keeps_through hostOps2)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (by keeps_through hostOps0)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (by keeps_through hostOps2)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (by keeps_through hostOps0)
    _ = m ((c : Thread nD τ).loc main_arg6) := rfl

/-! ## The proof data family and the thread state -/

/-- No pallas call of this program has a prefetched table. -/
abbrev admH : (p : Fin 3) → (pcfgs (F := F) p).Adm := fun p => (cfgs p).toPCfg_adm
/-- Every pipeline's proof data, each at the contents its call is entered from. -/
def pdats : (p : Fin 3) → (c : Dev nD) → Dat τ (Elt F) Unit ℕ (UR sig nD τ) ℕ (Pipeline.pin (pcfgs (F := F)) admH p) c
  | ⟨0, _⟩ => fun c => dat0 (Vr1 m ρ) c
  | ⟨1, _⟩ => fun c => dat1 (Vr2 m ρ) c
  | ⟨2, _⟩ => fun c => dat2 (Vr4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The pallas calls as segments -/

set_option backward.isDefEq.respectTransparency.types false in
/-- The projection call as a segment: entered with every unscoped buffer at `W1`, left with them at `W2`. Its arrays are
    split out of the unscoped buffers on entry and put back at what its write-backs leave on exit; the generator register
    passes through the body's invariant; nothing is owed; the body has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The statistics call as a segment: entered at `W2`, left at `W3`. Its body carries the two accumulators in scratch
    buffers from one grid point to the next: the body's invariant is the plain one (the scratch at anything) before the
    first point and yields the plain one back after the last (`Phi1_in`, `Phi1_out`). -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m ρ 1 c).Φ 0 from Phi1_in (Vr2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from Phi1_out (Vr2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalisation call as a segment, the last of @main: entered at `W4`, left at `W5` beside the core owing nothing. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr4 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (Vr4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (Vr4 m ρ c) (Vr5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) admH (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final memory holds every unscoped buffer at the last boundary's contents `W5`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Hand

end
-- ==== Proof.KI.Frame.lean ====
/-
  The frame of the program, read off its run: the final memory holds every unscoped buffer at the last boundary's
  contents, and at an argument's buffer those are the launch contents.
-/
import proofs.«163546_j27127013442152_2_alg».proof.Proof.KI.Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates, nothing faulting, and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩)
    (run_main m ρ)

/-- The same run, keeping also what the result buffer holds at the end. -/
theorem frame_with_result : θ_run defs (onTc (τ := τ) (main (F := F))) ⟨m, fun _ => 0, ρ⟩ (fun r => ∀ c : Dev nD,
      r.2.mem ((c.tc : Thread nD τ).loc main_v54) = W5 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v54 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩)
    (run_main m ρ)

end Cert.KernelIdeal.Hand

end
-- ==== Proof.R.Stages.lean ====
/-
  The reference program's result as a function of its seven arguments, stated through a few named stages, each one
  host operation or a short chain of them: the edge list with the self loops appended (`srcs`, `dsts`), the
  degrees and their inverse square roots (`deg`, `dinv`), the edge weights `nrm`, the row indices read
  (`gidx`) and written (`sidx`), the product x·W, the messages, their sum per target row, the layer's value
  before normalisation (`pre`), its column means and variances, and the normalised, scaled, shifted and clamped
  result (`norm`, `outF`, `out`).
-/
import proofs.«163546_j27127013442152_2_alg».proof.Proof.Gen.ReferenceIdeal
import Idealize.ShloMosaic.PureOps.Ideal

noncomputable section

namespace Cert.ReferenceIdeal.Hand

open Cert.ReferenceIdeal Cert.ReferenceIdeal.Gen Idealize.ShloMosaic

variable {F : FTy → Type} [FloatOps F]

/-! ## The stages -/

/-- Row `r` of the 2 × 1600000 edge table as a vector, followed by 0, 1, …, 99999 (one self loop per node). -/
def withLoops (r : Nat) (h : S2x1600000.Slices ![r, 0] S1x1600000) (e : IVec S2x1600000 32) : IVec S1700000 32 :=
  concatenate S1700000 0
    [⟨S1600000, shapeCast S1600000 (extractStridedSlice S1x1600000 ![r, 0] e h) shapeCasts_S1x1600000_S1600000⟩,
     ⟨S100000, iotaInDim S100000 32 0⟩] concatenates_S1600000_S100000_S1700000_d0

/-- The edges' source nodes (row 0), self loops appended. -/
def srcs (e : IVec S2x1600000 32) : IVec S1700000 32 := withLoops 0 slices_S2x1600000_S1x1600000_0_0 e
/-- The edges' target nodes (row 1), self loops appended. -/
def dsts (e : IVec S2x1600000 32) : IVec S1700000 32 := withLoops 1 slices_S2x1600000_S1x1600000_1_0 e

/-- A node vector as a one-column index table, a negative entry first moved up by the node count 100000. -/
def wrapped (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Each node's degree: one per edge arriving at it, the self loop included. -/
def deg (e : IVec S2x1600000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dsts e))
    (broadcastInDim S1700000 ![] bcast_S_S1700000 (constant S_ .f32 0x3F800000#32))

/-- The inverse square roots of the degrees. -/
def dinv (e : IVec S2x1600000 32) : FVec F S100000 .f32 := Host.rsqrt (deg e)

/-- Each edge's weight: the inverse square root of its source's degree times that of its target's. -/
def nrm (e : IVec S2x1600000 32) : FVec F S1700000 .f32 :=
  mulf (Host.gather gather_S100000_S1700000x1_S1700000_n_0_n_n_0_1_1 (dinv e) (wrapped (srcs e)))
    (Host.gather gather_S100000_S1700000x1_S1700000_n_0_n_n_0_1_1 (dinv e) (wrapped (dsts e)))

/-- The row each edge reads: its source. -/
def gidx (e : IVec S2x1600000 32) : IVec S1700000x1 32 := wrapped (srcs e)
/-- The row each edge adds into: its target. -/
def sidx (e : IVec S2x1600000 32) : IVec S1700000x1 32 :=
  broadcastInDim S1700000x1 ![0] bcast_S1700000_S1700000x1_0 (dsts e)

/-- A [100000, 64] by [64, 128] matrix product. -/
def prod (x : FVec F S100000x64 .f32) (w : FVec F S64x128 .f32) : FVec F S100000x128 .f32 :=
  Host.dotGeneral dot_S100000x64_S64x128_S100000x128_1_0_0_1_n_n none x w

/-- A 128-vector repeated down 100000 rows. -/
def rows (v : FVec F S128 .f32) : FVec F S100000x128 .f32 :=
  broadcastInDim S100000x128 ![0, 1] bcast_S1x128_S100000x128_0_1 (broadcastInDim S1x128 ![1] bcast_S128_S1x128_1 v)

/-- Each edge's message: its source's row of x·W, scaled by the edge's weight. -/
def msg (x : FVec F S100000x64 .f32) (e : IVec S2x1600000 32) (w : FVec F S64x128 .f32) : FVec F S1700000x128 .f32 :=
  mulf (Host.gather gather_S100000x128_S1700000x1_S1700000x128_1_0_n_n_0_1_1128 (prod x w) (gidx e))
    (broadcastInDim S1700000x128 ![0, 1] bcast_S1700000x1_S1700000x128_0_1
      (broadcastInDim S1700000x1 ![0] bcast_S1700000_S1700000x1_0 (nrm e)))

/-- The messages summed into their targets' rows, from zero. -/
def agg (x : FVec F S100000x64 .f32) (e : IVec S2x1600000 32) (w : FVec F S64x128 .f32) : FVec F S100000x128 .f32 :=
  Host.scatterAdd scatter_S100000x128_S1700000x1_S1700000x128_1_0_0_1
    (broadcastInDim S100000x128 ![] bcast_S_S100000x128 (constant S_ .f32 0x00000000#32)) (sidx e) (msg x e w)

/-- The layer before normalisation: aggregated messages, plus the bias, plus the skip product x·W'. -/
def pre (x : FVec F S100000x64 .f32) (e : IVec S2x1600000 32) (w : FVec F S64x128 .f32) (b : FVec F S128 .f32)
    (sw : FVec F S64x128 .f32) : FVec F S100000x128 .f32 :=
  addf (addf (agg x e w) (rows b)) (prod x sw)

/-- The column sums of a [100000, 128] array, from zero. -/
def colsum (y : FVec F S100000x128 .f32) : FVec F S128 .f32 :=
  Host.reduceAdd y (constant S_ .f32 0x00000000#32) reducesTo_S100000x128_S128_d0 h_S_

/-- The column means: the column sums over 100000. -/
def mean (y : FVec F S100000x128 .f32) : FVec F S128 .f32 :=
  Host.divf (colsum y) (broadcastInDim S128 ![] bcast_S_S128 (constant S_ .f32 0x47C35000#32))

/-- The divisor of the variance: 100000 less the correction, which is the integer 0. -/
def cnt : FVec F S_ .f32 := subf (constant S_ .f32 0x47C35000#32) (sitofp .f32 (constantI S_ 32 0#32))

/-- The squared deviations from the column means (the means taken as a one-row array first). -/
def sqdev (y : FVec F S100000x128 .f32) : FVec F S100000x128 .f32 :=
  mulf
    (subf y (broadcastInDim S100000x128 ![0, 1] bcast_S1x128_S100000x128_0_1
      (Host.divf (broadcastInDim S1x128 ![1] bcast_S128_S1x128_1 (colsum y))
        (broadcastInDim S1x128 ![] bcast_S_S1x128 (constant S_ .f32 0x47C35000#32)))))
    (subf y (broadcastInDim S100000x128 ![0, 1] bcast_S1x128_S100000x128_0_1
      (Host.divf (broadcastInDim S1x128 ![1] bcast_S128_S1x128_1 (colsum y))
        (broadcastInDim S1x128 ![] bcast_S_S1x128 (constant S_ .f32 0x47C35000#32)))))

/-- The column variances: the column sums of the squared deviations over the divisor, kept where the divisor is
    positive and a NaN literal elsewhere. -/
def var (y : FVec F S100000x128 .f32) : FVec F S128 .f32 :=
  select (broadcastInDim S128 ![] bcast_S_S128 (cmpf .ogt (cnt (F := F)) (constant S_ .f32 0x00000000#32)))
    (Host.divf (colsum (sqdev y)) (broadcastInDim S128 ![] bcast_S_S128 (cnt (F := F))))
    (broadcastInDim S128 ![] bcast_S_S128 (constant S_ .f32 0x7FC00000#32))

/-- The normalised layer: deviations from the column means times the inverse square root of variance plus the
    literal 0x3727C5AC, times the scale, plus the shift, clamped below at zero. -/
def norm (y : FVec F S100000x128 .f32) (g be : FVec F S128 .f32) : FVec F S100000x128 .f32 :=
  maximumf
    (addf (mulf (mulf (subf y (rows (mean y)))
        (rows (Host.rsqrt (addf (var y) (broadcastInDim S128 ![] bcast_S_S128 (constant S_ .f32 0x3727C5AC#32))))))
      (rows g)) (rows be))
    (broadcastInDim S100000x128 ![] bcast_S_S100000x128 (constant S_ .f32 0x00000000#32))

/-- The operations' composed term: the result as a function of the seven arguments. -/
def outF (x : FVec F S100000x64 .f32) (e : IVec S2x1600000 32) (w : FVec F S64x128 .f32) (b : FVec F S128 .f32)
    (sw : FVec F S64x128 .f32) (g be : FVec F S128 .f32) : FVec F S100000x128 .f32 :=
  norm (pre x e w b sw) g be

/-- The composed term at the ideal instance. -/
def out (x : FVec Ideal S100000x64 .f32) (e : IVec S2x1600000 32) (w : FVec Ideal S64x128 .f32) (b : FVec Ideal S128 .f32)
    (sw : FVec Ideal S64x128 .f32) (g be : FVec Ideal S128 .f32) : FVec Ideal S100000x128 .f32 :=
  outF x e w b sw g be

end Cert.ReferenceIdeal.Hand

end
-- ==== Proof.R.Run.lean ====
/-
  The reference program's run. Its @main calls @_var (which calls @_where) and @relu; the functions' operations
  are listed at the call sites over the calls' own buffers, so @main is ONE line of 102 host operations. Every
  weakly fair execution of it terminates with the result buffer at the operations' composed term `out` of the
  seven arguments (the stages module states it), and with the arguments unchanged.
-/
import proofs.«163546_j27127013442152_2_alg».proof.Proof.R.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main's 102 operations in order, the calls unfolded: sixty of its own up to the column means, the
    correction constant, @_var's nineteen and within them @_where's three, sixteen more of its own, @relu's three. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_c (constantI S_ 32 0#32),
    unary main_c main_v13 (broadcastInDim S1700000 ![] bcast_S_S1700000 : (⟨S_, .i32⟩ : BufTy).Contents (Elt F) → (⟨S1700000, .i32⟩ : BufTy).Contents (Elt F)),
    binary main_v5 main_v13 main_v14 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v15 (broadcastInDim S1700000 ![] bcast_S_S1700000 : (⟨S_, .i32⟩ : BufTy).Contents (Elt F) → (⟨S1700000, .i32⟩ : BufTy).Contents (Elt F)),
    binary main_v5 main_v15 main_v16 (addi : (⟨S1700000, .i32⟩ : BufTy).Contents (Elt F) → (⟨S1700000, .i32⟩ : BufTy).Contents (Elt F) → (⟨S1700000, .i32⟩ : BufTy).Contents (Elt F)),
    ternary main_v14 main_v16 main_v5 main_v17 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v17 main_v18 (broadcastInDim S1700000x1 ![0] bcast_S1700000_S1700000x1_0 : (⟨S1700000, .i32⟩ : BufTy).Contents (Elt F) → (⟨S1700000x1, .i32⟩ : BufTy).Contents (Elt F)),
    binary main_v12 main_v18 main_v19 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v20 (broadcastInDim S1700000 ![] bcast_S_S1700000 : (⟨S_, .i32⟩ : BufTy).Contents (Elt F) → (⟨S1700000, .i32⟩ : BufTy).Contents (Elt F)),
    binary main_v6 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v22 (broadcastInDim S1700000 ![] bcast_S_S1700000 : (⟨S_, .i32⟩ : BufTy).Contents (Elt F) → (⟨S1700000, .i32⟩ : BufTy).Contents (Elt F)),
    binary main_v6 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v6 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v12 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v19 main_v26 main_v27 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v5 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v5 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v5 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v7 main_v33 main_v34 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v27 main_v35 (broadcastInDim S1700000x1 ![0] bcast_S1700000_S1700000x1_0 : (⟨S1700000, .f32⟩ : BufTy).Contents (Elt F) → (⟨S1700000x1, .f32⟩ : BufTy).Contents (Elt F)),
    unary main_v35 main_v36 (broadcastInDim S1700000x128 ![0, 1] bcast_S1700000x1_S1700000x128_0_1 : (⟨S1700000x1, .f32⟩ : BufTy).Contents (Elt F) → (⟨S1700000x128, .f32⟩ : BufTy).Contents (Elt F)),
    binary main_v34 main_v36 main_v37 (mulf : (⟨S1700000x128, .f32⟩ : BufTy).Contents (Elt F) → (⟨S1700000x128, .f32⟩ : BufTy).Contents (Elt F) → (⟨S1700000x128, .f32⟩ : BufTy).Contents (Elt F)),
    nullary main_cst_6 (constant S_ .f32 0x00000000#32),
    unary main_cst_6 main_v38 (broadcastInDim S100000x128 ![] bcast_S_S100000x128 : (⟨S_, .f32⟩ : BufTy).Contents (Elt F) → (⟨S100000x128, .f32⟩ : BufTy).Contents (Elt F)),
    unary main_v6 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    binary main_arg0 main_arg4 main_v44 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v43 main_v44 main_v45 (addf : (⟨S100000x128, .f32⟩ : BufTy).Contents (Elt F) → (⟨S100000x128, .f32⟩ : BufTy).Contents (Elt F) → (⟨S100000x128, .f32⟩ : BufTy).Contents (Elt F)),
    nullary main_cst_7 (constant S_ .f32 0x00000000#32),
    binary main_v45 main_cst_7 main_v46 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_8 (constant S_ .f32 0x47C35000#32),
    unary main_cst_8 main_v47 (broadcastInDim S128 ![] bcast_S_S128 : (⟨S_, .f32⟩ : BufTy).Contents (Elt F) → (⟨S128, .f32⟩ : BufTy).Contents (Elt F)),
    binary main_v46 main_v47 main_v48 (Host.divf : (⟨S128, .f32⟩ : BufTy).Contents (Elt F) → (⟨S128, .f32⟩ : BufTy).Contents (Elt F) → (⟨S128, .f32⟩ : BufTy).Contents (Elt F)),
    nullary main_c_9 (constantI S_ 32 0#32),
    TRef.nullary main_call0.cst (constant S_ .f32 0x00000000#32),
    TRef.binary (.of main_v45) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v45) main_call0.v4 main_call0.v5 subf,
    TRef.binary main_call0.v5 main_call0.v5 main_call0.v6 mulf,
    TRef.unary (.of main_c_9) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v48 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v45 main_v51 main_v52 (subf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3727C5AC#32),
    unary main_cst_10 main_v53 (broadcastInDim S128 ![] bcast_S_S128 : (⟨S_, .f32⟩ : BufTy).Contents (Elt F) → (⟨S128, .f32⟩ : BufTy).Contents (Elt F)),
    binary main_v49 main_v53 main_v54 (addf : (⟨S128, .f32⟩ : BufTy).Contents (Elt F) → (⟨S128, .f32⟩ : BufTy).Contents (Elt F) → (⟨S128, .f32⟩ : BufTy).Contents (Elt F)),
    unary main_v54 main_v55 (Host.rsqrt : (⟨S128, .f32⟩ : BufTy).Contents (Elt F) → (⟨S128, .f32⟩ : BufTy).Contents (Elt F)),
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v52 main_v57 main_v58 (mulf : (⟨S100000x128, .f32⟩ : BufTy).Contents (Elt F) → (⟨S100000x128, .f32⟩ : BufTy).Contents (Elt F) → (⟨S100000x128, .f32⟩ : BufTy).Contents (Elt F)),
    unary main_arg5 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v58 main_v60 main_v61 (mulf : (⟨S100000x128, .f32⟩ : BufTy).Contents (Elt F) → (⟨S100000x128, .f32⟩ : BufTy).Contents (Elt F) → (⟨S100000x128, .f32⟩ : BufTy).Contents (Elt F)),
    unary main_arg6 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v64) main_call1.v0 main_call1.v1 maximumf ]

-- a hundred and two binds re-associated: the rewrite under the chain recurses once per statement
set_option maxRecDepth 8192 in
set_option maxHeartbeats 4000000 in
/-- @main is that line: its two windows, the functions' definitions unfolded at their calls and the records at
    their fields, are one chain of `hlo` steps once sequencing is re-associated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., reshape_bufs_sub .., unary_bufs_sub .., reshape_bufs_sub .., nullary_bufs_sub .., binary_bufs_sub ..,
    binary_bufs_sub .., binary_bufs_sub .., nullary_bufs_sub .., unary_bufs_sub .., nullary_bufs_sub .., unary_bufs_sub ..,
    unary_bufs_sub .., ternary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., binary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..⟩

attribute [local irreducible] Host.reduceAdd Host.gather Host.scatterAdd concatenate broadcastInDim
  shapeCast extractStridedSlice in
set_option maxRecDepth 16384 in
set_option maxHeartbeats 4000000 in
/-- The fold at the result buffer is `outF` of the arguments' contents by computation: each operation's result
    decides whether the buffer read is the one it writes, and the typed references' casts are the identity at
    these literal references. The sums, gathers, products and re-shapings are kept folded meanwhile: the equation
    never looks inside them. -/
theorem out_eq (V : Valuation τ sig (Elt F)) :
    after ops V (main_v65 : DevRef τ sig)
      = outF (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  simp only [after_cons, after_nil]
  rfl

set_option maxRecDepth 16384 in
/-- No operation writes argument 0. -/
theorem arg0_eq (V : Valuation τ sig (Elt F)) : after ops V (main_arg0 : DevRef τ sig) = V (main_arg0 : DevRef τ sig) := by
  simp only [after_cons, after_nil]
  rfl

set_option maxRecDepth 16384 in
/-- No operation writes argument 1. -/
theorem arg1_eq (V : Valuation τ sig (Elt F)) : after ops V (main_arg1 : DevRef τ sig) = V (main_arg1 : DevRef τ sig) := by
  simp only [after_cons, after_nil]
  rfl

set_option maxRecDepth 16384 in
/-- No operation writes argument 2. -/
theorem arg2_eq (V : Valuation τ sig (Elt F)) : after ops V (main_arg2 : DevRef τ sig) = V (main_arg2 : DevRef τ sig) := by
  simp only [after_cons, after_nil]
  rfl

set_option maxRecDepth 16384 in
/-- No operation writes argument 3. -/
theorem arg3_eq (V : Valuation τ sig (Elt F)) : after ops V (main_arg3 : DevRef τ sig) = V (main_arg3 : DevRef τ sig) := by
  simp only [after_cons, after_nil]
  rfl

set_option maxRecDepth 16384 in
/-- No operation writes argument 4. -/
theorem arg4_eq (V : Valuation τ sig (Elt F)) : after ops V (main_arg4 : DevRef τ sig) = V (main_arg4 : DevRef τ sig) := by
  simp only [after_cons, after_nil]
  rfl

set_option maxRecDepth 16384 in
/-- No operation writes argument 5. -/
theorem arg5_eq (V : Valuation τ sig (Elt F)) : after ops V (main_arg5 : DevRef τ sig) = V (main_arg5 : DevRef τ sig) := by
  simp only [after_cons, after_nil]
  rfl

set_option maxRecDepth 16384 in
/-- No operation writes argument 6. -/
theorem arg6_eq (V : Valuation τ sig (Elt F)) : after ops V (main_arg6 : DevRef τ sig) = V (main_arg6 : DevRef τ sig) := by
  simp only [after_cons, after_nil]
  rfl

/-! ## The run -/

/-- On every device, at the ideal instance, from any memory with zero counters: every weakly fair execution of
    @main terminates with the result buffer at `out` of the arguments' launch contents and the arguments unchanged. -/
theorem run (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v65)
          = out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v65).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.Hand

end
-- ==== Proof.KI.Stages.lean ====
/-
  The host side of the kernel's program as named stages, each one host operation or a short chain of them: the edge list
  with the self loops appended (`srcs`, `dsts`), the degrees and their inverse square roots (`deg`, `dinv`), the edge
  weights `nrm`, the row indices read (`gidx`) and written (`sidx`) — the same operations, in the same order, as the
  reference applies to the edge table —, then the kernel's own choice: each edge's message is its source's row of the
  64-wide input x scaled by the edge's weight (`msg64`), summed into its target's row (`agg64`); the projection to 128
  columns happens afterwards, inside the first pallas call.
-/
import proofs.«163546_j27127013442152_2_alg».proof.Proof.Gen.KernelIdeal
import Idealize.ShloMosaic.PureOps.Ideal

noncomputable section

namespace Cert.KernelIdeal.HandValue

open Cert.KernelIdeal Cert.KernelIdeal.Gen Idealize.ShloMosaic

variable {F : FTy → Type} [FloatOps F]

/-- Row `r` of the 2 × 1600000 edge table as a vector, followed by 0, 1, …, 99999 (one self loop per node). -/
def withLoops (r : Nat) (h : S2x1600000.Slices ![r, 0] S1x1600000) (e : IVec S2x1600000 32) : IVec S1700000 32 :=
  concatenate S1700000 0
    [⟨S1600000, shapeCast S1600000 (extractStridedSlice S1x1600000 ![r, 0] e h) shapeCasts_S1x1600000_S1600000⟩,
     ⟨S100000, iotaInDim S100000 32 0⟩] concatenates_S1600000_S100000_S1700000_d0

/-- The edges' source nodes (row 0), self loops appended. -/
def srcs (e : IVec S2x1600000 32) : IVec S1700000 32 := withLoops 0 slices_S2x1600000_S1x1600000_0_0 e
/-- The edges' target nodes (row 1), self loops appended. -/
def dsts (e : IVec S2x1600000 32) : IVec S1700000 32 := withLoops 1 slices_S2x1600000_S1x1600000_1_0 e

/-- A node vector as a one-column index table, a negative entry first moved up by the node count 100000. -/
def wrapped (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Each node's degree: one per edge arriving at it, the self loop included. -/
def deg (e : IVec S2x1600000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dsts e))
    (broadcastInDim S1700000 ![] bcast_S_S1700000 (constant S_ .f32 0x3F800000#32))

/-- The inverse square roots of the degrees. -/
def dinv (e : IVec S2x1600000 32) : FVec F S100000 .f32 := Host.rsqrt (deg e)

/-- Each edge's weight: the inverse square root of its source's degree times that of its target's. -/
def nrm (e : IVec S2x1600000 32) : FVec F S1700000 .f32 :=
  mulf (Host.gather gather_S100000_S1700000x1_S1700000_n_0_n_n_0_1_1 (dinv e) (wrapped (srcs e)))
    (Host.gather gather_S100000_S1700000x1_S1700000_n_0_n_n_0_1_1 (dinv e) (wrapped (dsts e)))

/-- The row each edge reads: its source. -/
def gidx (e : IVec S2x1600000 32) : IVec S1700000x1 32 := wrapped (srcs e)
/-- The row each edge adds into: its target. -/
def sidx (e : IVec S2x1600000 32) : IVec S1700000x1 32 :=
  broadcastInDim S1700000x1 ![0] bcast_S1700000_S1700000x1_0 (dsts e)

/-- Each edge's 64-wide message: its source's row of x, scaled by the edge's weight. -/
def msg64 (x : FVec F S100000x64 .f32) (e : IVec S2x1600000 32) : FVec F S1700000x64 .f32 :=
  mulf (Host.gather gather_S100000x64_S1700000x1_S1700000x64_1_0_n_n_0_1_164 x (gidx e))
    (broadcastInDim S1700000x64 ![0, 1] bcast_S1700000x1_S1700000x64_0_1
      (broadcastInDim S1700000x1 ![0] bcast_S1700000_S1700000x1_0 (nrm e)))

/-- The 64-wide messages summed into their targets' rows, from zero. -/
def agg64 (x : FVec F S100000x64 .f32) (e : IVec S2x1600000 32) : FVec F S100000x64 .f32 :=
  Host.scatterAdd scatter_S100000x64_S1700000x1_S1700000x64_1_0_0_1
    (broadcastInDim S100000x64 ![] bcast_S_S100000x64 (constant S_ .f32 0x00000000#32)) (sidx e) (msg64 x e)

/-- A 128-vector as a one-row array. -/
def asRow (v : FVec F S128 .f32) : FVec F S1x128 .f32 := shapeCast S1x128 v shapeCasts_S128_S1x128

/-- The column means from the column sums: over 100000. -/
def meanOf (s : FVec F S1x128 .f32) : FVec F S1x128 .f32 :=
  Host.divf s (broadcastInDim S1x128 ![] bcast_S_S1x128 (constant S_ .f32 0x47C35000#32))

/-- The inverse standard deviations from the column sums and the column sums of squares: the mean of squares less the
    squared mean, plus the literal 0x3727C5AC, under the inverse square root. -/
def invStdOf (s s2 : FVec F S1x128 .f32) : FVec F S1x128 .f32 :=
  Host.rsqrt (addf (subf (meanOf s2) (mulf (meanOf s) (meanOf s)))
    (broadcastInDim S1x128 ![] bcast_S_S1x128 (constant S_ .f32 0x3727C5AC#32)))

end Cert.KernelIdeal.HandValue

end
-- ==== Proof.KI.HostValues.lean ====
/-
  What the two stretches of host operations leave in the buffers the pallas calls read, at the ideal instance: after the
  first stretch the aggregate of the 64-wide messages and the bias, scale and shift as one-row arrays, the argument arrays
  untouched; after the second the column means and the inverse standard deviations from the two column sums.
-/
import proofs.«163546_j27127013442152_2_alg».proof.Proof.KI.Run
import proofs.«163546_j27127013442152_2_alg».proof.Proof.KI.Stages
import Idealize.ShloMosaic.Lib.StableHlo.Run
import Idealize.ShloMosaic.PureOps.Ideal.Laws

noncomputable section

namespace Cert.KernelIdeal.HandValue

open Idealize.ShloMosaic Idealize.ShloMosaic.TcCoe Idealize.SL.Sem
open Cert.KernelIdeal Cert.KernelIdeal.Gen Cert.KernelIdeal.GenP Cert.KernelIdeal.Hand

variable (m : (ℓ : Loc nD τ sig) → Buf (Elt Ideal) ℓ) (ρ : Dev nD → PrngReg) (c : Dev nD)

theorem first_agg : (Vr1 m ρ c main_v39 : FVec Ideal S100000x64 .f32) = agg64 (F := Ideal) (m ((c : Thread nD τ).loc main_arg0)) (m ((c : Thread nD τ).loc main_arg1)) := by
  show StableHlo.after hostOps0 (W0 m ρ c) (Proc.devRef .tc main_v39) = _
  after_results_simp
  rfl

theorem first_bias : (Vr1 m ρ c main_v40 : FVec Ideal S1x128 .f32) = asRow (F := Ideal) (m ((c : Thread nD τ).loc main_arg3)) := by
  show StableHlo.after hostOps0 (W0 m ρ c) (Proc.devRef .tc main_v40) = _
  after_results_simp
  rfl

theorem first_scale : (Vr1 m ρ c main_v41 : FVec Ideal S1x128 .f32) = asRow (F := Ideal) (m ((c : Thread nD τ).loc main_arg5)) := by
  show StableHlo.after hostOps0 (W0 m ρ c) (Proc.devRef .tc main_v41) = _
  after_results_simp
  rfl

theorem first_shift : (Vr1 m ρ c main_v42 : FVec Ideal S1x128 .f32) = asRow (F := Ideal) (m ((c : Thread nD τ).loc main_arg6)) := by
  show StableHlo.after hostOps0 (W0 m ρ c) (Proc.devRef .tc main_v42) = _
  after_results_simp
  rfl

theorem second_mean : (Vr4 m ρ c main_v46 : FVec Ideal S1x128 .f32) = meanOf (F := Ideal) (W3 m ρ c (Proc.devRef .tc main_v44_0)) := by
  show StableHlo.after hostOps2 (W3 m ρ c) (Proc.devRef .tc main_v46) = _
  after_results
  rfl

theorem second_invstd : (Vr4 m ρ c main_v53 : FVec Ideal S1x128 .f32)
    = invStdOf (F := Ideal) (W3 m ρ c (Proc.devRef .tc main_v44_0)) (W3 m ρ c (Proc.devRef .tc main_v44_1)) := by
  show StableHlo.after hostOps2 (W3 m ρ c) (Proc.devRef .tc main_v53) = _
  after_results
  rfl

end Cert.KernelIdeal.HandValue

end
-- ==== Proof.LibDotPlain.lean ====
/-
  The plain product of two matrices, `[a, K] · [K, b]` (the left operand contracted on its last axis, the right one on
  its first, no batch axes), read at an entry on the extended reals: `(x · y)[p, c] = Σₖ x[p, k] · y[k, c]`, the sum
  over `Fin K`. Stated for any dimension record of that form, then for the host's `dot_general`.
-/
import Idealize.ShloMosaic.PureOps.Ideal.Laws
import Idealize.ShloMosaic.Lib.ValueIdx

noncomputable section

namespace Cert.LibDotPlain

open Idealize.ShloMosaic Idealize.ShloMosaic.ValueIdx

/-- The dimension numbers of a plain product: contract the left operand's axis 1 with the right operand's axis 0,
    keep the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the inner product of row `p` with column `c`. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- The host's plain `dot_general`, at an entry. -/
theorem hostDot_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    Host.dotGeneral D prec x y (ix2 p c) = ∑ k : Fin K, x (ix2 p k) * y (ix2 k c) := by
  simp only [Host.dotGeneral]
  rw [Ideal.dotGeneral_apply]
  exact sum_plain D h x y p c

end Cert.LibDotPlain

end
-- ==== Proof.KI.Value0.lean ====
import proofs.«163546_j27127013442152_2_alg».proof.Proof.KI.Region0
import proofs.«163546_j27127013442152_2_alg».proof.Proof.LibDotPlain
import Idealize.ShloMosaic.Lib.Pipeline.Value
import Idealize.ShloMosaic.Lib.ValueIdx
import Idealize.ShloMosaic.PureOps.Ideal.Laws

/-! # The fused projection (pallas_call 0): its result array, entry by entry, on the extended reals

On the extended reals a change of float format is the identity and a matrix product into a zero accumulator is the
plain sum over the contraction index. So the value the body stores at row `p`, column `q` of its block is

  Σₖ a[p,k]·w[k,q] + Σₖ x[p,k]·s[k,q] + b[0,q]

for the aggregated rows `a`, the input rows `x`, the two weight matrices `w`, `s` and the bias row `b` it was given.
Point `t` of the grid is given rows `5000·t …` of `a` and `x`, all of `w`, `s`, `b`, and writes rows `5000·t …` of the
result; the twenty blocks tile the 100000 rows. Hence the result array holds that expression at every entry. -/

noncomputable section

namespace Cert.KernelIdeal.HandValue

open Idealize.ShloMosaic Idealize.ShloMosaic.TcCoe Idealize.ShloMosaic.ValueIdx
open Idealize.ShloMosaic.Pipeline (Dat Cfg Window)
open Cert.KernelIdeal Cert.KernelIdeal.Gen Cert.KernelIdeal.GenP Cert.KernelIdeal.Hand

-- the buffers' contents on entry to the region
variable (V : (c : Dev nD) → (b : Ref sig .tc) → Buf (Elt Ideal) ((c : Thread nD τ).loc b))

/-! ## The stored value at an entry -/

/-- The product's dimension numbers: rows by columns, contracting the 64 inner coordinates. -/
theorem plain0 : Cert.LibDotPlain.IsPlain (a := 5000) (K := 64) (b := 128) dot_S5000x64_S64x128_S5000x128_1_0_0_1_n_n :=
  ⟨rfl, rfl, rfl, rfl, rfl, rfl⟩

/-- A product of operands narrowed to the shorter format, into the zero accumulator, at an entry: the inner product of
    the row with the column. -/
theorem prod0_apply (x : FVec Ideal S5000x64 .f32) (y : FVec Ideal S64x128 .f32) (p : Fin 5000) (q : Fin 128) :
    matmul dot_S5000x64_S64x128_S5000x128_1_0_0_1_n_n none (truncf .bf16 x bitsLt_bf16_f32) (truncf .bf16 y bitsLt_bf16_f32)
        (constant (F := Ideal) S5000x128 .f32 0x00000000#32) (ix2 p q)
      = ∑ k : Fin 64, x (ix2 p k) * y (ix2 k q) := by
  simp only [matmul]
  rw [Ideal.matmul_constant_zero_apply]
  exact Cert.LibDotPlain.sum_plain (a := 5000) (K := 64) (b := 128) dot_S5000x64_S64x128_S5000x128_1_0_0_1_n_n plain0 _ _ p q

/-- The bias row repeated down the rows, at an entry: the row's entry in that column. -/
theorem row0_apply (v : FVec Ideal S1x128 .f32) (p : Fin 5000) (q : Fin 128) :
    broadcastTo S5000x128 v broadcasts_S1x128_S5000x128 (ix2 p q) = v (ix2 (0 : Fin 1) q) :=
  broadcastTo_apply v broadcasts_S1x128_S5000x128 (ix2 p q) (ix2 (0 : Fin 1) q) (by
    intro a
    match a with
    | ⟨0, _⟩ => rfl
    | ⟨1, _⟩ => rfl)

/-- The stored value at row `p`, column `q` of the block. -/
theorem pay0_apply (v0 v3 : FVec Ideal S5000x64 .f32) (v5 v7 : FVec Ideal S64x128 .f32) (v12 : FVec Ideal S1x128 .f32)
    (p : Fin 5000) (q : Fin 128) :
    k0_pay1 (F := Ideal) v0 v3 v5 v7 v12 (ix2 p q)
      = ((∑ k : Fin 64, v0 (ix2 p k) * v5 (ix2 k q)) + (∑ k : Fin 64, v3 (ix2 p k) * v7 (ix2 k q))) + v12 (ix2 (0 : Fin 1) q) := by
  unfold k0_pay1
  simp only [shapeCast_self]
  exact congrArg₂ (· + ·) (congrArg₂ (· + ·) (prod0_apply v0 v5 p q) (prod0_apply v3 v7 p q)) (row0_apply v12 p q)

theorem zero_off0 : (![0, 0] : Fin 2 → Nat) = fun _ => 0 := funext fun a => by fin_cases a <;> rfl

/-- What the body leaves in the result buffer, at an entry, from the five operand blocks. -/
theorem out0_5_apply (x0 x1 : FVec Ideal S5000x64 .f32) (x2 x3 : FVec Ideal S64x128 .f32) (x4 : FVec Ideal S1x128 .f32)
    (p : Fin 5000) (q : Fin 128) :
    out0_5 (F := Ideal) x0 x1 x2 x3 x4 (ix2 p q)
      = ((∑ k : Fin 64, x0 (ix2 p k) * x2 (ix2 k q)) + (∑ k : Fin 64, x1 (ix2 p k) * x3 (ix2 k q))) + x4 (ix2 (0 : Fin 1) q) := by
  unfold out0_5
  rw [View.canon_unit_zero zero_off0]
  simp only [View.ld_unit_zero (S := S5000x64) zero_off0, View.ld_unit_zero (S := S64x128) zero_off0, View.ld_unit_zero (S := S1x128) zero_off0]
  exact pay0_apply x0 x1 x2 x3 x4 p q

/-! ## The blocks, read off the arrays -/

/-- The index maps over the grid: the two row operands and the result move one block of rows per point; the weight
    matrices and the bias row stay put. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the aggregated rows' block at point `t` is row `5000·t + p` of the array. -/
theorem rowsA_read (c : Dev nD) (t : Fin cfg0.N) (p : Fin 5000) (k : Fin 64) (r : Fin 100000) (hr : r.val = t.val * 5000 + p.val) :
    (iblk0 V c 0 t : Vec Ideal S5000x64 .f32) (ix2 p k) = (V c main_v39 : S100000x64.Idx → EReal) (ix2 r k) := by
  unfold iblk0
  rw [View.read_apply]
  refine congrArg (V c main_v39 : S100000x64.Idx → EReal) (funext fun a => Fin.ext ?_)
  match a with
  | ⟨0, _⟩ => show win0_0.index t (0 : Fin 2) * 5000 + 1 * p.val = r.val; rw [(idx0 t).1, hr]; omega
  | ⟨1, _⟩ => show win0_0.index t (1 : Fin 2) * 64 + 1 * k.val = k.val; rw [(idx0 t).2.1]; omega

/-- Row `p` of the input rows' block at point `t` is row `5000·t + p` of the array. -/
theorem rowsX_read (c : Dev nD) (t : Fin cfg0.N) (p : Fin 5000) (k : Fin 64) (r : Fin 100000) (hr : r.val = t.val * 5000 + p.val) :
    (iblk0 V c 1 t : Vec Ideal S5000x64 .f32) (ix2 p k) = (V c main_arg0 : S100000x64.Idx → EReal) (ix2 r k) := by
  unfold iblk0
  rw [View.read_apply]
  refine congrArg (V c main_arg0 : S100000x64.Idx → EReal) (funext fun a => Fin.ext ?_)
  match a with
  | ⟨0, _⟩ => show win0_1.index t (0 : Fin 2) * 5000 + 1 * p.val = r.val; rw [(idx0 t).2.2.1, hr]; omega
  | ⟨1, _⟩ => show win0_1.index t (1 : Fin 2) * 64 + 1 * k.val = k.val; rw [(idx0 t).2.2.2.1]; omega

/-- The first weight matrix's block at any point is the whole matrix. -/
theorem wA_read (c : Dev nD) (t : Fin cfg0.N) (k : Fin 64) (q : Fin 128) :
    (iblk0 V c 2 t : Vec Ideal S64x128 .f32) (ix2 k q) = (V c main_arg2 : S64x128.Idx → EReal) (ix2 k q) := by
  unfold iblk0
  rw [View.read_apply]
  refine congrArg (V c main_arg2 : S64x128.Idx → EReal) (funext fun a => Fin.ext ?_)
  match a with
  | ⟨0, _⟩ => show win0_2.index t (0 : Fin 2) * 64 + 1 * k.val = k.val; rw [(idx0 t).2.2.2.2.1]; omega
  | ⟨1, _⟩ => show win0_2.index t (1 : Fin 2) * 128 + 1 * q.val = q.val; rw [(idx0 t).2.2.2.2.2.1]; omega

/-- The second weight matrix's block at any point is the whole matrix. -/
theorem wS_read (c : Dev nD) (t : Fin cfg0.N) (k : Fin 64) (q : Fin 128) :
    (iblk0 V c 3 t : Vec Ideal S64x128 .f32) (ix2 k q) = (V c main_arg4 : S64x128.Idx → EReal) (ix2 k q) := by
  unfold iblk0
  rw [View.read_apply]
  refine congrArg (V c main_arg4 : S64x128.Idx → EReal) (funext fun a => Fin.ext ?_)
  match a with
  | ⟨0, _⟩ => show win0_3.index t (0 : Fin 2) * 64 + 1 * k.val = k.val; rw [(idx0 t).2.2.2.2.2.2.1]; omega
  | ⟨1, _⟩ => show win0_3.index t (1 : Fin 2) * 128 + 1 * q.val = q.val; rw [(idx0 t).2.2.2.2.2.2.2.1]; omega

/-- The bias row's block at any point is the whole row. -/
theorem bias_read (c : Dev nD) (t : Fin cfg0.N) (q : Fin 128) :
    (iblk0 V c 4 t : Vec Ideal S1x128 .f32) (ix2 (0 : Fin 1) q) = (V c main_v40 : S1x128.Idx → EReal) (ix2 (0 : Fin 1) q) := by
  unfold iblk0
  rw [View.read_apply]
  refine congrArg (V c main_v40 : S1x128.Idx → EReal) (funext fun a => Fin.ext ?_)
  match a with
  | ⟨0, _⟩ => show win0_4.index t (0 : Fin 2) * 1 + 1 * 0 = 0; rw [(idx0 t).2.2.2.2.2.2.2.2.1]
  | ⟨1, _⟩ => show win0_4.index t (1 : Fin 2) * 128 + 1 * q.val = q.val; rw [(idx0 t).2.2.2.2.2.2.2.2.2.1]; omega

/-! ## The result array -/

/-- Row `r`, column `q` of the projection of the aggregated rows `a` by `w` plus the input rows `x` by `s` plus the bias row `b`. -/
def proj0 (a x : S100000x64.Idx → EReal) (w s : S64x128.Idx → EReal) (b : S1x128.Idx → EReal) (r : Fin 100000) (q : Fin 128) : EReal :=
  ((∑ k : Fin 64, a (ix2 r k) * w (ix2 k q)) + (∑ k : Fin 64, x (ix2 r k) * s (ix2 k q))) + b (ix2 (0 : Fin 1) q)

/-- The whole result array: `proj0` of the arrays on entry, at every entry. -/
def projArr0 (c : Dev nD) : S100000x128.Idx → EReal :=
  fun i => proj0 (V c main_v39) (V c main_arg0) (V c main_arg2) (V c main_arg4) (V c main_v40) (i 0) (i 1)

/-- What point `t` writes back is block `t` of `projArr0`. -/
theorem flushed0_eq (c : Dev nD) (t : Fin cfg0.N) :
    (dat0 V c).flushed 5 t = ((cfg0.win 5).blk t).view.read (Elt Ideal) (projArr0 V c) := by
  show (cfg0.win 5).cut (grid0.coords t) ((dat0 V c).after 5 t) = _
  rw [after0_5]
  refine funext fun (j : S5000x128.Idx) => ?_
  obtain ⟨p, q, rfl⟩ : ∃ (p : Fin 5000) (q : Fin 128), j = ix2 p q := ⟨j 0, j 1, eq_ix2 j⟩
  have hN : cfg0.N = 20 := N_0
  have ht : t.val < 20 := hN ▸ t.isLt
  have hp : p.val < 5000 := p.isLt
  obtain ⟨r, hr⟩ : ∃ r : Fin 100000, r.val = t.val * 5000 + p.val := ⟨⟨t.val * 5000 + p.val, by omega⟩, rfl⟩
  have e : (((cfg0.win 5).blk t).view.emb (ix2 p q) : S100000x128.Idx) = ix2 r q := by
    funext a; apply Fin.ext
    match a with
    | ⟨0, _⟩ => show win0_5.index t (0 : Fin 2) * 5000 + 1 * p.val = r.val; rw [(idx0 t).2.2.2.2.2.2.2.2.2.2.1, hr]; omega
    | ⟨1, _⟩ => show win0_5.index t (1 : Fin 2) * 128 + 1 * q.val = q.val; rw [(idx0 t).2.2.2.2.2.2.2.2.2.2.2]; omega
  show out0_5 (iblk0 V c 0 t) (iblk0 V c 1 t) (iblk0 V c 2 t) (iblk0 V c 3 t) (iblk0 V c 4 t) (ix2 p q)
    = projArr0 V c (((cfg0.win 5).blk t).view.emb (ix2 p q))
  rw [e]
  refine (out0_5_apply (iblk0 V c 0 t) (iblk0 V c 1 t) (iblk0 V c 2 t) (iblk0 V c 3 t) (iblk0 V c 4 t) p q).trans ?_
  show _ = proj0 (V c main_v39) (V c main_arg0) (V c main_arg2) (V c main_arg4) (V c main_v40) r q
  unfold proj0
  refine congrArg₂ (· + ·) (congrArg₂ (· + ·) (Finset.sum_congr rfl fun k _ => ?_) (Finset.sum_congr rfl fun k _ => ?_)) ?_
  · exact congrArg₂ (· * ·) (rowsA_read V c t p k r hr) (wA_read V c t k q)
  · exact congrArg₂ (· * ·) (rowsX_read V c t p k r hr) (wS_read V c t k q)
  · exact bias_read V c t q

/-- An index of the result array is in point `t`'s block iff each coordinate is in the block's range on its axis. -/
theorem mem_blk0 (t : Fin cfg0.N) (i : S100000x128.Idx) :
    i ∈ ((cfg0.win 5).blk t).view.set
      ↔ ∀ a : Fin 2, win0_5.index t a * S5000x128.size a ≤ (i a).val ∧ (i a).val < win0_5.index t a * S5000x128.size a + S5000x128.size a := by
  show i ∈ ((View.whole main_v43).slice (win0_5.rect t)).set ↔ _
  rw [View.set_slice_whole, Rect.mem_set_unit]
  exact Iff.rfl

/-- Row `r` lies in the block of point `r / 5000`: the twenty blocks tile the array. -/
theorem cover0 (i : S100000x128.Idx) : ∃ t : Fin cfg0.N, (cfg0.win 5).flush t = true ∧ i ∈ ((cfg0.win 5).blk t).view.set := by
  have h0 : (i 0).val < 100000 := (i 0).isLt
  have h1 : (i 1).val < 128 := (i 1).isLt
  have hN : cfg0.N = 20 := N_0
  have hlt : (i 0).val / 5000 < cfg0.N := by rw [hN]; omega
  refine ⟨⟨(i 0).val / 5000, hlt⟩, flush0_5 _, ?_⟩
  rw [mem_blk0]
  have f0 : win0_5.index ⟨(i 0).val / 5000, hlt⟩ (0 : Fin 2) = (i 0).val / 5000 := (idx0 ⟨(i 0).val / 5000, hlt⟩).2.2.2.2.2.2.2.2.2.2.1
  have f1 : win0_5.index ⟨(i 0).val / 5000, hlt⟩ (1 : Fin 2) = 0 := (idx0 ⟨(i 0).val / 5000, hlt⟩).2.2.2.2.2.2.2.2.2.2.2
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [f0]; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [f1]; omega

/-- The result array after the region. -/
theorem final0 (c : Dev nD) : (dat0 V c).arrAt 5 cfg0.N = projArr0 V c :=
  (dat0 V c).arrAt_eq_of_cover 5 (projArr0 V c) (fun t _ => flushed0_eq V c t) cover0

/-- THE RESULT OF THE FUSED PROJECTION, entry by entry. -/
theorem value0 (c : Dev nD) (p : Fin 100000) (q : Fin 128) :
    (dat0 V c).arrAt 5 cfg0.N (ix2 p q) = proj0 (V c main_v39) (V c main_arg0) (V c main_arg2) (V c main_arg4) (V c main_v40) p q := by
  rw [final0]
  rfl

/-- `proj0`, spelt out. -/
theorem proj0_eq (a x : S100000x64.Idx → EReal) (w s : S64x128.Idx → EReal) (b : S1x128.Idx → EReal) (r : Fin 100000) (q : Fin 128) :
    proj0 a x w s b r q = ((∑ k : Fin 64, a (ix2 r k) * w (ix2 k q)) + (∑ k : Fin 64, x (ix2 r k) * s (ix2 k q))) + b (ix2 (0 : Fin 1) q) := rfl

end Cert.KernelIdeal.HandValue

end
-- ==== Proof.LibRuns.lean ====
/-
  Sums over consecutive runs.

  A sum over the first `m · n` naturals is the sum, over the `m` consecutive runs of length `n`, of each run's sum:
  entry `r` lies in run `r / n` at place `r % n`, that is `r = n · a + b` for exactly one run `a < m` and place `b < n`.
  Addition here is that of any commutative monoid; on the extended reals no finiteness is needed, only that addition is
  commutative and associative.
-/
import Idealize.ShloMosaic.Lib.ValueIdx

open scoped BigOperators

namespace Cert.Lib

/-- Cutting a sum over `Fin (m * n)` into `m` runs of `n`. -/
theorem sum_fin_mul {M : Type*} [AddCommMonoid M] (m n : ℕ) (g : ℕ → M) :
    ∑ r : Fin (m * n), g r.val = ∑ a ∈ Finset.range m, ∑ b : Fin n, g (n * a + b.val) := by
  rw [← Fin.sum_univ_eq_sum_range (fun a => ∑ b : Fin n, g (n * a + b.val)) m,
    ← Equiv.sum_comp finProdFinEquiv, Fintype.sum_prod_type]
  refine Finset.sum_congr rfl fun a _ => Finset.sum_congr rfl fun b _ => ?_
  congr 1
  show b.val + n * a.val = n * a.val + b.val
  omega

/-- The same with the total spelt as one number `N = m * n`, the summand given on `Fin N` and extended by zero. -/
theorem sum_fin_eq_runs {M : Type*} [AddCommMonoid M] (N m n : ℕ) (hN : N = m * n) (f : Fin N → M) :
    ∑ r : Fin N, f r = ∑ a ∈ Finset.range m, ∑ b : Fin n, (if h : n * a + b.val < N then f ⟨n * a + b.val, h⟩ else 0) := by
  subst hN
  rw [← sum_fin_mul m n (fun r => if h : r < m * n then f ⟨r, h⟩ else 0)]
  refine Finset.sum_congr rfl fun r _ => ?_
  rw [dif_pos r.isLt]

end Cert.Lib
-- ==== Proof.KI.Value1.lean ====
/- Region 1 of the program (the statistics reduction), its values at the exact extended reals. The region reads a
   [100000, 128] array in twenty blocks of 5000 rows. Each grid point adds, into the first accumulator, its block's column
   sums, and into the second the column sums of the block's squares; the first point starts both from zero; the last point
   copies both to the two [1, 128] result arrays. Here: the stored payloads read at an entry; what each control case leaves
   as a payload of the point's block and of what the point before left; the input block as rows of the array; the
   accumulation by induction over the grid points (after point n an accumulator holds the sum over the first n + 1 runs of
   5000 rows); the one write-back of each result window and the whole-array post; so the two result arrays hold the column
   sums over all 100000 rows, and of the squares. Addition on the extended reals is a commutative monoid: no finiteness
   is used. -/
import proofs.«163546_j27127013442152_2_alg».proof.Proof.KI.Region1
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic
import proofs.«163546_j27127013442152_2_alg».proof.Proof.LibRuns

noncomputable section

open Idealize.ShloMosaic Idealize.ShloMosaic.TcCoe Idealize.SL.Sem
open Idealize.ShloMosaic.Pipeline (Dat)
open Idealize.ShloMosaic.ValueIdx
open scoped BigOperators

namespace Cert.KernelIdeal.HandValue.Stats

open Cert.KernelIdeal Cert.KernelIdeal.Gen Cert.KernelIdeal.GenP Cert.KernelIdeal.Hand

/-! ## The payloads at an entry -/

/-- The source index of the column reduction over result index `q` with row `r` inserted is `(r, q)`. -/
theorem lift_rows (q : Fin 128) (r : Fin 5000) :
    reduces_S5000x128_S128.lift (ix1 q) r = ix2 r q :=
  funext fun a => Fin.ext (by match a with | ⟨0, _⟩ => rfl | ⟨1, _⟩ => rfl)

/-- The zero vector the first point stores. -/
theorem pay1_apply (q : Fin 128) : k1_pay1 (F := Ideal) (ix2 (0 : Fin 1) q) = 0 := by
  unfold k1_pay1
  simp only [shapeCast_self]
  exact Ideal.ofBits_zero_f32
theorem pay2_apply (q : Fin 128) : k1_pay2 (F := Ideal) (ix2 (0 : Fin 1) q) = 0 := by
  unfold k1_pay2
  simp only [shapeCast_self]
  exact Ideal.ofBits_zero_f32

/-- What a point stores into the first accumulator: what it held plus the block's column sums. -/
theorem pay4_apply (x0 : Vec Ideal S5000x128 .f32) (v5 : Vec Ideal S1x128 .f32) (q : Fin 128) :
    k1_pay4 (F := Ideal) x0 v5 (ix2 (0 : Fin 1) q) = v5 (ix2 (0 : Fin 1) q) + ∑ r : Fin 5000, x0 (ix2 r q) := by
  unfold k1_pay4 k1_pay3
  simp only [shapeCast_self]
  refine congrArg (v5 (ix2 (0 : Fin 1) q) + ·) ?_
  refine (shapeCast_a_1a_apply _ _ (0 : Fin 1) q).trans ?_
  refine (Ideal.multiReduction_add_single _ _ _ _ _ (ix1 q)).trans ?_
  exact Finset.sum_congr rfl fun r _ => congrArg x0 (lift_rows q r)

/-- What a point stores into the second accumulator: what it held plus the column sums of the block's squares. -/
theorem pay5_apply (x0 : Vec Ideal S5000x128 .f32) (v12 : Vec Ideal S1x128 .f32) (q : Fin 128) :
    k1_pay5 (F := Ideal) x0 v12 (ix2 (0 : Fin 1) q) = v12 (ix2 (0 : Fin 1) q) + ∑ r : Fin 5000, x0 (ix2 r q) * x0 (ix2 r q) := by
  unfold k1_pay5 k1_pay3
  simp only [shapeCast_self]
  refine congrArg (v12 (ix2 (0 : Fin 1) q) + ·) ?_
  refine (shapeCast_a_1a_apply _ _ (0 : Fin 1) q).trans ?_
  refine (Ideal.multiReduction_add_single _ _ _ _ _ (ix1 q)).trans ?_
  exact Finset.sum_congr rfl fun r _ => by rw [lift_rows q r]; rfl

variable {F : FTy → Type} [FloatOps F]

theorem hz : (![0, 0] : Fin 2 → Nat) = fun _ => 0 := funext fun a => by fin_cases a <;> rfl

/-! ## What each case leaves, as a payload of the point's block and of what the point before left -/

/-- The first point: the zero vector plus the block's column sums (of squares). -/
theorem sA0_eq (c : Dev nD) (t : Fin cfg1.N) (hc0 : cond1_0 (grid1.coords t)) (hc1 : ¬cond1_1 (grid1.coords t)) (x0 : Vec F S5000x128 .f32) :
    sA0 c t hc0 hc1 x0 = k1_pay4 x0 (k1_pay1 (F := F)) := by
  unfold sA0
  rw [View.read_writes_eq_canon _ _ _ (coverA_s0 c t hc0 hc1 x0)]
  unfold runA kernelRun1_A
  dsimp only
  try sl_unfold_words
  rw [View.canon_cons_unit_zero hz]
  try rw [View.readCov_unit_zero (S := S1x128) _ hz]
  simp only [View.readAt_eq_ld, Memref.IsWhole.read_unread, View.ld_unit_zero (S := S5000x128) hz, View.ld_unit_zero (S := S1x128) hz]
theorem sA1_eq (c : Dev nD) (t : Fin cfg1.N) (hc0 : cond1_0 (grid1.coords t)) (hc1 : ¬cond1_1 (grid1.coords t)) (x0 : Vec F S5000x128 .f32) :
    sA1 c t hc0 hc1 x0 = k1_pay5 x0 (k1_pay2 (F := F)) := by
  unfold sA1
  rw [View.read_writes_eq_canon _ _ _ (coverA_s1 c t hc0 hc1 x0)]
  unfold runA kernelRun1_A
  dsimp only
  try sl_unfold_words
  rw [View.canon_cons_unit_zero hz]
  try rw [View.readCov_unit_zero (S := S1x128) _ hz]
  simp only [View.readAt_eq_ld, Memref.IsWhole.read_unread, View.ld_unit_zero (S := S5000x128) hz, View.ld_unit_zero (S := S1x128) hz]

/-- A middle point: what the accumulator held plus the block's column sums (of squares). -/
theorem sB0_eq (c : Dev nD) (t : Fin cfg1.N) (hc0 : ¬cond1_0 (grid1.coords t)) (hc1 : ¬cond1_1 (grid1.coords t)) (x0 : Vec F S5000x128 .f32) (xs0 xs1 : Vec F S1x128 .f32) :
    sB0 c t hc0 hc1 x0 xs0 xs1 = k1_pay4 x0 xs0 := by
  unfold sB0
  rw [View.read_writes_eq_canon _ _ _ (coverB_s0 c t hc0 hc1 x0 xs0 xs1)]
  unfold runB kernelRun1_B
  dsimp only
  try sl_unfold_words
  rw [View.canon_cons_unit_zero hz]
  try rw [View.readCov_unit_zero (S := S1x128) _ hz]
  simp only [View.readAt_eq_ld, Memref.IsWhole.read_unread, View.ld_unit_zero (S := S5000x128) hz, View.ld_unit_zero (S := S1x128) hz]
  exact congrArg (k1_pay4 x0) (Memref.IsWhole.read_unread _ xs0)
theorem sB1_eq (c : Dev nD) (t : Fin cfg1.N) (hc0 : ¬cond1_0 (grid1.coords t)) (hc1 : ¬cond1_1 (grid1.coords t)) (x0 : Vec F S5000x128 .f32) (xs0 xs1 : Vec F S1x128 .f32) :
    sB1 c t hc0 hc1 x0 xs0 xs1 = k1_pay5 x0 xs1 := by
  unfold sB1
  rw [View.read_writes_eq_canon _ _ _ (coverB_s1 c t hc0 hc1 x0 xs0 xs1)]
  unfold runB kernelRun1_B
  dsimp only
  try sl_unfold_words
  rw [View.canon_cons_unit_zero hz]
  try rw [View.readCov_unit_zero (S := S1x128) _ hz]
  simp only [View.readAt_eq_ld, Memref.IsWhole.read_unread, View.ld_unit_zero (S := S5000x128) hz, View.ld_unit_zero (S := S1x128) hz]
  exact congrArg (k1_pay5 x0) (Memref.IsWhole.read_unread _ xs1)

/-- The last point: the same in the accumulators, and the same copied to the output buffers. -/
theorem sC0_eq (c : Dev nD) (t : Fin cfg1.N) (hc0 : ¬cond1_0 (grid1.coords t)) (hc1 : cond1_1 (grid1.coords t)) (x0 : Vec F S5000x128 .f32) (xs0 xs1 : Vec F S1x128 .f32) :
    sC0 c t hc0 hc1 x0 xs0 xs1 = k1_pay4 x0 xs0 := by
  unfold sC0
  rw [View.read_writes_eq_canon _ _ _ (coverC_s0 c t hc0 hc1 x0 xs0 xs1)]
  unfold runC kernelRun1_C
  dsimp only
  try sl_unfold_words
  rw [View.canon_cons_unit_zero hz]
  try rw [View.readCov_unit_zero (S := S1x128) _ hz]
  simp only [View.readAt_eq_ld, Memref.IsWhole.read_unread, View.ld_unit_zero (S := S5000x128) hz, View.ld_unit_zero (S := S1x128) hz]
  exact congrArg (k1_pay4 x0) (Memref.IsWhole.read_unread _ xs0)
theorem sC1_eq (c : Dev nD) (t : Fin cfg1.N) (hc0 : ¬cond1_0 (grid1.coords t)) (hc1 : cond1_1 (grid1.coords t)) (x0 : Vec F S5000x128 .f32) (xs0 xs1 : Vec F S1x128 .f32) :
    sC1 c t hc0 hc1 x0 xs0 xs1 = k1_pay5 x0 xs1 := by
  unfold sC1
  rw [View.read_writes_eq_canon _ _ _ (coverC_s1 c t hc0 hc1 x0 xs0 xs1)]
  unfold runC kernelRun1_C
  dsimp only
  try sl_unfold_words
  rw [View.canon_cons_unit_zero hz]
  try rw [View.readCov_unit_zero (S := S1x128) _ hz]
  simp only [View.readAt_eq_ld, Memref.IsWhole.read_unread, View.ld_unit_zero (S := S5000x128) hz, View.ld_unit_zero (S := S1x128) hz]
  exact congrArg (k1_pay5 x0) (Memref.IsWhole.read_unread _ xs1)
theorem oC1_eq (c : Dev nD) (t : Fin cfg1.N) (hc0 : ¬cond1_0 (grid1.coords t)) (hc1 : cond1_1 (grid1.coords t)) (x0 : Vec F S5000x128 .f32) (xs0 xs1 : Vec F S1x128 .f32) :
    oC1 c t hc0 hc1 x0 xs0 xs1 = k1_pay4 x0 xs0 := by
  unfold oC1
  rw [View.read_writes_eq_canon _ _ _ (coverC_o1 c t hc0 hc1 x0 xs0 xs1)]
  unfold runC kernelRun1_C
  dsimp only
  try sl_unfold_words
  rw [View.canon_cons_unit_zero hz]
  try rw [View.readCov_unit_zero (S := S1x128) _ hz]
  simp only [View.readAt_eq_ld, Memref.IsWhole.read_unread, View.ld_unit_zero (S := S5000x128) hz, View.ld_unit_zero (S := S1x128) hz]
  exact congrArg (k1_pay4 x0) (Memref.IsWhole.read_unread _ xs0)
theorem oC2_eq (c : Dev nD) (t : Fin cfg1.N) (hc0 : ¬cond1_0 (grid1.coords t)) (hc1 : cond1_1 (grid1.coords t)) (x0 : Vec F S5000x128 .f32) (xs0 xs1 : Vec F S1x128 .f32) :
    oC2 c t hc0 hc1 x0 xs0 xs1 = k1_pay5 x0 xs1 := by
  unfold oC2
  rw [View.read_writes_eq_canon _ _ _ (coverC_o2 c t hc0 hc1 x0 xs0 xs1)]
  unfold runC kernelRun1_C
  dsimp only
  try sl_unfold_words
  rw [View.canon_cons_unit_zero hz]
  try rw [View.readCov_unit_zero (S := S1x128) _ hz]
  simp only [View.readAt_eq_ld, Memref.IsWhole.read_unread, View.ld_unit_zero (S := S5000x128) hz, View.ld_unit_zero (S := S1x128) hz]
  exact congrArg (k1_pay5 x0) (Memref.IsWhole.read_unread _ xs1)

/-! ## The input block, as rows of the array -/

/-- The input block at point `t` is rows `5000 t … 5000 t + 4999` of the array the region finds. -/
theorem iblk1_apply (V : (c : Dev nD) → (b : Ref sig .tc) → Buf (Elt F) ((c : Thread nD τ).loc b)) (c : Dev nD) (t : Fin cfg1.N)
    (r : Fin 5000) (q : Fin 128) (p : Fin 100000) (hp : p.val = 5000 * t.val + r.val) :
    (iblk1 V c 0 t : Vec F S5000x128 .f32) (ix2 r q) = (V c main_v43 : S100000x128.Idx → Elt F .f32) (ix2 p q) := by
  have hi : win1_0.index t 0 = t.val ∧ win1_0.index t 1 = 0 :=
    (by decide +kernel : ∀ t : Fin grid1.N, win1_0.index t 0 = t.val ∧ win1_0.index t 1 = 0) t
  unfold iblk1
  rw [View.read_apply]
  show V c main_v43 _ = V c main_v43 _
  refine congrArg (V c main_v43) (funext fun a => Fin.ext ?_)
  match a with
  | ⟨0, _⟩ => show win1_0.index t 0 * 5000 + 1 * r.val = p.val; rw [hi.1, hp]; omega
  | ⟨1, _⟩ => show win1_0.index t 1 * 128 + 1 * q.val = q.val; rw [hi.2]; omega

/-! ## The accumulation, at Ideal -/

section AtIdeal

variable (V : (c : Dev nD) → (b : Ref sig .tc) → Buf (Elt Ideal) ((c : Thread nD τ).loc b))

/-- Entry `(p, q)` of the array the region reads. -/
abbrev rowAt (c : Dev nD) (p : Fin 100000) (q : Fin 128) : EReal :=
  (V c main_v43 : S100000x128.Idx → Elt Ideal .f32) (ix2 p q)

/-- Point `t`'s input block, at its literal vector type. -/
abbrev blk (c : Dev nD) (t : Fin cfg1.N) : Vec Ideal S5000x128 .f32 := iblk1 V c 0 t

/-- The sum of `f` over the first `n` runs of 5000 consecutive rows. -/
def runs (f : Fin 100000 → EReal) (n : ℕ) : EReal :=
  ∑ a ∈ Finset.range n, ∑ b : Fin 5000, (if h : 5000 * a + b.val < 100000 then f ⟨5000 * a + b.val, h⟩ else 0)

theorem runs_zero (f : Fin 100000 → EReal) : runs f 0 = 0 := Finset.sum_range_zero _
theorem runs_succ (f : Fin 100000 → EReal) (n : ℕ) :
    runs f (n + 1) = runs f n + ∑ b : Fin 5000, (if h : 5000 * n + b.val < 100000 then f ⟨5000 * n + b.val, h⟩ else 0) :=
  Finset.sum_range_succ _ _
/-- Twenty runs of 5000 are all 100000 rows. -/
theorem runs_all (f : Fin 100000 → EReal) : runs f 20 = ∑ p : Fin 100000, f p :=
  (Cert.Lib.sum_fin_eq_runs 100000 20 5000 (by norm_num) f).symm

/-- Point `t`'s block, summed down a column, is run `t` of that column; likewise for the squares. -/
theorem block_sum (c : Dev nD) (t : Fin cfg1.N) (q : Fin 128) :
    ∑ r : Fin 5000, blk V c t (ix2 r q)
      = ∑ b : Fin 5000, (if h : 5000 * t.val + b.val < 100000 then (fun p => rowAt V c p q) ⟨5000 * t.val + b.val, h⟩ else 0) := by
  have hN : t.val < 20 := lt_of_lt_of_eq t.isLt (show cfg1.N = 20 from N_1)
  refine Finset.sum_congr rfl fun b _ => ?_
  have hb := b.isLt
  rw [dif_pos (by omega)]
  exact iblk1_apply V c t b q ⟨5000 * t.val + b.val, by omega⟩ rfl
theorem block_sum_sq (c : Dev nD) (t : Fin cfg1.N) (q : Fin 128) :
    ∑ r : Fin 5000, blk V c t (ix2 r q) * blk V c t (ix2 r q)
      = ∑ b : Fin 5000, (if h : 5000 * t.val + b.val < 100000 then (fun p => rowAt V c p q * rowAt V c p q) ⟨5000 * t.val + b.val, h⟩ else 0) := by
  have hN : t.val < 20 := lt_of_lt_of_eq t.isLt (show cfg1.N = 20 from N_1)
  refine Finset.sum_congr rfl fun b _ => ?_
  have hb := b.isLt
  rw [dif_pos (by omega)]
  have e : blk V c t (ix2 b q) = rowAt V c ⟨5000 * t.val + b.val, by omega⟩ q := iblk1_apply V c t b q ⟨5000 * t.val + b.val, by omega⟩ rfl
  rw [e]

/-- The accumulators after the first point, -/
theorem acc_first (c : Dev nD) (t : Fin cfg1.N) (h : t.val = 0) :
    (outsAt1 V c t.val t.isLt).2.2.1 = k1_pay4 (iblk1 V c 0 t) (k1_pay1 (F := Ideal))
      ∧ (outsAt1 V c t.val t.isLt).2.2.2 = k1_pay5 (iblk1 V c 0 t) (k1_pay2 (F := Ideal)) := by
  rw [outsAt1_A V c t h]
  dsimp only
  exact ⟨sA0_eq c t (isFirst h) (notLast_of_first h) (iblk1 V c 0 t), sA1_eq c t (isFirst h) (notLast_of_first h) (iblk1 V c 0 t)⟩

/-- and after any later point, over what the point before left: the last point accumulates as a middle one does. -/
theorem acc_step (c : Dev nD) (t : Fin cfg1.N) (h0 : t.val ≠ 0) :
    (outsAt1 V c t.val t.isLt).2.2.1 = k1_pay4 (iblk1 V c 0 t) (outsAt1 V c (t.val - 1) (Nat.lt_of_le_of_lt (Nat.sub_le _ _) t.isLt)).2.2.1
      ∧ (outsAt1 V c t.val t.isLt).2.2.2 = k1_pay5 (iblk1 V c 0 t) (outsAt1 V c (t.val - 1) (Nat.lt_of_le_of_lt (Nat.sub_le _ _) t.isLt)).2.2.2 := by
  by_cases h1 : t.val % 20 = 19
  · rw [outsAt1_C V c t h0 h1]
    dsimp only
    exact ⟨sC0_eq c t (notFirst h0) (isLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
      sC1_eq c t (notFirst h0) (isLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2⟩
  · rw [outsAt1_B V c t h0 h1]
    dsimp only
    exact ⟨sB0_eq c t (notFirst h0) (notLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
      sB1_eq c t (notFirst h0) (notLast h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2⟩

/-- THE INVARIANT: after point `n` the first accumulator holds, in column `q`, the sum of that column over the first
    `n + 1` runs of rows, the second the sum of its squares. Addition on the extended reals is a commutative monoid, so no
    finiteness is needed. -/
theorem acc_eq (c : Dev nD) (q : Fin 128) : ∀ (n : ℕ) (hn : n < cfg1.N),
    (outsAt1 V c n hn).2.2.1 (ix2 (0 : Fin 1) q) = runs (fun p => rowAt V c p q) (n + 1)
      ∧ (outsAt1 V c n hn).2.2.2 (ix2 (0 : Fin 1) q) = runs (fun p => rowAt V c p q * rowAt V c p q) (n + 1) := by
  intro n
  induction n with
  | zero =>
    intro hn
    obtain ⟨e0, e1⟩ := acc_first V c ⟨0, hn⟩ rfl
    constructor
    · refine (congrFun e0 (ix2 (0 : Fin 1) q)).trans ?_
      refine (pay4_apply (blk V c ⟨0, hn⟩) (k1_pay1 (F := Ideal)) q).trans ?_
      rw [pay1_apply, runs_succ, runs_zero]
      exact congrArg (0 + ·) (block_sum V c ⟨0, hn⟩ q)
    · refine (congrFun e1 (ix2 (0 : Fin 1) q)).trans ?_
      refine (pay5_apply (blk V c ⟨0, hn⟩) (k1_pay2 (F := Ideal)) q).trans ?_
      rw [pay2_apply, runs_succ, runs_zero]
      exact congrArg (0 + ·) (block_sum_sq V c ⟨0, hn⟩ q)
  | succ n ih =>
    intro hn
    obtain ⟨i0, i1⟩ := ih (Nat.lt_of_succ_lt hn)
    obtain ⟨e0, e1⟩ := acc_step V c ⟨n + 1, hn⟩ (Nat.succ_ne_zero n)
    constructor
    · refine (congrFun e0 (ix2 (0 : Fin 1) q)).trans ?_
      refine (pay4_apply (blk V c ⟨n + 1, hn⟩) (outsAt1 V c n (Nat.lt_of_succ_lt hn)).2.2.1 q).trans ?_
      rw [runs_succ (fun p => rowAt V c p q) (n + 1), i0]
      exact congrArg (runs (fun p => rowAt V c p q) (n + 1) + ·) (block_sum V c ⟨n + 1, hn⟩ q)
    · refine (congrFun e1 (ix2 (0 : Fin 1) q)).trans ?_
      refine (pay5_apply (blk V c ⟨n + 1, hn⟩) (outsAt1 V c n (Nat.lt_of_succ_lt hn)).2.2.2 q).trans ?_
      rw [runs_succ (fun p => rowAt V c p q * rowAt V c p q) (n + 1), i1]
      exact congrArg (runs (fun p => rowAt V c p q * rowAt V c p q) (n + 1) + ·) (block_sum_sq V c ⟨n + 1, hn⟩ q)

end AtIdeal

/-! ## The two result arrays -/

section Results

variable (V : (c : Dev nD) → (b : Ref sig .tc) → Buf (Elt Ideal) ((c : Thread nD τ).loc b))

/-- The last grid point. -/
abbrev tLast : Fin cfg1.N := ⟨19, lt_of_lt_of_eq (by decide) N_1.symm⟩

/-- What the two output buffers hold after the last point. -/
abbrev out1 (c : Dev nD) : Buf (Elt Ideal) ((c : Thread nD τ).loc main_v44_0) := (outsAt1 V c tLast.val tLast.isLt).1
abbrev out2 (c : Dev nD) : Buf (Elt Ideal) ((c : Thread nD τ).loc main_v44_1) := (outsAt1 V c tLast.val tLast.isLt).2.1

/-- At the last point each output buffer receives what its accumulator holds. -/
theorem out_eq_acc (c : Dev nD) :
    (outsAt1 V c tLast.val tLast.isLt).1 = (outsAt1 V c tLast.val tLast.isLt).2.2.1
      ∧ (outsAt1 V c tLast.val tLast.isLt).2.1 = (outsAt1 V c tLast.val tLast.isLt).2.2.2 := by
  rw [outsAt1_C V c tLast (by decide) (by decide)]
  dsimp only
  exact ⟨(oC1_eq c tLast _ _ (iblk1 V c 0 tLast) _ _).trans (sC0_eq c tLast _ _ (iblk1 V c 0 tLast) _ _).symm,
    (oC2_eq c tLast _ _ (iblk1 V c 0 tLast) _ _).trans (sC1_eq c tLast _ _ (iblk1 V c 0 tLast) _ _).symm⟩

/-- So they hold the column sums over all 100000 rows, and of the squares. -/
theorem out_last (c : Dev nD) (q : Fin 128) :
    (outsAt1 V c tLast.val tLast.isLt).1 (ix2 (0 : Fin 1) q) = ∑ p : Fin 100000, rowAt V c p q
      ∧ (outsAt1 V c tLast.val tLast.isLt).2.1 (ix2 (0 : Fin 1) q) = ∑ p : Fin 100000, rowAt V c p q * rowAt V c p q := by
  obtain ⟨e0, e1⟩ := out_eq_acc V c
  obtain ⟨a0, a1⟩ := acc_eq V c q 19 tLast.isLt
  exact ⟨(congrFun e0 _).trans (a0.trans (runs_all _)), (congrFun e1 _).trans (a1.trans (runs_all _))⟩

/-- The one write-back of each output window, at the last point, writes its buffer: block (0, 0) of a [1,128] array read
    through zero offsets is the array. -/
theorem flushed1_eq (c : Dev nD) (t : Fin cfg1.N) (hf : (cfg1.win 1).flush t = true) :
    (dat1 V c).flushed 1 t = ((cfg1.win 1).blk t).view.read (Elt Ideal) (out1 V c) := by
  have hN : cfg1.N = 20 := N_1
  have h1 : t.val = 19 := by have := (flush1_1 t).mp hf; have := t.isLt; omega
  obtain rfl : t = tLast := Fin.ext h1
  show (cfg1.win 1).cut (grid1.coords tLast) ((dat1 V c).after 1 tLast) = _
  rw [after1_1]
  have hz' : (fun a => win1_1.index tLast a * main_v44_0.ty.shape.size a) = fun _ => 0 := funext fun a => by fin_cases a <;> decide
  exact (Memref.read_access_unit_zero (Elt Ideal) main_v44_0 hz' (fun a => by rw [congrFun hz' a]; simp) _).symm
theorem flushed2_eq (c : Dev nD) (t : Fin cfg1.N) (hf : (cfg1.win 2).flush t = true) :
    (dat1 V c).flushed 2 t = ((cfg1.win 2).blk t).view.read (Elt Ideal) (out2 V c) := by
  have hN : cfg1.N = 20 := N_1
  have h1 : t.val = 19 := by have := (flush1_2 t).mp hf; have := t.isLt; omega
  obtain rfl : t = tLast := Fin.ext h1
  show (cfg1.win 2).cut (grid1.coords tLast) ((dat1 V c).after 2 tLast) = _
  rw [after1_2]
  have hz' : (fun a => win1_2.index tLast a * main_v44_1.ty.shape.size a) = fun _ => 0 := funext fun a => by fin_cases a <;> decide
  exact (Memref.read_access_unit_zero (Elt Ideal) main_v44_1 hz' (fun a => by rw [congrFun hz' a]; simp) _).symm

/-- So each result array ends holding its buffer: the last point's block covers the array. -/
theorem final1 (c : Dev nD) : (dat1 V c).arrAt 1 cfg1.N = out1 V c :=
  (dat1 V c).arrAt_eq_of_cover 1 (out1 V c) (flushed1_eq V c) fun i =>
    ⟨tLast, (flush1_1 tLast).mpr rfl, by
      show i ∈ ((View.whole main_v44_0).slice (win1_1.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_1.index tLast 0 * win1_1.size 0 ≤ (i 0 : Nat)
          ∧ (i 0 : Nat) < win1_1.index tLast 0 * win1_1.size 0 + win1_1.xsize (grid1.coords tLast) 0
        rw [show win1_1.index tLast 0 * win1_1.size 0 = 0 from by decide +kernel,
          show win1_1.xsize (grid1.coords tLast) 0 = 1 from by decide +kernel]; omega
      | ⟨1, _⟩ =>
        show win1_1.index tLast 1 * win1_1.size 1 ≤ (i 1 : Nat)
          ∧ (i 1 : Nat) < win1_1.index tLast 1 * win1_1.size 1 + win1_1.xsize (grid1.coords tLast) 1
        rw [show win1_1.index tLast 1 * win1_1.size 1 = 0 from by decide +kernel,
          show win1_1.xsize (grid1.coords tLast) 1 = 128 from by decide +kernel]; omega⟩
theorem final2 (c : Dev nD) : (dat1 V c).arrAt 2 cfg1.N = out2 V c :=
  (dat1 V c).arrAt_eq_of_cover 2 (out2 V c) (flushed2_eq V c) fun i =>
    ⟨tLast, (flush1_2 tLast).mpr rfl, by
      show i ∈ ((View.whole main_v44_1).slice (win1_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index tLast 0 * win1_2.size 0 ≤ (i 0 : Nat)
          ∧ (i 0 : Nat) < win1_2.index tLast 0 * win1_2.size 0 + win1_2.xsize (grid1.coords tLast) 0
        rw [show win1_2.index tLast 0 * win1_2.size 0 = 0 from by decide +kernel,
          show win1_2.xsize (grid1.coords tLast) 0 = 1 from by decide +kernel]; omega
      | ⟨1, _⟩ =>
        show win1_2.index tLast 1 * win1_2.size 1 ≤ (i 1 : Nat)
          ∧ (i 1 : Nat) < win1_2.index tLast 1 * win1_2.size 1 + win1_2.xsize (grid1.coords tLast) 1
        rw [show win1_2.index tLast 1 * win1_2.size 1 = 0 from by decide +kernel,
          show win1_2.xsize (grid1.coords tLast) 1 = 128 from by decide +kernel]; omega⟩

/-- THE VALUES. After the region the first result array holds, in column `q`, the sum of column `q` of the array the
    region read over all 100000 rows; the second the sum of the squares. -/
theorem value1a (c : Dev nD) (q : Fin 128) :
    (dat1 V c).arrAt 1 cfg1.N (ix2 (0 : Fin 1) q) = ∑ p : Fin 100000, rowAt V c p q := by
  rw [final1 V c]; exact (out_last V c q).1
theorem value1b (c : Dev nD) (q : Fin 128) :
    (dat1 V c).arrAt 2 cfg1.N (ix2 (0 : Fin 1) q) = ∑ p : Fin 100000, rowAt V c p q * rowAt V c p q := by
  rw [final2 V c]; exact (out_last V c q).2

end Results

end Cert.KernelIdeal.HandValue.Stats

end
-- ==== Proof.KI.Value2.lean ====
import proofs.«163546_j27127013442152_2_alg».proof.Proof.KI.Region2
import Idealize.ShloMosaic.Lib.Pipeline.Value
import Idealize.ShloMosaic.Lib.ValueIdx
import Idealize.ShloMosaic.PureOps.Ideal.Laws

/-! # The normalisation epilogue (pallas_call 2): its result array, entry by entry, on the extended reals

The value the body stores at row `p`, column `q` of its block is

  max ((x[p,q] − mean[0,q]) · rstd[0,q] · scale[0,q] + shift[0,q], 0)

for the block `x` of projected rows and the four rows it was given (the zero it clamps at is the extended real 0).
Point `t` of the grid is given rows `5000·t …` of the projected rows and all of the four rows, and writes rows
`5000·t …` of the result; the twenty blocks tile the 100000 rows. Hence the result array holds that expression at
every entry. -/

noncomputable section

namespace Cert.KernelIdeal.HandValue

open Idealize.ShloMosaic Idealize.ShloMosaic.TcCoe Idealize.ShloMosaic.ValueIdx
open Idealize.ShloMosaic.Pipeline (Dat Cfg Window)
open Cert.KernelIdeal Cert.KernelIdeal.Gen Cert.KernelIdeal.GenP Cert.KernelIdeal.Hand

-- the buffers' contents on entry to the region
variable (V : (c : Dev nD) → (b : Ref sig .tc) → Buf (Elt Ideal) ((c : Thread nD τ).loc b))

/-! ## The stored value at an entry -/

/-- A row repeated down the rows, at an entry: the row's entry in that column. -/
theorem row2_apply (v : FVec Ideal S1x128 .f32) (p : Fin 5000) (q : Fin 128) :
    broadcastTo S5000x128 v broadcasts_S1x128_S5000x128 (ix2 p q) = v (ix2 (0 : Fin 1) q) :=
  broadcastTo_apply v broadcasts_S1x128_S5000x128 (ix2 p q) (ix2 (0 : Fin 1) q) (by
    intro a
    match a with
    | ⟨0, _⟩ => rfl
    | ⟨1, _⟩ => rfl)

/-- The stored value at row `p`, column `q` of the block. -/
theorem pay2_apply (v0 : FVec Ideal S5000x128 .f32) (v2 v6 v10 v14 : FVec Ideal S1x128 .f32) (p : Fin 5000) (q : Fin 128) :
    k2_pay1 (F := Ideal) v0 v2 v6 v10 v14 (ix2 p q)
      = max ((((v0 (ix2 p q) - v2 (ix2 (0 : Fin 1) q)) * v6 (ix2 (0 : Fin 1) q)) * v10 (ix2 (0 : Fin 1) q)) + v14 (ix2 (0 : Fin 1) q)) 0 := by
  unfold k2_pay1
  simp only [shapeCast_self, maximumf_apply, addf_apply, mulf_apply, subf_apply, broadcast_apply, row2_apply]
  exact congrArg (max _) Ideal.ofBits_zero_f32

theorem zero_off2 : (![0, 0] : Fin 2 → Nat) = fun _ => 0 := funext fun a => by fin_cases a <;> rfl

/-- What the body leaves in the result buffer, at an entry, from the five operand blocks. -/
theorem out2_5_apply (x0 : FVec Ideal S5000x128 .f32) (x1 x2 x3 x4 : FVec Ideal S1x128 .f32) (p : Fin 5000) (q : Fin 128) :
    out2_5 (F := Ideal) x0 x1 x2 x3 x4 (ix2 p q)
      = max ((((x0 (ix2 p q) - x1 (ix2 (0 : Fin 1) q)) * x2 (ix2 (0 : Fin 1) q)) * x3 (ix2 (0 : Fin 1) q)) + x4 (ix2 (0 : Fin 1) q)) 0 := by
  unfold out2_5
  rw [View.canon_unit_zero zero_off2]
  simp only [View.ld_unit_zero (S := S5000x128) zero_off2, View.ld_unit_zero (S := S1x128) zero_off2]
  exact pay2_apply x0 x1 x2 x3 x4 p q

/-! ## The blocks, read off the arrays -/

/-- The index maps over the grid: the projected rows and the result move one block of rows per point; the four rows
    stay put. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the projected rows' block at point `t` is row `5000·t + p` of the array. -/
theorem x_read2 (c : Dev nD) (t : Fin cfg2.N) (p : Fin 5000) (q : Fin 128) (r : Fin 100000) (hr : r.val = t.val * 5000 + p.val) :
    (iblk2 V c 0 t : Vec Ideal S5000x128 .f32) (ix2 p q) = (V c main_v43 : S100000x128.Idx → EReal) (ix2 r q) := by
  unfold iblk2
  rw [View.read_apply]
  refine congrArg (V c main_v43 : S100000x128.Idx → EReal) (funext fun a => Fin.ext ?_)
  match a with
  | ⟨0, _⟩ => show win2_0.index t (0 : Fin 2) * 5000 + 1 * p.val = r.val; rw [(idx2 t).1, hr]; omega
  | ⟨1, _⟩ => show win2_0.index t (1 : Fin 2) * 128 + 1 * q.val = q.val; rw [(idx2 t).2.1]; omega

/-- The row of column means: its block at any point is the whole row. -/
theorem mean_read2 (c : Dev nD) (t : Fin cfg2.N) (q : Fin 128) :
    (iblk2 V c 1 t : Vec Ideal S1x128 .f32) (ix2 (0 : Fin 1) q) = (V c main_v46 : S1x128.Idx → EReal) (ix2 (0 : Fin 1) q) := by
  unfold iblk2
  rw [View.read_apply]
  refine congrArg (V c main_v46 : S1x128.Idx → EReal) (funext fun a => Fin.ext ?_)
  match a with
  | ⟨0, _⟩ => show win2_1.index t (0 : Fin 2) * 1 + 1 * 0 = 0; rw [(idx2 t).2.2.1]
  | ⟨1, _⟩ => show win2_1.index t (1 : Fin 2) * 128 + 1 * q.val = q.val; rw [(idx2 t).2.2.2.1]; omega

/-- The row of reciprocal standard deviations likewise. -/
theorem rstd_read2 (c : Dev nD) (t : Fin cfg2.N) (q : Fin 128) :
    (iblk2 V c 2 t : Vec Ideal S1x128 .f32) (ix2 (0 : Fin 1) q) = (V c main_v53 : S1x128.Idx → EReal) (ix2 (0 : Fin 1) q) := by
  unfold iblk2
  rw [View.read_apply]
  refine congrArg (V c main_v53 : S1x128.Idx → EReal) (funext fun a => Fin.ext ?_)
  match a with
  | ⟨0, _⟩ => show win2_2.index t (0 : Fin 2) * 1 + 1 * 0 = 0; rw [(idx2 t).2.2.2.2.1]
  | ⟨1, _⟩ => show win2_2.index t (1 : Fin 2) * 128 + 1 * q.val = q.val; rw [(idx2 t).2.2.2.2.2.1]; omega

/-- The scale row likewise. -/
theorem scale_read2 (c : Dev nD) (t : Fin cfg2.N) (q : Fin 128) :
    (iblk2 V c 3 t : Vec Ideal S1x128 .f32) (ix2 (0 : Fin 1) q) = (V c main_v41 : S1x128.Idx → EReal) (ix2 (0 : Fin 1) q) := by
  unfold iblk2
  rw [View.read_apply]
  refine congrArg (V c main_v41 : S1x128.Idx → EReal) (funext fun a => Fin.ext ?_)
  match a with
  | ⟨0, _⟩ => show win2_3.index t (0 : Fin 2) * 1 + 1 * 0 = 0; rw [(idx2 t).2.2.2.2.2.2.1]
  | ⟨1, _⟩ => show win2_3.index t (1 : Fin 2) * 128 + 1 * q.val = q.val; rw [(idx2 t).2.2.2.2.2.2.2.1]; omega

/-- The shift row likewise. -/
theorem shift_read2 (c : Dev nD) (t : Fin cfg2.N) (q : Fin 128) :
    (iblk2 V c 4 t : Vec Ideal S1x128 .f32) (ix2 (0 : Fin 1) q) = (V c main_v42 : S1x128.Idx → EReal) (ix2 (0 : Fin 1) q) := by
  unfold iblk2
  rw [View.read_apply]
  refine congrArg (V c main_v42 : S1x128.Idx → EReal) (funext fun a => Fin.ext ?_)
  match a with
  | ⟨0, _⟩ => show win2_4.index t (0 : Fin 2) * 1 + 1 * 0 = 0; rw [(idx2 t).2.2.2.2.2.2.2.2.1]
  | ⟨1, _⟩ => show win2_4.index t (1 : Fin 2) * 128 + 1 * q.val = q.val; rw [(idx2 t).2.2.2.2.2.2.2.2.2.1]; omega

/-! ## The result array -/

/-- Row `r`, column `q` of the rows `x` normalised by the rows `mean`, `rstd`, scaled and shifted by `scale`, `shift`,
    and clamped below at zero. -/
def norm2 (x : S100000x128.Idx → EReal) (mean rstd scale shift : S1x128.Idx → EReal) (r : Fin 100000) (q : Fin 128) : EReal :=
  max ((((x (ix2 r q) - mean (ix2 (0 : Fin 1) q)) * rstd (ix2 (0 : Fin 1) q)) * scale (ix2 (0 : Fin 1) q)) + shift (ix2 (0 : Fin 1) q)) 0

/-- The whole result array: `norm2` of the arrays on entry, at every entry. -/
def normArr2 (c : Dev nD) : S100000x128.Idx → EReal :=
  fun i => norm2 (V c main_v43) (V c main_v46) (V c main_v53) (V c main_v41) (V c main_v42) (i 0) (i 1)

/-- What point `t` writes back is block `t` of `normArr2`. -/
theorem flushed2_eq (c : Dev nD) (t : Fin cfg2.N) :
    (dat2 V c).flushed 5 t = ((cfg2.win 5).blk t).view.read (Elt Ideal) (normArr2 V c) := by
  show (cfg2.win 5).cut (grid2.coords t) ((dat2 V c).after 5 t) = _
  rw [after2_5]
  refine funext fun (j : S5000x128.Idx) => ?_
  obtain ⟨p, q, rfl⟩ : ∃ (p : Fin 5000) (q : Fin 128), j = ix2 p q := ⟨j 0, j 1, eq_ix2 j⟩
  have hN : cfg2.N = 20 := N_2
  have ht : t.val < 20 := hN ▸ t.isLt
  have hp : p.val < 5000 := p.isLt
  obtain ⟨r, hr⟩ : ∃ r : Fin 100000, r.val = t.val * 5000 + p.val := ⟨⟨t.val * 5000 + p.val, by omega⟩, rfl⟩
  have e : (((cfg2.win 5).blk t).view.emb (ix2 p q) : S100000x128.Idx) = ix2 r q := by
    funext a; apply Fin.ext
    match a with
    | ⟨0, _⟩ => show win2_5.index t (0 : Fin 2) * 5000 + 1 * p.val = r.val; rw [(idx2 t).2.2.2.2.2.2.2.2.2.2.1, hr]; omega
    | ⟨1, _⟩ => show win2_5.index t (1 : Fin 2) * 128 + 1 * q.val = q.val; rw [(idx2 t).2.2.2.2.2.2.2.2.2.2.2]; omega
  show out2_5 (iblk2 V c 0 t) (iblk2 V c 1 t) (iblk2 V c 2 t) (iblk2 V c 3 t) (iblk2 V c 4 t) (ix2 p q)
    = normArr2 V c (((cfg2.win 5).blk t).view.emb (ix2 p q))
  rw [e]
  refine (out2_5_apply (iblk2 V c 0 t) (iblk2 V c 1 t) (iblk2 V c 2 t) (iblk2 V c 3 t) (iblk2 V c 4 t) p q).trans ?_
  show _ = norm2 (V c main_v43) (V c main_v46) (V c main_v53) (V c main_v41) (V c main_v42) r q
  unfold norm2
  rw [x_read2 V c t p q r hr, mean_read2 V c t q, rstd_read2 V c t q, scale_read2 V c t q, shift_read2 V c t q]

/-- An index of the result array is in point `t`'s block iff each coordinate is in the block's range on its axis. -/
theorem mem_blk2 (t : Fin cfg2.N) (i : S100000x128.Idx) :
    i ∈ ((cfg2.win 5).blk t).view.set
      ↔ ∀ a : Fin 2, win2_5.index t a * S5000x128.size a ≤ (i a).val ∧ (i a).val < win2_5.index t a * S5000x128.size a + S5000x128.size a := by
  show i ∈ ((View.whole main_v54).slice (win2_5.rect t)).set ↔ _
  rw [View.set_slice_whole, Rect.mem_set_unit]
  exact Iff.rfl

/-- Row `r` lies in the block of point `r / 5000`: the twenty blocks tile the array. -/
theorem cover2 (i : S100000x128.Idx) : ∃ t : Fin cfg2.N, (cfg2.win 5).flush t = true ∧ i ∈ ((cfg2.win 5).blk t).view.set := by
  have h0 : (i 0).val < 100000 := (i 0).isLt
  have h1 : (i 1).val < 128 := (i 1).isLt
  have hN : cfg2.N = 20 := N_2
  have hlt : (i 0).val / 5000 < cfg2.N := by rw [hN]; omega
  refine ⟨⟨(i 0).val / 5000, hlt⟩, flush2_5 _, ?_⟩
  rw [mem_blk2]
  have f0 : win2_5.index ⟨(i 0).val / 5000, hlt⟩ (0 : Fin 2) = (i 0).val / 5000 := (idx2 ⟨(i 0).val / 5000, hlt⟩).2.2.2.2.2.2.2.2.2.2.1
  have f1 : win2_5.index ⟨(i 0).val / 5000, hlt⟩ (1 : Fin 2) = 0 := (idx2 ⟨(i 0).val / 5000, hlt⟩).2.2.2.2.2.2.2.2.2.2.2
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [f0]; omega
  | ⟨1, _⟩ =>
    show win2_5.index ⟨(i 0).val / 5000, hlt⟩ (1 : Fin 2) * 128 ≤ (i 1).val ∧ (i 1).val < win2_5.index ⟨(i 0).val / 5000, hlt⟩ (1 : Fin 2) * 128 + 128
    rw [f1]; omega

/-- The result array after the region. -/
theorem final2 (c : Dev nD) : (dat2 V c).arrAt 5 cfg2.N = normArr2 V c :=
  (dat2 V c).arrAt_eq_of_cover 5 (normArr2 V c) (fun t _ => flushed2_eq V c t) cover2

/-- THE RESULT OF THE NORMALISATION EPILOGUE, entry by entry. -/
theorem value2 (c : Dev nD) (p : Fin 100000) (q : Fin 128) :
    (dat2 V c).arrAt 5 cfg2.N (ix2 p q) = norm2 (V c main_v43) (V c main_v46) (V c main_v53) (V c main_v41) (V c main_v42) p q := by
  rw [final2]
  rfl

/-- `norm2`, spelt out. -/
theorem norm2_eq (x : S100000x128.Idx → EReal) (mean rstd scale shift : S1x128.Idx → EReal) (r : Fin 100000) (q : Fin 128) :
    norm2 x mean rstd scale shift r q
      = max ((((x (ix2 r q) - mean (ix2 (0 : Fin 1) q)) * rstd (ix2 (0 : Fin 1) q)) * scale (ix2 (0 : Fin 1) q)) + shift (ix2 (0 : Fin 1) q)) 0 := rfl

end Cert.KernelIdeal.HandValue

end
-- ==== Proof.KI.StagesAt.lean ====
/-
  The small host stages read at an index, at the ideal instance: a vector as a one-row array, the column mean and the
  inverse standard deviation from the column sums; and the literal 0x47C35000 is the real number 100000.
-/
import proofs.«163546_j27127013442152_2_alg».proof.Proof.KI.Stages
import Idealize.ShloMosaic.Lib.ValueIdx
import Idealize.ShloMosaic.Lib.ValueLayout
import Idealize.ShloMosaic.PureOps.Ideal.Laws

noncomputable section

namespace Cert.KernelIdeal.HandValue

open Idealize.ShloMosaic Idealize.ShloMosaic.ValueIdx Cert.KernelIdeal

theorem asRow_at (v : FVec Ideal S128 .f32) (q : Fin 128) : asRow (F := Ideal) v (ix2 (0 : Fin 1) q) = v (ix1 q) :=
  shapeCast_a_1a_apply v _ 0 q

theorem meanOf_at (s : FVec Ideal S1x128 .f32) (i : S1x128.Idx) :
    meanOf (F := Ideal) s i = Ideal.div (s i) (Ideal.ofBits .f32 0x47C35000#32) := by
  simp only [meanOf, Host.divf, broadcastInDim, constant, Ideal.hostDivf_def, Ideal.ofBits_def]

theorem invStdOf_at (s s2 : FVec Ideal S1x128 .f32) (i : S1x128.Idx) :
    invStdOf (F := Ideal) s s2 i
      = Ideal.rsqrt ((Ideal.div (s2 i) (Ideal.ofBits .f32 0x47C35000#32)
          - Ideal.div (s i) (Ideal.ofBits .f32 0x47C35000#32) * Ideal.div (s i) (Ideal.ofBits .f32 0x47C35000#32))
        + Ideal.ofBits .f32 0x3727C5AC#32) := by
  simp only [invStdOf, meanOf, Host.rsqrt, Host.divf, addf, subf, mulf, broadcastInDim, constant, Ideal.hostUnary_rsqrt_def,
    Ideal.hostDivf_def, Ideal.addf_def, Ideal.subf_def, Ideal.mulf_def, Ideal.ofBits_def]

/-- The float literal 0x47C35000 is one hundred thousand. -/
theorem ofBits_1e5 : Ideal.ofBits .f32 0x47C35000#32 = ((100000 : ℝ) : EReal) := by
  simp [Ideal.ofBits, Ideal.ieee, -EReal.coe_mul]
  norm_num

end Cert.KernelIdeal.HandValue

end
-- ==== Proof.KI.Final.lean ====
/-
  The kernel program's result array in closed form, at the ideal instance: the chain of the three pallas calls' values
  through the named buffer contents at the boundaries of the run.
-/
import proofs.«163546_j27127013442152_2_alg».proof.Proof.KI.HostValues
import proofs.«163546_j27127013442152_2_alg».proof.Proof.KI.Value0
import proofs.«163546_j27127013442152_2_alg».proof.Proof.KI.Value1
import proofs.«163546_j27127013442152_2_alg».proof.Proof.KI.Value2
import proofs.«163546_j27127013442152_2_alg».proof.Proof.KI.StagesAt

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.GenP Cert.KernelIdeal.Hand

variable (m : (ℓ : Loc nD τ sig) → Buf (Elt Ideal) ℓ) (ρ : Dev nD → PrngReg) (c : Dev nD)

/-! ## The argument arrays the first call reads are the launch contents -/

theorem first_x : (Vr1 m ρ c main_arg0 : FVec Ideal S100000x64 .f32) = (m ((c : Thread nD τ).loc main_arg0)) := by
  show StableHlo.after hostOps0 (W0 m ρ c) (Proc.devRef .tc main_arg0) = _
  after_results_simp
theorem first_w : (Vr1 m ρ c main_arg2 : FVec Ideal S64x128 .f32) = (m ((c : Thread nD τ).loc main_arg2)) := by
  show StableHlo.after hostOps0 (W0 m ρ c) (Proc.devRef .tc main_arg2) = _
  after_results_simp
theorem first_sw : (Vr1 m ρ c main_arg4 : FVec Ideal S64x128 .f32) = (m ((c : Thread nD τ).loc main_arg4)) := by
  show StableHlo.after hostOps0 (W0 m ρ c) (Proc.devRef .tc main_arg4) = _
  after_results_simp

/-! ## The first call's output: the projected aggregate plus the skip product plus the bias -/

/-- The layer's value before normalisation, as the kernel computes it. -/
def preK (x : FVec Ideal S100000x64 .f32) (e : IVec S2x1600000 32) (w : FVec Ideal S64x128 .f32) (b : FVec Ideal S128 .f32)
    (sw : FVec Ideal S64x128 .f32) (p : Fin 100000) (q : Fin 128) : EReal :=
  proj0 (agg64 (F := Ideal) x e) x w sw (asRow (F := Ideal) b) p q

theorem pre_at (p : Fin 100000) (q : Fin 128) :
    @Eq EReal ((Vr2 m ρ c main_v43 : FVec Ideal S100000x128 .f32) (ix2 p q))
      (preK (m ((c : Thread nD τ).loc main_arg0)) (m ((c : Thread nD τ).loc main_arg1)) (m ((c : Thread nD τ).loc main_arg2)) (m ((c : Thread nD τ).loc main_arg3)) (m ((c : Thread nD τ).loc main_arg4)) p q) := by
  have h := value0 (Vr1 m ρ) c p q
  rw [first_agg, first_x, first_w, first_sw, first_bias] at h
  have e5 : (Vr2 m ρ c main_v43 : FVec Ideal S100000x128 .f32) = (dat0 (Vr1 m ρ) c).arrAt 5 cfg0.N := W2_arr m ρ c 5
  rw [e5]
  exact h

/-! ## What the last call reads -/

theorem last_pre : (Vr4 m ρ c main_v43 : FVec Ideal S100000x128 .f32) = Vr2 m ρ c main_v43 := by
  have h1 : (Vr4 m ρ c main_v43 : FVec Ideal S100000x128 .f32) = W3 m ρ c (Proc.devRef .tc main_v43) := by
    show StableHlo.after hostOps2 (W3 m ρ c) (Proc.devRef .tc main_v43) = _
    after_results
  exact h1.trans ((W3_arr m ρ c 0).trans (((dat1 (Vr2 m ρ) c).arrAt_in 0 rfl _).trans (A_eq1 (Vr2 m ρ) c 0)))

theorem last_scale : (Vr4 m ρ c main_v41 : FVec Ideal S1x128 .f32) = asRow (F := Ideal) (m ((c : Thread nD τ).loc main_arg5)) := by
  have h1 : (Vr4 m ρ c main_v41 : FVec Ideal S1x128 .f32) = W3 m ρ c (Proc.devRef .tc main_v41) := by
    show StableHlo.after hostOps2 (W3 m ρ c) (Proc.devRef .tc main_v41) = _
    after_results
  exact h1.trans ((W3_of_ne m ρ c main_v41 (by decide)).trans ((W2_of_ne m ρ c main_v41 (by decide)).trans (first_scale m ρ c)))

theorem last_shift : (Vr4 m ρ c main_v42 : FVec Ideal S1x128 .f32) = asRow (F := Ideal) (m ((c : Thread nD τ).loc main_arg6)) := by
  have h1 : (Vr4 m ρ c main_v42 : FVec Ideal S1x128 .f32) = W3 m ρ c (Proc.devRef .tc main_v42) := by
    show StableHlo.after hostOps2 (W3 m ρ c) (Proc.devRef .tc main_v42) = _
    after_results
  exact h1.trans ((W3_of_ne m ρ c main_v42 (by decide)).trans ((W2_of_ne m ρ c main_v42 (by decide)).trans (first_shift m ρ c)))

/-! ## The second call's outputs: the column sums of the first call's output and of its squares -/

theorem sum_at (q : Fin 128) :
    @Eq EReal ((W3 m ρ c (Proc.devRef .tc main_v44_0) : FVec Ideal S1x128 .f32) (ix2 (0 : Fin 1) q))
      (∑ p : Fin 100000, preK (m ((c : Thread nD τ).loc main_arg0)) (m ((c : Thread nD τ).loc main_arg1)) (m ((c : Thread nD τ).loc main_arg2)) (m ((c : Thread nD τ).loc main_arg3)) (m ((c : Thread nD τ).loc main_arg4)) p q) := by
  have e1 : (W3 m ρ c (Proc.devRef .tc main_v44_0) : FVec Ideal S1x128 .f32) = (dat1 (Vr2 m ρ) c).arrAt 1 cfg1.N := W3_arr m ρ c 1
  rw [e1, Stats.value1a (Vr2 m ρ) c q]
  exact Finset.sum_congr rfl fun p _ => pre_at m ρ c p q

theorem sumsq_at (q : Fin 128) :
    @Eq EReal ((W3 m ρ c (Proc.devRef .tc main_v44_1) : FVec Ideal S1x128 .f32) (ix2 (0 : Fin 1) q))
      (∑ p : Fin 100000, preK (m ((c : Thread nD τ).loc main_arg0)) (m ((c : Thread nD τ).loc main_arg1)) (m ((c : Thread nD τ).loc main_arg2)) (m ((c : Thread nD τ).loc main_arg3)) (m ((c : Thread nD τ).loc main_arg4)) p q * preK (m ((c : Thread nD τ).loc main_arg0)) (m ((c : Thread nD τ).loc main_arg1)) (m ((c : Thread nD τ).loc main_arg2)) (m ((c : Thread nD τ).loc main_arg3)) (m ((c : Thread nD τ).loc main_arg4)) p q) := by
  have e1 : (W3 m ρ c (Proc.devRef .tc main_v44_1) : FVec Ideal S1x128 .f32) = (dat1 (Vr2 m ρ) c).arrAt 2 cfg1.N := W3_arr m ρ c 2
  rw [e1, Stats.value1b (Vr2 m ρ) c q]
  exact Finset.sum_congr rfl fun p _ => by rw [show Stats.rowAt (Vr2 m ρ) c p q = _ from pre_at m ρ c p q]

/-! ## The result -/

/-- The kernel program's result at row `p`, column `q`, as a function of the seven arguments: with `o` the layer's value
    before normalisation, the deviation of `o p q` from the column mean Σo/100000, times the inverse square root of
    (Σo²/100000 − (Σo/100000)² + the literal 0x3727C5AC), times the scale, plus the shift, clamped below at zero. -/
def resultK (x : FVec Ideal S100000x64 .f32) (e : IVec S2x1600000 32) (w : FVec Ideal S64x128 .f32) (b : FVec Ideal S128 .f32)
    (sw : FVec Ideal S64x128 .f32) (g be : FVec Ideal S128 .f32) (p : Fin 100000) (q : Fin 128) : EReal :=
  max ((((preK x e w b sw p q - Ideal.div (∑ r : Fin 100000, preK x e w b sw r q) (Ideal.ofBits .f32 0x47C35000#32))
        * Ideal.rsqrt ((Ideal.div (∑ r : Fin 100000, preK x e w b sw r q * preK x e w b sw r q) (Ideal.ofBits .f32 0x47C35000#32)
            - Ideal.div (∑ r : Fin 100000, preK x e w b sw r q) (Ideal.ofBits .f32 0x47C35000#32)
              * Ideal.div (∑ r : Fin 100000, preK x e w b sw r q) (Ideal.ofBits .f32 0x47C35000#32))
          + Ideal.ofBits .f32 0x3727C5AC#32))
      * g (ix1 q)) + be (ix1 q)) 0

theorem result_at (p : Fin 100000) (q : Fin 128) :
    @Eq EReal ((W5 m ρ c (Proc.devRef .tc main_v54) : FVec Ideal S100000x128 .f32) (ix2 p q))
      (resultK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) p q) := by
  have e5 : (W5 m ρ c (Proc.devRef .tc main_v54) : FVec Ideal S100000x128 .f32) = (dat2 (Vr4 m ρ) c).arrAt 5 cfg2.N := W5_arr m ρ c 5
  rw [e5, value2 (Vr4 m ρ) c p q, norm2_eq, last_pre, last_scale, last_shift, second_mean, second_invstd,
    pre_at, asRow_at, asRow_at, meanOf_at, invStdOf_at, sum_at, sumsq_at]
  rfl

end Cert.KernelIdeal.HandValue

end
-- ==== Proof.LibRowGather.lean ====
/-
  A row gather read at an index.

  Indexing the rows of a table `x : [N, K]` by an integer array `idx : [E]` — what `x[idx]` is for a matrix `x` —
  is a gather with one collapsed axis (the rows), one offset axis (the columns), slices of one whole row, and the
  start indices carried as `[E, 1]`. Result entry `(e, k)` is the table's entry `(r, k)` where `r` is the start index
  `idx[e, 0]`, read as a signed integer and clamped into `[0, N - 1]`: a gather clamps every start index so that
  its slice stays inside the operand, so every result entry IS an entry of the table, whatever the indices are.

  Generic in the extents and in the element type; nothing mentions a program.
-/
import Idealize.ShloMosaic.Lib.ValueIdx

noncomputable section

namespace Cert.Lib.RowGather

open Idealize.ShloMosaic Idealize.ShloMosaic.ValueIdx

variable {α : Type}

/-- The dimension numbers of a row gather: operand `[N, K]`, start indices `[E, 1]`, result `[E, K]`; the rows
    collapsed, the columns the offset axis, one whole row per slice. Their conditions `wf` are decided on literal
    extents. -/
abbrev rowGatherDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The start-indices index `[e, 0]` that result row `e` reads. -/
abbrev rowIdx {E K : Nat} (y : (⟨2, ![E, K]⟩ : Shape).Idx) : (⟨2, ![E, 1]⟩ : Shape).Idx :=
  ix2 (⟨(y 0).val, idx2_lt0 y⟩ : Fin E) (⟨0, Nat.one_pos⟩ : Fin 1)

/-- THE ROW GATHER READ AT `(e, k)`: the table at row `idx[e, 0]` (read signed, clamped into `[0, N - 1]`) and
    column `k`. -/
theorem row_gather_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (y : (⟨2, ![E, K]⟩ : Shape).Idx) :
    Host.gather (rowGatherDims N E K wf) x idx y
      = x (ix2 (⟨min (idx (rowIdx y)).toInt.toNat (N - 1), by omega⟩ : Fin N) (⟨(y 1).val, idx2_lt1 y⟩ : Fin K)) := by
  unfold Host.gather
  congr 1
  funext a
  refine Fin.ext ?_
  show (rowGatherDims N E K wf).start y idx a + (rowGatherDims N E K wf).batchCoord y a
    + (rowGatherDims N E K wf).offCoord y a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    split
    · rename_i ha
      have hsi : (rowGatherDims N E K wf).siIdx y ⟨List.idxOf (⟨0, h0⟩ : Fin 2) (rowGatherDims N E K wf).startIndexMap,
          List.idxOf_lt_length_iff.2 ha⟩ = rowIdx y := by
        funext b; refine Fin.ext ?_
        match b with
        | ⟨0, _⟩ => rfl
        | ⟨1, _⟩ => rfl
      rw [hsi]
      rfl
    · rename_i ha
      exact absurd (List.mem_singleton.mpr rfl) ha
  | ⟨1, h1⟩ =>
    have hs : (rowGatherDims N E K wf).start y idx ⟨1, h1⟩ = 0 := by
      unfold GatherDims.start
      split
      · rename_i ha
        exact absurd (congrArg Fin.val (List.mem_singleton.mp ha) : (1 : ℕ) = 0) Nat.one_ne_zero
      · rfl
    have ho : (rowGatherDims N E K wf).offCoord y ⟨1, h1⟩ = (y 1).val := by
      unfold GatherDims.offCoord
      split
      · rfl
      · rename_i ha
        exact absurd ((GatherDims.mem_sKept _ _).mpr
          ⟨fun hm => absurd (congrArg Fin.val (List.mem_singleton.mp hm) : (1 : ℕ) = 0) Nat.one_ne_zero, List.not_mem_nil⟩) ha
    rw [hs, ho, Nat.zero_add]

/-! ## The accumulating row scatter read at an index

The adjoint operation: rows `upd : [E, K]` added into a table `x : [N, K]` at the rows an integer array
`idx : [E, 1]` names. Update entry `(e, k)` lands on table entry `(r, k)` with `r = idx[e, 0]` read as a signed
integer and NOT clamped: when `r` is outside `[0, N)` the update is dropped. On the extended reals the result at
`(n, k)` is therefore the table's entry plus the sum of `upd (e, k)` over the rows `e` whose index is `n`. -/

/-- The dimension numbers of a row scatter: operand `[N, K]`, scatter indices `[E, 1]`, updates `[E, K]`; the
    columns the window axis, the rows inserted. -/
abbrev rowScatterDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

section RowScatter

variable {N E K w : Nat} (wf : ScatterDims.WF ⟨2, ![N, K]⟩ ⟨2, ![E, 1]⟩ ⟨2, ![E, K]⟩ [1] [0] [0] 1)
  (idx : IVec ⟨2, ![E, 1]⟩ w) (j : (⟨2, ![E, K]⟩ : Shape).Idx)

/-- On the row axis the window starts at the update row's index, read signed. -/
theorem rowScatter_start0 : (rowScatterDims N E K wf).start j idx (0 : Fin 2) = (idx (rowIdx j)).toInt := by
  unfold ScatterDims.start
  split
  · rename_i ha
    have hsi : (rowScatterDims N E K wf).siIdx j ⟨List.idxOf (0 : Fin 2) (rowScatterDims N E K wf).scatterDimsToOperandDims,
        List.idxOf_lt_length_iff.2 ha⟩ = rowIdx j := by
      funext b; refine Fin.ext ?_
      match b with
      | ⟨0, _⟩ => rfl
      | ⟨1, _⟩ => rfl
    rw [hsi]
  · rename_i ha
    exact absurd (List.mem_singleton.mpr rfl) ha

/-- On the column axis the window starts at zero. -/
theorem rowScatter_start1 : (rowScatterDims N E K wf).start j idx (1 : Fin 2) = 0 := by
  unfold ScatterDims.start
  split
  · rename_i ha
    exact absurd (congrArg Fin.val (List.mem_singleton.mp ha) : (1 : ℕ) = 0) Nat.one_ne_zero
  · rfl

/-- The row axis is inserted: no window coordinate. -/
theorem rowScatter_window0 : (rowScatterDims N E K wf).window j (0 : Fin 2) = 0 := by
  unfold ScatterDims.window
  split
  · rename_i ha
    have : (0 : Fin 2) ∉ (rowScatterDims N E K wf).insertedWindowDims := by
      simpa [ScatterDims.sKept, Shape.kept, List.mem_filter] using ha
    exact absurd (List.mem_singleton.mpr rfl) this
  · rfl

/-- The column axis is the window: the update's column. -/
theorem rowScatter_window1 : (rowScatterDims N E K wf).window j (1 : Fin 2) = (j 1).val := by
  unfold ScatterDims.window
  split
  · rfl
  · rename_i ha
    refine absurd ?_ ha
    simp [ScatterDims.sKept, Shape.kept, List.mem_filter, List.mem_finRange]

/-- WHERE AN UPDATE LANDS: update entry `j = (e, k)` lands on table entry `i = (n, k')` exactly when its row's index,
    read signed, is `n` and `k = k'`; an index outside `[0, N)` lands nowhere. -/
theorem rowScatter_resultIdx?_eq_some_iff (i : (⟨2, ![N, K]⟩ : Shape).Idx) :
    (rowScatterDims N E K wf).resultIdx? j idx = some i
      ↔ (idx (rowIdx j)).toInt = ((i 0).val : ℤ) ∧ (j 1).val = (i 1).val := by
  have hi0 : (i 0).val < N := idx2_lt0 i
  have hj1 : (j 1).val < K := idx2_lt1 j
  unfold ScatterDims.resultIdx?
  split
  · rename_i h
    have h0 := h 0
    rw [rowScatter_start0, rowScatter_window0] at h0
    constructor
    · intro he
      have he' := congrFun (Option.some.inj he)
      have e0 := congrArg Fin.val (he' 0)
      have e1 := congrArg Fin.val (he' 1)
      simp only [rowScatter_start0, rowScatter_window0, rowScatter_start1, rowScatter_window1] at e0 e1
      refine ⟨by omega, by omega⟩
    · rintro ⟨e0, e1⟩
      refine congrArg some (funext fun a => Fin.ext ?_)
      match a with
      | ⟨0, _⟩ =>
        show ((rowScatterDims N E K wf).start j idx (0 : Fin 2) + ((rowScatterDims N E K wf).window j (0 : Fin 2) : ℤ)).toNat = (i 0).val
        rw [rowScatter_start0, rowScatter_window0, e0]; simp
      | ⟨1, _⟩ =>
        show ((rowScatterDims N E K wf).start j idx (1 : Fin 2) + ((rowScatterDims N E K wf).window j (1 : Fin 2) : ℤ)).toNat = (i 1).val
        rw [rowScatter_start1, rowScatter_window1, ← e1]; simp
  · rename_i h
    constructor
    · intro he; exact absurd he (by simp)
    · rintro ⟨e0, e1⟩
      refine absurd (fun a => ?_) h
      match a with
      | ⟨0, _⟩ =>
        show 0 ≤ (rowScatterDims N E K wf).start j idx (0 : Fin 2) + ((rowScatterDims N E K wf).window j (0 : Fin 2) : ℤ)
          ∧ (rowScatterDims N E K wf).start j idx (0 : Fin 2) + ((rowScatterDims N E K wf).window j (0 : Fin 2) : ℤ) < (N : ℤ)
        rw [rowScatter_start0, rowScatter_window0, e0]
        constructor <;> omega
      | ⟨1, _⟩ =>
        show 0 ≤ (rowScatterDims N E K wf).start j idx (1 : Fin 2) + ((rowScatterDims N E K wf).window j (1 : Fin 2) : ℤ)
          ∧ (rowScatterDims N E K wf).start j idx (1 : Fin 2) + ((rowScatterDims N E K wf).window j (1 : Fin 2) : ℤ) < (K : ℤ)
        rw [rowScatter_start1, rowScatter_window1]
        constructor <;> omega

/-- The start-indices index of an update entry depends on its row only. -/
theorem rowIdx_ix2 (e : Fin E) (k : Fin K) : rowIdx (ix2 e k) = ix2 e (⟨0, Nat.one_pos⟩ : Fin 1) := rfl

/-- THE ACCUMULATING ROW SCATTER READ AT `(n, k)`, on the extended reals: the table's entry plus the sum, over the
    update rows `e` whose index (read signed) is `n`, of the update's entry `(e, k)`. Rows whose index is outside
    `[0, N)` contribute nowhere. -/
theorem rowScatterAdd_apply (x : (⟨2, ![N, K]⟩ : Shape).Idx → EReal) (upd : (⟨2, ![E, K]⟩ : Shape).Idx → EReal)
    (i : (⟨2, ![N, K]⟩ : Shape).Idx) :
    Ideal.hostScatterAdd (rowScatterDims N E K wf) x idx upd i
      = x i + ∑ e : Fin E, if (idx (ix2 e (⟨0, Nat.one_pos⟩ : Fin 1))).toInt = ((i 0).val : ℤ)
          then upd (ix2 e (⟨(i 1).val, idx2_lt1 i⟩ : Fin K)) else 0 := by
  unfold Ideal.hostScatterAdd
  congr 1
  rw [Finset.sum_filter, sum_idx2]
  refine Finset.sum_congr rfl fun e _ => ?_
  simp only [rowScatter_resultIdx?_eq_some_iff, rowIdx_ix2]
  by_cases hv : (idx (ix2 e (⟨0, Nat.one_pos⟩ : Fin 1))).toInt = ((i 0).val : ℤ)
  · rw [if_pos hv, Finset.sum_eq_single (⟨(i 1).val, idx2_lt1 i⟩ : Fin K)]
    · exact if_pos ⟨hv, rfl⟩
    · intro k _ hk
      exact if_neg fun h => hk (Fin.ext h.2)
    · intro h; exact absurd (Finset.mem_univ _) h
  · rw [if_neg hv]
    exact Finset.sum_eq_zero fun k _ => if_neg fun h => hv h.1

end RowScatter

end Cert.Lib.RowGather

end
-- ==== Proof.KI.ReadAgg.lean ====
/-
  The kernel's 64-wide edge stages read at an entry, at the exact extended reals. Entry (j, k) of an edge's message is
  entry k of the row of x the edge reads (its source index, read signed and clamped into the table) times the edge's
  weight. Entry (p, k) of the aggregation is the sum of the messages' entries k over the edges whose target index is p:
  the scatter starts from zero, and zero is neutral for addition. The edge stages `nrm`, `gidx`, `sidx` stay closed.
-/
import proofs.«163546_j27127013442152_2_alg».proof.Proof.KI.Stages
import proofs.«163546_j27127013442152_2_alg».proof.Proof.LibRowGather
import Idealize.ShloMosaic.Lib.Pipeline.Value
import Idealize.ShloMosaic.Lib.IdealHost
import Idealize.ShloMosaic.Lib.ValueIdx
import Idealize.ShloMosaic.PureOps.Ideal.Laws

noncomputable section

namespace Cert.KernelIdeal.HandValue

open Cert.KernelIdeal Cert.KernelIdeal.Gen Idealize.ShloMosaic Idealize.ShloMosaic.ValueIdx
open scoped BigOperators

/-- A 32-bit index read signed and clamped into the rows 0 … 99999 of a 100000-row table. -/
def clampRow (v : BitVec 32) : Fin 100000 := ⟨min v.toInt.toNat 99999, by omega⟩

/-- The 64-wide row gather at (j, k): the table's row at edge j's index, clamped, column k. -/
theorem gather_rows64_apply (t : FVec Ideal S100000x64 .f32) (idx : IVec S1700000x1 32) (j : Fin 1700000) (k : Fin 64) :
    Host.gather gather_S100000x64_S1700000x1_S1700000x64_1_0_n_n_0_1_164 t idx (ix2 j k)
      = t (ix2 (clampRow (idx (ix2 j (0 : Fin 1)))) k) :=
  Cert.Lib.RowGather.row_gather_apply (N := 100000) (E := 1700000) (K := 64) (by decide)
    gather_S100000x64_S1700000x1_S1700000x64_1_0_n_n_0_1_164_wf t idx (ix2 j k)

/-- An edge vector laid out as a column and repeated over 64 columns reads, at (j, k), the vector's entry j. -/
theorem edge_column64_apply (v : FVec Ideal S1700000 .f32) (j : Fin 1700000) (k : Fin 64) :
    broadcastInDim S1700000x64 ![0, 1] bcast_S1700000x1_S1700000x64_0_1
      (broadcastInDim S1700000x1 ![0] bcast_S1700000_S1700000x1_0 v) (ix2 j k) = v (ix1 j) := by
  refine (broadcastInDim_apply _ _ _ (ix2 j k) (ix2 j (0 : Fin 1)) fun a => ?_).trans
    (broadcastInDim_apply _ _ v (ix2 j (0 : Fin 1)) (ix1 j) fun a => ?_)
  · match a with
    | ⟨0, _⟩ => rfl
    | ⟨1, _⟩ => rfl
  · match a with
    | ⟨0, _⟩ => rfl

/-- An edge's 64-wide message at column k: entry k of the row of x it reads, times its weight. -/
theorem msg64_apply (x : FVec Ideal S100000x64 .f32) (e : IVec S2x1600000 32) (j : Fin 1700000) (k : Fin 64) :
    msg64 (F := Ideal) x e (ix2 j k)
      = x (ix2 (clampRow (gidx e (ix2 j (0 : Fin 1)))) k) * nrm (F := Ideal) e (ix1 j) := by
  unfold msg64
  refine (mulf_apply _ _ (ix2 j k)).trans ?_
  exact congrArg₂ (· * ·) (gather_rows64_apply x (gidx e) j k) (edge_column64_apply (nrm (F := Ideal) e) j k)

/-- The aggregation stage is the accumulating row scatter of the messages into the zero table. -/
theorem agg64_def (x : FVec Ideal S100000x64 .f32) (e : IVec S2x1600000 32) :
    agg64 (F := Ideal) x e
      = Host.scatterAdd scatter_S100000x64_S1700000x1_S1700000x64_1_0_0_1
          (broadcastInDim S100000x64 ![] bcast_S_S100000x64 (constant (F := Ideal) S_ .f32 0x00000000#32)) (sidx e) (msg64 (F := Ideal) x e) := rfl

/-- At the exact extended reals the host's accumulating scatter is the sum it denotes. -/
theorem hostScatterAdd_ideal {s si u : Shape} {w : Nat} (d : ScatterDims s si u) (t : FVec Ideal s .f32) (idx : IVec si w)
    (upd : FVec Ideal u .f32) : Host.scatterAdd d t idx upd = Ideal.hostScatterAdd d t idx upd := rfl

/-- The kernel's 64-wide scatter is a row scatter: columns the window axis, rows inserted. -/
theorem scatter64_eq : scatter_S100000x64_S1700000x1_S1700000x64_1_0_0_1
    = Cert.Lib.RowGather.rowScatterDims 100000 1700000 64 scatter_S100000x64_S1700000x1_S1700000x64_1_0_0_1_wf := rfl

/-- So the aggregation at an entry is the row scatter's sum at that entry. -/
theorem agg64_scatter (x : FVec Ideal S100000x64 .f32) (e : IVec S2x1600000 32) (p : Fin 100000) (k : Fin 64) :
    agg64 (F := Ideal) x e (ix2 p k)
      = Ideal.hostScatterAdd (Cert.Lib.RowGather.rowScatterDims 100000 1700000 64 scatter_S100000x64_S1700000x1_S1700000x64_1_0_0_1_wf)
          (broadcastInDim S100000x64 ![] bcast_S_S100000x64 (constant (F := Ideal) S_ .f32 0x00000000#32)) (sidx e) (msg64 (F := Ideal) x e) (ix2 p k) :=
  congrFun ((agg64_def x e).trans
    ((hostScatterAdd_ideal scatter_S100000x64_S1700000x1_S1700000x64_1_0_0_1 (broadcastInDim S100000x64 ![] bcast_S_S100000x64 (constant (F := Ideal) S_ .f32 0x00000000#32)) (sidx e) (msg64 (F := Ideal) x e)).trans
      (congrArg (fun d => Ideal.hostScatterAdd d (broadcastInDim S100000x64 ![] bcast_S_S100000x64 (constant (F := Ideal) S_ .f32 0x00000000#32)) (sidx e) (msg64 (F := Ideal) x e)) scatter64_eq))) (ix2 p k)

/-- The 64-wide aggregation at (p, k): the messages' entries k summed over the edges whose target index is p. -/
theorem agg64_apply (x : FVec Ideal S100000x64 .f32) (e : IVec S2x1600000 32) (p : Fin 100000) (k : Fin 64) :
    agg64 (F := Ideal) x e (ix2 p k)
      = ∑ j : Fin 1700000, if (sidx e (ix2 j (0 : Fin 1))).toInt = (p.val : ℤ)
          then x (ix2 (clampRow (gidx e (ix2 j (0 : Fin 1)))) k) * nrm (F := Ideal) e (ix1 j) else 0 := by
  refine (agg64_scatter x e p k).trans ?_
  refine (Cert.Lib.RowGather.rowScatterAdd_apply (N := 100000) (E := 1700000) (K := 64) scatter_S100000x64_S1700000x1_S1700000x64_1_0_0_1_wf (sidx e)
    (broadcastInDim S100000x64 ![] bcast_S_S100000x64 (constant (F := Ideal) S_ .f32 0x00000000#32)) (msg64 (F := Ideal) x e) (ix2 p k)).trans ?_
  have h0 : (broadcastInDim S100000x64 ![] bcast_S_S100000x64 (constant (F := Ideal) S_ .f32 0x00000000#32)) (ix2 p k) = 0 :=
    (broadcastInDim_scalar_apply _ _ _).trans Ideal.ofBits_zero_f32
  rw [h0, zero_add]
  refine Finset.sum_congr rfl fun j _ => ?_
  show (if (sidx e (ix2 j (0 : Fin 1))).toInt = (p.val : ℤ) then msg64 (F := Ideal) x e (ix2 j k) else 0) = _
  rw [msg64_apply x e j k]

end Cert.KernelIdeal.HandValue

end
-- ==== Proof.R.ReadRows.lean ====
/-
  Small layout reads shared by the layer and the normalisation: a one-row array repeated down 100000 rows, a
  128-vector laid out as one row, a 128-vector repeated down the rows, the all-zero table, a pointwise inverse
  square root — each read at an entry, at the ideal instance.
-/
import proofs.«163546_j27127013442152_2_alg».proof.Proof.R.Stages
import Idealize.ShloMosaic.Lib.Pipeline.Value
import Idealize.ShloMosaic.Lib.ValueIdx
import Idealize.ShloMosaic.Lib.IdealHost

noncomputable section

namespace Cert.ReferenceIdeal.Hand

open Cert.ReferenceIdeal Cert.ReferenceIdeal.Gen Idealize.ShloMosaic Idealize.ShloMosaic.ValueIdx

/-- A one-row array repeated down the rows reads, at (p, q), the row's entry q. -/
theorem onerow_apply (r : FVec Ideal S1x128 .f32) (p : Fin 100000) (q : Fin 128) :
    broadcastInDim S100000x128 ![0, 1] bcast_S1x128_S100000x128_0_1 r (ix2 p q) = r (ix2 (0 : Fin 1) q) :=
  broadcastInDim_apply _ _ r (ix2 p q) (ix2 (0 : Fin 1) q) fun a => by
    match a with
    | ⟨0, _⟩ => rfl
    | ⟨1, _⟩ => rfl

/-- A 128-vector laid out as one row reads, at (0, q), the vector's entry q. -/
theorem asrow_apply (v : FVec Ideal S128 .f32) (q : Fin 128) :
    broadcastInDim S1x128 ![1] bcast_S128_S1x128_1 v (ix2 (0 : Fin 1) q) = v (ix1 q) :=
  broadcastInDim_apply _ _ v (ix2 (0 : Fin 1) q) (ix1 q) fun a => by
    match a with
    | ⟨0, _⟩ => rfl

/-- A 128-vector repeated down the rows reads, at (p, q), the vector's entry q. -/
theorem rows_apply (v : FVec Ideal S128 .f32) (p : Fin 100000) (q : Fin 128) : rows v (ix2 p q) = v (ix1 q) := by
  unfold rows
  rw [onerow_apply, asrow_apply]

/-- The all-zero table reads zero everywhere. -/
theorem zeros_apply (i : S100000x128.Idx) :
    broadcastInDim S100000x128 ![] bcast_S_S100000x128 (constant (F := Ideal) S_ .f32 0x00000000#32) i = 0 := by
  rw [broadcastInDim_scalar_apply, constant_apply, Ideal.ofBits_zero_f32]

/-- The host's pointwise inverse square root at an entry. -/
theorem hostRsqrt_apply {s : Shape} (a : FVec Ideal s .f32) (i : s.Idx) : Host.rsqrt a i = Ideal.rsqrt (a i) := rfl

end Cert.ReferenceIdeal.Hand

end
-- ==== Proof.R.ReadLayer.lean ====
/-
  The layer before normalisation, read at an entry, at the ideal instance. Entry (p, q) of `pre x e w b sw` is
  the sum, over the edges j whose target index is p, of the weight of edge j times entry q of the row of x·W the
  edge reads (its source index, read signed and clamped into the table), plus entry q of the bias, plus entry
  (p, q) of the skip product x·W'. The edge stages `nrm`, `gidx`, `sidx` stay closed.
-/
import proofs.«163546_j27127013442152_2_alg».proof.Proof.R.ReadRows
import proofs.«163546_j27127013442152_2_alg».proof.Proof.LibRowGather
import proofs.«163546_j27127013442152_2_alg».proof.Proof.LibDotPlain
import Idealize.ShloMosaic.Lib.IdealHost

noncomputable section

namespace Cert.ReferenceIdeal.Hand

open Cert.ReferenceIdeal Cert.ReferenceIdeal.Gen Idealize.ShloMosaic Idealize.ShloMosaic.ValueIdx

/-- A 32-bit index read signed and clamped into the rows 0 … 99999 of a 100000-row table. -/
def clampRow (v : BitVec 32) : Fin 100000 := ⟨min v.toInt.toNat 99999, by omega⟩

/-- The matrix product at (p, q): row p of the left operand against column q of the right one. -/
theorem prod_apply (x : FVec Ideal S100000x64 .f32) (w : FVec Ideal S64x128 .f32) (p : Fin 100000) (q : Fin 128) :
    prod x w (ix2 p q) = ∑ k : Fin 64, x (ix2 p k) * w (ix2 k q) :=
  Cert.LibDotPlain.hostDot_apply _ ⟨rfl, rfl, rfl, rfl, rfl, rfl⟩ none x w p q

/-- The row gather at (j, q): the table's row at edge j's index, clamped, column q. -/
theorem gather_rows_apply (t : FVec Ideal S100000x128 .f32) (idx : IVec S1700000x1 32) (j : Fin 1700000) (q : Fin 128) :
    Host.gather gather_S100000x128_S1700000x1_S1700000x128_1_0_n_n_0_1_1128 t idx (ix2 j q)
      = t (ix2 (clampRow (idx (ix2 j (0 : Fin 1)))) q) :=
  Cert.Lib.RowGather.row_gather_apply (N := 100000) (E := 1700000) (K := 128) (by decide)
    gather_S100000x128_S1700000x1_S1700000x128_1_0_n_n_0_1_1128_wf t idx (ix2 j q)

/-- An edge vector laid out as a column and repeated over 128 columns reads, at (j, q), the vector's entry j. -/
theorem edge_column_apply (v : FVec Ideal S1700000 .f32) (j : Fin 1700000) (q : Fin 128) :
    broadcastInDim S1700000x128 ![0, 1] bcast_S1700000x1_S1700000x128_0_1
      (broadcastInDim S1700000x1 ![0] bcast_S1700000_S1700000x1_0 v) (ix2 j q) = v (ix1 j) := by
  refine (broadcastInDim_apply _ _ _ (ix2 j q) (ix2 j (0 : Fin 1)) fun a => ?_).trans
    (broadcastInDim_apply _ _ v (ix2 j (0 : Fin 1)) (ix1 j) fun a => ?_)
  · match a with
    | ⟨0, _⟩ => rfl
    | ⟨1, _⟩ => rfl
  · match a with
    | ⟨0, _⟩ => rfl

/-- An edge's message at column q: entry q of the row of x·W it reads, times its weight. -/
theorem msg_apply (x : FVec Ideal S100000x64 .f32) (e : IVec S2x1600000 32) (w : FVec Ideal S64x128 .f32)
    (j : Fin 1700000) (q : Fin 128) :
    msg x e w (ix2 j q)
      = (∑ k : Fin 64, x (ix2 (clampRow (gidx e (ix2 j (0 : Fin 1)))) k) * w (ix2 k q)) * nrm (F := Ideal) e (ix1 j) := by
  unfold msg
  rw [mulf_apply, gather_rows_apply, edge_column_apply, prod_apply]

/-- The aggregation is the accumulating row scatter of the messages into the zero table. -/
theorem agg_eq (x : FVec Ideal S100000x64 .f32) (e : IVec S2x1600000 32) (w : FVec Ideal S64x128 .f32) :
    agg x e w
      = Ideal.hostScatterAdd (Cert.Lib.RowGather.rowScatterDims 100000 1700000 128 scatter_S100000x128_S1700000x1_S1700000x128_1_0_0_1_wf)
          (broadcastInDim S100000x128 ![] bcast_S_S100000x128 (constant (F := Ideal) S_ .f32 0x00000000#32)) (sidx e) (msg x e w) := by
  unfold agg Host.scatterAdd
  rw [Ideal.hostScatterAdd_def]
  rfl

/-- The aggregation at (p, q): the messages' entries q summed over the edges whose target index is p. -/
theorem agg_apply (x : FVec Ideal S100000x64 .f32) (e : IVec S2x1600000 32) (w : FVec Ideal S64x128 .f32)
    (p : Fin 100000) (q : Fin 128) :
    agg x e w (ix2 p q)
      = ∑ j : Fin 1700000, if (sidx e (ix2 j (0 : Fin 1))).toInt = (p.val : ℤ) then msg x e w (ix2 j q) else 0 := by
  rw [agg_eq, Cert.Lib.RowGather.rowScatterAdd_apply, zeros_apply, zero_add]
  exact Finset.sum_congr rfl fun j _ => rfl

/-- Entry (p, q) of the layer before normalisation, spelt out: the weighted rows of x·W summed over the edges into
    p, plus the bias, plus the skip product. -/
def layer (x : FVec Ideal S100000x64 .f32) (e : IVec S2x1600000 32) (w : FVec Ideal S64x128 .f32)
    (b : FVec Ideal S128 .f32) (sw : FVec Ideal S64x128 .f32) (p : Fin 100000) (q : Fin 128) : EReal :=
  ((∑ j : Fin 1700000, if (sidx e (ix2 j (0 : Fin 1))).toInt = (p.val : ℤ)
        then (∑ k : Fin 64, x (ix2 (clampRow (gidx e (ix2 j (0 : Fin 1)))) k) * w (ix2 k q)) * nrm (F := Ideal) e (ix1 j)
        else 0)
      + b (ix1 q))
    + ∑ k : Fin 64, x (ix2 p k) * sw (ix2 k q)

/-- THE LAYER BEFORE NORMALISATION AT (p, q). -/
theorem pre_apply (x : FVec Ideal S100000x64 .f32) (e : IVec S2x1600000 32) (w : FVec Ideal S64x128 .f32)
    (b : FVec Ideal S128 .f32) (sw : FVec Ideal S64x128 .f32) (p : Fin 100000) (q : Fin 128) :
    pre x e w b sw (ix2 p q) = layer x e w b sw p q := by
  unfold pre layer
  rw [addf_apply, addf_apply, agg_apply, rows_apply, prod_apply]
  simp only [msg_apply]

end Cert.ReferenceIdeal.Hand

end
-- ==== Proof.R.ReadNorm.lean ====
/-
  The normalisation read at an entry, at the ideal instance. For a [100000, 128] array y: the column sum at q is the
  sum of the column's entries; the column mean is that sum over 100000; the divisor of the variance, 100000 less the
  integer correction 0, is 100000, which is positive, so the guard keeps the quotient: the column variance is the sum
  of the squared deviations from the mean over 100000; and the normalised entry (p, q) is the deviation from the mean
  times the inverse square root of variance plus the literal 0x3727C5AC, times the scale, plus the shift, clamped
  below at zero.
-/
import proofs.«163546_j27127013442152_2_alg».proof.Proof.R.ReadRows
import Idealize.ShloMosaic.Lib.IdealHost
import Idealize.ShloMosaic.PureOps.Ideal.Laws

noncomputable section

namespace Cert.ReferenceIdeal.Hand

open Cert.ReferenceIdeal Cert.ReferenceIdeal.Gen Idealize.ShloMosaic Idealize.ShloMosaic.ValueIdx

/-- The f32 pattern 0x47C35000 is the real 100000: exponent field 143, significand 2^23 + 4411392 = 12800000,
    and 12800000 · 2^(143 - 127 - 23) = 12800000 / 128. -/
theorem ofBits_1e5 : Ideal.ofBits .f32 0x47C35000#32 = ((100000 : ℝ) : EReal) := by
  simp [Ideal.ofBits, Ideal.ieee, -EReal.coe_mul]; norm_num

/-- The mean of column q of a table given by its entries: the column's sum over 100000. -/
def mu (o : Fin 100000 → Fin 128 → EReal) (q : Fin 128) : EReal :=
  Ideal.div (∑ p : Fin 100000, o p q) ((100000 : ℝ) : EReal)

/-- The variance of column q of such a table: the squared deviations from the column's mean, summed, over 100000. -/
def sigma2 (o : Fin 100000 → Fin 128 → EReal) (q : Fin 128) : EReal :=
  Ideal.div (∑ p : Fin 100000, (o p q - mu o q) * (o p q - mu o q)) ((100000 : ℝ) : EReal)

/-- The column sum at q: the sum of column q's entries (the initial value is zero). -/
theorem colsum_apply (y : FVec Ideal S100000x128 .f32) (q : Fin 128) :
    colsum y (ix1 q) = ∑ p : Fin 100000, y (ix2 p q) := by
  unfold colsum
  rw [hostReduceAdd_apply, constant_apply, Ideal.ofBits_zero_f32]
  refine (Ideal.hostReduceAdd_single reducesTo_S100000x128_S128_d0 (by decide) y 0 (ix1 q)).trans ?_
  rw [zero_add]
  refine Finset.sum_congr rfl fun k _ => congrArg y (funext fun d => Fin.ext ?_)
  match d with
  | ⟨0, _⟩ => rfl
  | ⟨1, _⟩ => rfl

/-- The column mean at q. -/
theorem mean_apply (y : FVec Ideal S100000x128 .f32) (q : Fin 128) :
    mean y (ix1 q) = mu (fun p q => y (ix2 p q)) q := by
  unfold mean mu
  rw [hostDivf_apply, colsum_apply, broadcastInDim_scalar_apply, constant_apply, ofBits_1e5]

/-- The integer 0 converts to the real 0. -/
theorem sitofp_zero : FloatOps.sitofp (F := Ideal) .f32 (0#32 : BitVec 32) = 0 := by
  show (((0#32 : BitVec 32).toInt : ℝ) : EReal) = 0
  simp

/-- The variance's divisor is 100000. -/
theorem cnt_apply (i : S_.Idx) : cnt (F := Ideal) i = ((100000 : ℝ) : EReal) := by
  unfold cnt
  rw [subf_apply, constant_apply, sitofp_apply, ofBits_1e5]
  show ((100000 : ℝ) : EReal) - FloatOps.sitofp (F := Ideal) .f32 (0#32 : BitVec 32) = _
  rw [sitofp_zero, sub_zero]

/-- 100000 is greater than zero: the guard's comparison answers true. -/
theorem guard_true : FloatOps.cmpf (F := Ideal) (φ := .f32) .ogt ((100000 : ℝ) : EReal) 0 = 1 := by
  show Ideal.cmp .ogt ((100000 : ℝ) : EReal) 0 = 1
  have h : (0 : EReal) < ((100000 : ℝ) : EReal) := by exact_mod_cast (by norm_num : (0 : ℝ) < 100000)
  simp [Ideal.cmp, h]

/-- A select on a true flag takes its first branch. -/
theorem select_one {α : Type} (a b : α) : Scalar.select (1 : BitVec 1) a b = a := rfl

/-- The squared deviation at (p, q), from the mean of column q. -/
theorem sqdev_apply (y : FVec Ideal S100000x128 .f32) (p : Fin 100000) (q : Fin 128) :
    sqdev y (ix2 p q)
      = (y (ix2 p q) - mu (fun p q => y (ix2 p q)) q) * (y (ix2 p q) - mu (fun p q => y (ix2 p q)) q) := by
  unfold sqdev mu
  rw [mulf_apply, subf_apply, onerow_apply, hostDivf_apply, asrow_apply, colsum_apply, broadcastInDim_scalar_apply,
    constant_apply, ofBits_1e5]

/-- The column variance at q: the guard is true, so it is the quotient. -/
theorem var_apply (y : FVec Ideal S100000x128 .f32) (q : Fin 128) :
    var y (ix1 q) = sigma2 (fun p q => y (ix2 p q)) q := by
  unfold var sigma2
  rw [select_apply, broadcastInDim_scalar_apply, cmpf_apply, cnt_apply, constant_apply, Ideal.ofBits_zero_f32,
    guard_true, select_one, hostDivf_apply, broadcastInDim_scalar_apply, cnt_apply, colsum_apply]
  simp only [sqdev_apply]

/-- THE NORMALISED ENTRY (p, q). -/
theorem norm_apply (y : FVec Ideal S100000x128 .f32) (g be : FVec Ideal S128 .f32) (p : Fin 100000) (q : Fin 128) :
    norm y g be (ix2 p q)
      = max ((((y (ix2 p q) - mean y (ix1 q)) * Ideal.rsqrt (var y (ix1 q) + Ideal.ofBits .f32 0x3727C5AC#32))
          * g (ix1 q)) + be (ix1 q)) 0 := by
  unfold norm
  rw [maximumf_apply, addf_apply, mulf_apply, mulf_apply, subf_apply, rows_apply, rows_apply, rows_apply, rows_apply,
    zeros_apply, hostRsqrt_apply, addf_apply, broadcastInDim_scalar_apply, constant_apply]

end Cert.ReferenceIdeal.Hand

end
-- ==== Proof.R.Read.lean ====
/-
  The reference's result read at an entry, at the ideal instance: entry (p, q) of `out` is the layer's entry
  `layer … p q` less the mean of its column, times the inverse square root of the column's variance plus the
  literal 0x3727C5AC, times entry q of the scale, plus entry q of the shift, clamped below at zero — the mean and the
  variance those of the layer's column q over its 100000 rows.
-/
import proofs.«163546_j27127013442152_2_alg».proof.Proof.R.ReadLayer
import proofs.«163546_j27127013442152_2_alg».proof.Proof.R.ReadNorm

noncomputable section

namespace Cert.ReferenceIdeal.Hand

open Cert.ReferenceIdeal Cert.ReferenceIdeal.Gen Idealize.ShloMosaic Idealize.ShloMosaic.ValueIdx

/-- THE REFERENCE'S RESULT AT (p, q). -/
theorem out_apply (x : FVec Ideal S100000x64 .f32) (e : IVec S2x1600000 32) (w : FVec Ideal S64x128 .f32)
    (b : FVec Ideal S128 .f32) (sw : FVec Ideal S64x128 .f32) (g be : FVec Ideal S128 .f32) (p : Fin 100000) (q : Fin 128) :
    out x e w b sw g be (ix2 p q)
      = max ((((layer x e w b sw p q - mu (layer x e w b sw) q)
            * Ideal.rsqrt (sigma2 (layer x e w b sw) q + Ideal.ofBits .f32 0x3727C5AC#32))
          * g (ix1 q)) + be (ix1 q)) 0 := by
  unfold out outF
  rw [norm_apply, mean_apply, var_apply]
  simp only [pre_apply]

end Cert.ReferenceIdeal.Hand

end
-- ==== Proof.LibReal.lean ====
/-
  Real-valued extended reals.

  On the extended reals the laws that a rearrangement of a computation needs — distributivity, cancelling, moving a
  factor across a sum — fail at the infinities. A computation whose inputs are finite never leaves the reals as long as
  it adds, subtracts, multiplies, takes maxima and finite sums, divides by a nonzero real, takes the reciprocal square
  root of a positive real, exponentials and logistic values. This file is that closure, stated with the predicate
  `IsReal x` ("x is the coercion of a real number"), together with the sign facts a later division needs (a logistic
  value is positive; a sum of nonnegative reals is nonnegative).

  Generic; nothing mentions a program.
-/
import Idealize.ShloMosaic.PureOps.Ideal

noncomputable section

namespace Cert.Lib.Real

open Idealize.ShloMosaic

/-- `x` is (the coercion of) a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption

/-- A finite sum of reals is a real. -/
theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact quotient of a real by a nonzero real is a real. -/
theorem IsReal.div {x : EReal} (hx : IsReal x) {r : ℝ} (hr : r ≠ 0) : IsReal (Ideal.div x (r : EReal)) := by
  obtain ⟨a, rfl⟩ := hx
  rw [Ideal.div_coe hr, ← EReal.coe_mul]
  exact ⟨_, rfl⟩

/-- The exponential of a real is a real. -/
theorem IsReal.exp {x : EReal} (hx : IsReal x) : IsReal (Ideal.exp x) := by
  obtain ⟨a, rfl⟩ := hx; exact ⟨Real.exp a, Ideal.exp_coe a⟩

/-- The logistic value of a real is a POSITIVE real. -/
theorem logistic_coe_pos (a : ℝ) : ∃ r : ℝ, 0 < r ∧ Ideal.logistic (a : EReal) = (r : EReal) :=
  ⟨(1 + Real.exp (-a))⁻¹, inv_pos.mpr (by positivity), Ideal.logistic_coe a⟩

theorem IsReal.logistic {x : EReal} (hx : IsReal x) : IsReal (Ideal.logistic x) := by
  obtain ⟨a, rfl⟩ := hx
  obtain ⟨r, -, hr⟩ := logistic_coe_pos a
  exact ⟨r, hr⟩

/-- The reciprocal square root of a POSITIVE real is a real. -/
theorem isReal_rsqrt_of_pos {r : ℝ} (hr : 0 < r) : IsReal (Ideal.rsqrt (r : EReal)) := by
  refine ⟨(Real.sqrt r)⁻¹, ?_⟩
  rw [Ideal.rsqrt_coe, if_neg (not_lt.mpr hr.le), if_neg hr.ne']

/-- A finite sum of nonnegative reals, coerced, is a nonnegative real. -/
theorem sum_coe_nonneg {ι : Type} (s : Finset ι) (f : ι → ℝ) (h : ∀ i ∈ s, 0 ≤ f i) :
    ∃ r : ℝ, 0 ≤ r ∧ (∑ i ∈ s, ((f i : ℝ) : EReal)) = (r : EReal) := by
  classical
  refine ⟨∑ i ∈ s, f i, Finset.sum_nonneg h, ?_⟩
  induction s using Finset.induction_on with
  | empty => simp
  | insert a s ha ih =>
    rw [Finset.sum_insert ha, Finset.sum_insert ha, ih fun i hi => h i (Finset.mem_insert_of_mem hi), EReal.coe_add]

end Cert.Lib.Real

end
-- ==== Proof.LibBatchNorm.lean ====
/-
  Batch statistics on the extended reals.

  A batch normalisation needs the mean and the (biased) variance of a finite family. One program computes the
  variance in two passes, as the mean of the squared deviations; another in one pass, as the mean of the squares
  minus the square of the mean. Over the reals these are one number:

      (1/n) Σᵢ (xᵢ - μ)²  =  (1/n) Σᵢ xᵢ²  -  μ²,        μ = (1/n) Σᵢ xᵢ,

  because Σᵢ (xᵢ - μ)² = Σᵢ xᵢ² - 2 μ Σᵢ xᵢ + n μ² and Σᵢ xᵢ = n μ. On the extended reals the identity needs every
  entry to be a real number (with an infinite entry the two sides differ: the deviations read ∞ - ∞), so it is
  stated for families of reals coerced into the extended reals, the quotients being the exact division by the
  nonzero real `n` (the number of entries).

  Everything here is generic in the index type; nothing mentions a program.
-/
import Idealize.ShloMosaic.PureOps.Ideal

noncomputable section

namespace Cert.Lib.BatchNorm

open Idealize.ShloMosaic

variable {ι : Type} [Fintype ι]

/-- A finite sum of reals, coerced term by term into the extended reals, is the coercion of the real sum. -/
theorem coe_sum (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The variance identity over the reals: the mean of the squared deviations from the mean is the mean of the
    squares minus the square of the mean. `n` is the number of entries, as a real. -/
theorem real_variance (x : ι → ℝ) (n : ℝ) (hn : n ≠ 0) (hcard : (Fintype.card ι : ℝ) = n) :
    (∑ i, (x i - (∑ j, x j) * (1 / n)) * (x i - (∑ j, x j) * (1 / n))) * (1 / n)
      = (∑ i, x i * x i) * (1 / n) - ((∑ j, x j) * (1 / n)) * ((∑ j, x j) * (1 / n)) := by
  have expand : ∑ i, (x i - (∑ j, x j) * (1 / n)) * (x i - (∑ j, x j) * (1 / n))
      = (∑ i, x i * x i) - 2 * ((∑ j, x j) * (1 / n)) * (∑ j, x j) + n * (((∑ j, x j) * (1 / n)) * ((∑ j, x j) * (1 / n))) := by
    have h1 : ∀ i, (x i - (∑ j, x j) * (1 / n)) * (x i - (∑ j, x j) * (1 / n))
        = x i * x i - 2 * ((∑ j, x j) * (1 / n)) * x i + ((∑ j, x j) * (1 / n)) * ((∑ j, x j) * (1 / n)) := fun i => by ring
    simp only [h1, Finset.sum_add_distrib, Finset.sum_sub_distrib, ← Finset.mul_sum, Finset.sum_const, Finset.card_univ,
      nsmul_eq_mul, hcard]
    ring
  rw [expand]
  field_simp
  ring

/-- The mean of a family of reals, computed on the extended reals as the exact quotient of the sum (from the
    initial value zero) by `n`, is the real mean. -/
theorem mean_coe (x : ι → ℝ) (n : ℝ) (hn : n ≠ 0) :
    Ideal.div ((0 : EReal) + ∑ i, ((x i : ℝ) : EReal)) (n : EReal) = (((∑ i, x i) * (1 / n) : ℝ) : EReal) := by
  rw [zero_add, coe_sum, Ideal.div_coe hn, ← EReal.coe_mul]

/-- THE VARIANCE IDENTITY ON THE EXTENDED REALS. For a family of reals, the two-pass variance — the quotient by `n` of
    the sum (from zero) of the squared deviations from the mean — is the one-pass variance — the quotient by `n` of the
    sum of the squares, minus the square of the mean —, all operations the extended reals' exact ones. -/
theorem variance_two_pass_eq_one_pass (x : ι → ℝ) (n : ℝ) (hn : n ≠ 0) (hcard : (Fintype.card ι : ℝ) = n) :
    Ideal.div ((0 : EReal) + ∑ i, (((x i : ℝ) : EReal) - Ideal.div ((0 : EReal) + ∑ j, ((x j : ℝ) : EReal)) (n : EReal))
        * (((x i : ℝ) : EReal) - Ideal.div ((0 : EReal) + ∑ j, ((x j : ℝ) : EReal)) (n : EReal))) (n : EReal)
      = Ideal.div (∑ i, ((x i : ℝ) : EReal) * ((x i : ℝ) : EReal)) (n : EReal)
        - Ideal.div (∑ j, ((x j : ℝ) : EReal)) (n : EReal) * Ideal.div (∑ j, ((x j : ℝ) : EReal)) (n : EReal) := by
  have hmean : Ideal.div (∑ j, ((x j : ℝ) : EReal)) (n : EReal) = (((∑ j, x j) * (1 / n) : ℝ) : EReal) := by
    rw [coe_sum, Ideal.div_coe hn, ← EReal.coe_mul]
  rw [mean_coe x n hn, hmean]
  simp only [← EReal.coe_sub, ← EReal.coe_mul, coe_sum, zero_add, Ideal.div_coe hn]
  exact congrArg _ (real_variance x n hn hcard)

end Cert.Lib.BatchNorm

end
-- ==== Proof.Algebra.lean ====
/-
  The algebra that joins the two programs, over the extended reals.

  * `agg_then_project`: for real entries, summing the scaled feature rows that land on a node and THEN multiplying by a
    weight column is multiplying each row by the weight column first and then summing the scaled products:
      0 + Σ_j [j lands] (Σ_k a j k · w k) · n j  =  Σ_k (0 + Σ_j [j lands] a j k · n j) · w k.
    On the extended reals this needs every entry real (a product distributed over a sum of infinities of both signs
    is not the sum of the products), which is what the finiteness of the inputs and the positivity of every degree give.
  * `pre_eq`: the layer's pre-normalisation value in the two association orders the programs use.
  * `batchnorm_eq`: the normalised value — mean and variance of a column of reals over n rows, the variance once as the
    mean of squared deviations and once as the mean of squares minus the squared mean — is one number.
-/
import Idealize.ShloMosaic.PureOps.Ideal
import proofs.«163546_j27127013442152_2_alg».proof.Proof.LibReal
import proofs.«163546_j27127013442152_2_alg».proof.Proof.LibBatchNorm

noncomputable section

namespace Cert.Alg

open Idealize.ShloMosaic Cert.Lib.Real Cert.Lib.BatchNorm

variable {J K : Type} [Fintype J] [Fintype K]

/-- The real identity behind `agg_then_project`. -/
theorem agg_then_project_real (hit : J → Prop) [DecidablePred hit] (a : J → K → ℝ) (n : J → ℝ) (w : K → ℝ) :
    ∑ j, (if hit j then (∑ k, a j k * w k) * n j else 0) = ∑ k, (∑ j, (if hit j then a j k * n j else 0)) * w k := by
  simp only [Finset.sum_mul]
  rw [Finset.sum_comm]
  refine Finset.sum_congr rfl fun j _ => ?_
  by_cases h : hit j
  · simp only [if_pos h]
    exact Finset.sum_congr rfl fun k _ => by ring
  · simp only [if_neg h, zero_mul, Finset.sum_const_zero]

theorem agg_then_project (hit : J → Prop) [DecidablePred hit] (a : J → K → EReal) (n : J → EReal) (w : K → EReal)
    (ha : ∀ j k, IsReal (a j k)) (hn : ∀ j, IsReal (n j)) (hw : ∀ k, IsReal (w k)) :
    (0 : EReal) + ∑ j, (if hit j then (∑ k, a j k * w k) * n j else 0)
      = ∑ k, ((0 : EReal) + ∑ j, (if hit j then a j k * n j else 0)) * w k := by
  choose a' ha' using ha
  choose n' hn' using hn
  choose w' hw' using hw
  have hl : ∀ j, (if hit j then (∑ k, a j k * w k) * n j else (0 : EReal))
      = (((if hit j then (∑ k, a' j k * w' k) * n' j else 0 : ℝ)) : EReal) := by
    intro j
    by_cases h : hit j
    · simp only [if_pos h, ha', hw', hn', ← EReal.coe_mul, coe_sum]
    · simp only [if_neg h, EReal.coe_zero]
  have hr : ∀ k j, (if hit j then a j k * n j else (0 : EReal)) = (((if hit j then a' j k * n' j else 0 : ℝ)) : EReal) := by
    intro k j
    by_cases h : hit j
    · simp only [if_pos h, ha', hn', ← EReal.coe_mul]
    · simp only [if_neg h, EReal.coe_zero]
  have L : ∑ j, (if hit j then (∑ k, a j k * w k) * n j else (0 : EReal))
      = ((∑ j, (if hit j then (∑ k, a' j k * w' k) * n' j else 0) : ℝ) : EReal) := by
    rw [Finset.sum_congr rfl (fun j _ => hl j), coe_sum]
  have Rk : ∀ k, ((0 : EReal) + ∑ j, (if hit j then a j k * n j else 0)) * w k
      = (((∑ j, (if hit j then a' j k * n' j else 0)) * w' k : ℝ) : EReal) := by
    intro k
    rw [zero_add, Finset.sum_congr rfl (fun j _ => hr k j), coe_sum, hw', ← EReal.coe_mul]
  rw [zero_add, L, Finset.sum_congr rfl (fun k _ => Rk k), coe_sum]
  exact congrArg _ (agg_then_project_real hit a' n' w')

/-- The value before normalisation, in the reference's order (aggregate, add the bias, add the skip product) and in the
    kernel's (project the aggregate, add the skip product, add the bias). -/
theorem pre_eq (s b t : EReal) : (s + b) + t = (s + t) + b := add_right_comm s b t

/-- `agg_then_project` with the sums started from nothing. -/
theorem agg_then_project' (hit : J → Prop) [DecidablePred hit] (a : J → K → EReal) (n : J → EReal) (w : K → EReal)
    (ha : ∀ j k, IsReal (a j k)) (hn : ∀ j, IsReal (n j)) (hw : ∀ k, IsReal (w k)) :
    ∑ j, (if hit j then (∑ k, a j k * w k) * n j else (0 : EReal))
      = ∑ k, (∑ j, (if hit j then a j k * n j else (0 : EReal))) * w k := by
  have h := agg_then_project hit a n w ha hn hw
  simpa only [zero_add] using h

/-- The variance of a column of reals over n rows: the mean of the squared deviations from the mean is the mean of the
    squares less the squared mean (sums started from nothing). -/
theorem variance_forms {ι : Type} [Fintype ι] (x : ι → ℝ) (n : ℝ) (hn : n ≠ 0) (hcard : (Fintype.card ι : ℝ) = n) :
    Ideal.div (∑ i, (((x i : ℝ) : EReal) - Ideal.div (∑ j, ((x j : ℝ) : EReal)) (n : EReal))
        * (((x i : ℝ) : EReal) - Ideal.div (∑ j, ((x j : ℝ) : EReal)) (n : EReal))) (n : EReal)
      = Ideal.div (∑ i, ((x i : ℝ) : EReal) * ((x i : ℝ) : EReal)) (n : EReal)
        - Ideal.div (∑ j, ((x j : ℝ) : EReal)) (n : EReal) * Ideal.div (∑ j, ((x j : ℝ) : EReal)) (n : EReal) := by
  have h := variance_two_pass_eq_one_pass x n hn hcard
  simpa only [zero_add] using h

end Cert.Alg

end
-- ==== Proof.Bridge.lean ====
/-
  The two programs' results are one function of the seven arguments, entry by entry, when every float entry is real
  and every edge weight is real.

  * The layer before normalisation. The reference sums, over the edges landing on node p, the weighted rows of x·W; the
    kernel sums the weighted rows of x and multiplies the sum by W's column afterwards. For real entries these agree
    (`Cert.Alg.agg_then_project'`); the bias and the skip product are added in the two association orders.
  * The normalisation. Both divide by 100000; the reference's variance is the mean of the squared deviations, the
    kernel's the mean of squares less the squared mean (`Cert.Alg.variance_forms`). The rest is the same expression.
-/
import proofs.«163546_j27127013442152_2_alg».proof.Proof.KI.Final
import proofs.«163546_j27127013442152_2_alg».proof.Proof.KI.ReadAgg
import proofs.«163546_j27127013442152_2_alg».proof.Proof.R.Read
import proofs.«163546_j27127013442152_2_alg».proof.Proof.Algebra
import proofs.«163546_j27127013442152_2_alg».proof.Proof.LibReal

noncomputable section

namespace Cert.Bridge

open Idealize.ShloMosaic Idealize.ShloMosaic.ValueIdx Cert.Lib.Real

variable (x : FVec Ideal Cert.KernelIdeal.S100000x64 .f32) (e : IVec Cert.KernelIdeal.S2x1600000 32)
  (w : FVec Ideal Cert.KernelIdeal.S64x128 .f32) (b : FVec Ideal Cert.KernelIdeal.S128 .f32)
  (sw : FVec Ideal Cert.KernelIdeal.S64x128 .f32) (g be : FVec Ideal Cert.KernelIdeal.S128 .f32)

/-- The layer before normalisation: the reference's entry is the kernel's. -/
theorem layer_eq (hx : ∀ i, IsReal (x i)) (hw : ∀ i, IsReal (w i))
    (hn : ∀ j : Fin 1700000, IsReal (Cert.KernelIdeal.HandValue.nrm (F := Ideal) e (ix1 j)))
    (p : Fin 100000) (q : Fin 128) :
    Cert.ReferenceIdeal.Hand.layer x e w b sw p q = Cert.KernelIdeal.HandValue.preK x e w b sw p q := by
  unfold Cert.KernelIdeal.HandValue.preK
  rw [Cert.KernelIdeal.HandValue.proj0_eq, Cert.KernelIdeal.HandValue.asRow_at]
  simp only [Cert.KernelIdeal.HandValue.agg64_apply]
  rw [← Cert.Alg.agg_then_project' (fun j : Fin 1700000 => (Cert.KernelIdeal.HandValue.sidx e (ix2 j (0 : Fin 1))).toInt = (p.val : ℤ))
    (fun j k => x (ix2 (Cert.KernelIdeal.HandValue.clampRow (Cert.KernelIdeal.HandValue.gidx e (ix2 j (0 : Fin 1)))) k))
    (fun j => Cert.KernelIdeal.HandValue.nrm (F := Ideal) e (ix1 j)) (fun k => w (ix2 k q))
    (fun j k => hx _) hn (fun k => hw _)]
  unfold Cert.ReferenceIdeal.Hand.layer
  have e1 : Cert.ReferenceIdeal.Hand.sidx e = Cert.KernelIdeal.HandValue.sidx e := rfl
  have e2 : Cert.ReferenceIdeal.Hand.gidx e = Cert.KernelIdeal.HandValue.gidx e := rfl
  have e3 : Cert.ReferenceIdeal.Hand.nrm (F := Ideal) e = Cert.KernelIdeal.HandValue.nrm (F := Ideal) e := rfl
  have e4 : Cert.ReferenceIdeal.Hand.clampRow = Cert.KernelIdeal.HandValue.clampRow := rfl
  simp only [e1, e2, e3, e4]
  rw [add_right_comm]

/-- An entry of the layer is real. -/
theorem layer_real (hx : ∀ i, IsReal (x i)) (hw : ∀ i, IsReal (w i)) (hb : ∀ i, IsReal (b i)) (hsw : ∀ i, IsReal (sw i))
    (hn : ∀ j : Fin 1700000, IsReal (Cert.KernelIdeal.HandValue.nrm (F := Ideal) e (ix1 j)))
    (p : Fin 100000) (q : Fin 128) : IsReal (Cert.ReferenceIdeal.Hand.layer x e w b sw p q) := by
  unfold Cert.ReferenceIdeal.Hand.layer
  refine IsReal.add (IsReal.add (IsReal.sum _ _ fun j _ => ?_) (hb _)) (IsReal.sum _ _ fun k _ => IsReal.mul (hx _) (hsw _))
  split_ifs
  · exact IsReal.mul (IsReal.sum _ _ fun k _ => IsReal.mul (hx _) (hw _)) (hn j)
  · exact isReal_zero

/-- THE RESULTS AGREE at every entry. -/
theorem result_eq (hx : ∀ i, IsReal (x i)) (hw : ∀ i, IsReal (w i)) (hb : ∀ i, IsReal (b i)) (hsw : ∀ i, IsReal (sw i))
    (hn : ∀ j : Fin 1700000, IsReal (Cert.KernelIdeal.HandValue.nrm (F := Ideal) e (ix1 j)))
    (p : Fin 100000) (q : Fin 128) :
    Cert.ReferenceIdeal.Hand.out x e w b sw g be (ix2 p q) = Cert.KernelIdeal.HandValue.resultK x e w b sw g be p q := by
  rw [Cert.ReferenceIdeal.Hand.out_apply]
  unfold Cert.KernelIdeal.HandValue.resultK Cert.ReferenceIdeal.Hand.sigma2 Cert.ReferenceIdeal.Hand.mu
  rw [Cert.KernelIdeal.HandValue.ofBits_1e5]
  simp only [← layer_eq x e w b sw hx hw hn]
  have hr := layer_real x e w b sw hx hw hb hsw hn
  choose o ho using fun r : Fin 100000 => hr r q
  simp only [ho]
  rw [Cert.Alg.variance_forms o 100000 (by norm_num) (by simp)]

end Cert.Bridge

end
-- ==== Proof.Finite.lean ====
/-
  Finiteness of the inputs, read back from the printed precondition: if the precondition's word is 1 then every entry of
  every float argument is a real number (neither infinity; a NaN reads as −∞ on the extended reals and is excluded too).
  The precondition is a conjunction of six `all |a| < +∞`; each `all` is an and-reduction over every axis, which is 1 only
  if every compared entry is 1, and `max x (−x) < ⊤` leaves only the reals.
-/
import proofs.«163546_j27127013442152_2_alg».proof.Pre_finite_inputs
import proofs.«163546_j27127013442152_2_alg».proof.Proof.Gen.Pre_finite_inputs
import Idealize.ShloMosaic.Lib.ReduceAll
import Idealize.ShloMosaic.Lib.ValueIdx
import Idealize.ShloMosaic.PureOps.Ideal
import proofs.«163546_j27127013442152_2_alg».proof.Proof.LibReal

noncomputable section

namespace Cert.Finite

open Idealize.ShloMosaic Cert.Lib.Real Cert.Pre_finite_inputs

attribute [local instance] Cert.Pre_finite_inputs.Gen.facts

instance : Subsingleton S_.Idx := ⟨fun a b => funext fun d => d.elim0⟩

/-- An extended real whose absolute value is below +∞ is a real. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- One `all |a| < +∞` that is 1 makes every entry of `a` real. -/
theorem all_real {s : Shape} (a : FVec Ideal s .f32) (hb : S_.BroadcastsInDim s (![] : Fin 0 → Fin s.rank)) (axes : List (Fin s.rank))
    (hr : s.ReducesTo axes S_) (hS : 0 < S_.numel)
    (h : Host.reduce IntOp.andi (cmpf (F := Ideal) .olt (Host.absf a) (broadcastInDim s ![] hb (constant S_ .f32 0x7F800000#32)))
      (constantI S_ 1 1#1) hr hS ValueIdx.ix0 = 1#1) (i : s.Idx) : IsReal (a i) := by
  have e := Host.reduce_andi_all _ _ hr hS ValueIdx.ix0 h i
  simp only [cmpf, Host.absf, broadcastInDim, constant] at e
  exact isReal_of_abs_lt_inf (a i) e

theorem entries_real (a0 : FVec Ideal S100000x64 .f32) (a1 : IVec S2x1600000 32) (a2 : FVec Ideal S64x128 .f32)
    (a3 : FVec Ideal S128 .f32) (a4 : FVec Ideal S64x128 .f32) (a5 a6 : FVec Ideal S128 .f32)
    (h : fn (F := Ideal) a0 a1 a2 a3 a4 a5 a6 = fun _ => 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) := by
  have h0 := congrFun h ValueIdx.ix0
  dsimp only [fn, fn_part1] at h0
  simp only [andi, IntOp.andi_eq_one] at h0
  obtain ⟨⟨⟨⟨⟨e0, e2⟩, e3⟩, e4⟩, e5⟩, e6⟩ := h0
  exact ⟨all_real a0 _ _ _ _ e0, all_real a2 _ _ _ _ e2, all_real a3 _ _ _ _ e3, all_real a4 _ _ _ _ e4,
    all_real a5 _ _ _ _ e5, all_real a6 _ _ _ _ e6⟩

end Cert.Finite

end
-- ==== Proof.LibScatter.lean ====
/-
  A scatter read at one entry.

  A scatter writes updates `upd : u → α` into an operand `x : s → α`: update index `j` lands on the operand index
  `resultIdx? j idx` (its start, read signed off the scatter indices, plus its window coordinate) when that is inside
  the operand, and nowhere when it is not; an update that lands on `i` replaces the entry `a` there by
  `f a (upd j)`. The updates are taken in row-major order, so the whole result is a left fold over the update
  indices of a step that rewrites one entry of a function.

  Read at ONE operand index `i`, that fold of functions is a fold of VALUES: start from `x i` and, for each update
  index in order, apply `f · (upd j)` when `j` lands on `i` and do nothing otherwise. From this follow: an entry
  no update lands on is unchanged; an entry exactly one update lands on, under the body that returns the update, is
  that update; and under the signed maximum the entry is at least its old value, at least every update landing on it,
  and equal to one of those.

  The last part specialises the dimension numbers to ONE axis: operand `[N]`, scatter indices `[E, 1]`, updates
  `[E]` (writing, or combining into, a vector's entries at the positions an integer array names), where update `e` lands on entry `n` exactly when
  the index `idx[e, 0]`, read signed, is `n`; and the gather with the same shapes (reading a vector at the positions an integer array names), which reads
  the operand at that index clamped into `[0, N - 1]`.

  Generic in the shapes, extents, widths and element type; nothing mentions a program.
-/
import Idealize.ShloMosaic.Lib.ValueIdx

noncomputable section

namespace Cert.Lib.Scatter

open Idealize.ShloMosaic Idealize.ShloMosaic.ValueIdx

/-! ## The fold read at one entry -/

section Fold

variable {s si u : Shape} {w : Nat} {α : Type} (d : ScatterDims s si u) (f : α → α → α)
  (x : s.Idx → α) (idx : IVec si w) (upd : u.Idx → α) (i : s.Idx)

/-- The fold of the function-rewriting step over ANY list of update positions, read at `i`, is the fold over the
    same list of the value step "apply `f · (upd j)` when `j` lands on `i`", started at the operand's entry. -/
theorem foldl_step_apply (l : List (Fin u.numel)) (r : s.Idx → α) :
    (l.foldl (fun r n =>
        match d.resultIdx? (u.rowMajor.symm n) idx with
        | some i => fun i' => if i' = i then f (r i) (upd (u.rowMajor.symm n)) else r i'
        | none => r) r) i
      = l.foldl (fun a n => if d.resultIdx? (u.rowMajor.symm n) idx = some i
          then f a (upd (u.rowMajor.symm n)) else a) (r i) := by
  induction l generalizing r with
  | nil => rfl
  | cons n l ih =>
    rw [List.foldl_cons, List.foldl_cons, ih]
    congr 1
    generalize d.resultIdx? (u.rowMajor.symm n) idx = o
    cases o with
    | none => rw [if_neg (fun h => nomatch h)]
    | some i0 =>
      show (if i = i0 then f (r i0) (upd (u.rowMajor.symm n)) else r i) = _
      by_cases hi : i = i0
      · subst hi
        rw [if_pos rfl, if_pos rfl]
      · rw [if_neg hi, if_neg (fun h => hi (Option.some.inj h).symm)]

/-- THE SCATTER READ AT `i`: the left fold, over the update positions in row-major order and started at the
    operand's entry `x i`, of "apply `f · (upd j)` when update `j` lands on `i`, else keep". -/
theorem scatter_apply :
    Host.scatter d f x idx upd i
      = (List.finRange u.numel).foldl (fun a n => if d.resultIdx? (u.rowMajor.symm n) idx = some i
          then f a (upd (u.rowMajor.symm n)) else a) (x i) := by
  unfold Host.scatter
  exact foldl_step_apply d f idx upd i _ x

/-- A fold of the value step over positions none of which lands on `i` keeps its start. -/
theorem foldl_no_hit (l : List (Fin u.numel)) (a : α)
    (h : ∀ n ∈ l, d.resultIdx? (u.rowMajor.symm n) idx ≠ some i) :
    l.foldl (fun a n => if d.resultIdx? (u.rowMajor.symm n) idx = some i
      then f a (upd (u.rowMajor.symm n)) else a) a = a := by
  induction l generalizing a with
  | nil => rfl
  | cons n l ih =>
    rw [List.foldl_cons, if_neg (h n List.mem_cons_self)]
    exact ih a fun m hm => h m (List.mem_cons_of_mem _ hm)

/-- An entry no update lands on is the operand's. -/
theorem scatter_apply_of_no_hit (h : ∀ j : u.Idx, d.resultIdx? j idx ≠ some i) :
    Host.scatter d f x idx upd i = x i := by
  rw [scatter_apply]
  exact foldl_no_hit d f idx upd i _ _ fun n _ => h _

/-- Under the body that returns the update, a fold started at `upd j0` over positions whose landing updates are all
    `j0` stays `upd j0`. -/
theorem foldl_set_fix (j0 : u.Idx) (huniq : ∀ j : u.Idx, d.resultIdx? j idx = some i → j = j0)
    (l : List (Fin u.numel)) :
    l.foldl (fun a n => if d.resultIdx? (u.rowMajor.symm n) idx = some i
      then (fun _ b => b) a (upd (u.rowMajor.symm n)) else a) (upd j0) = upd j0 := by
  induction l with
  | nil => rfl
  | cons n l ih =>
    rw [List.foldl_cons]
    by_cases hn : d.resultIdx? (u.rowMajor.symm n) idx = some i
    · rw [if_pos hn]
      show List.foldl _ (upd (u.rowMajor.symm n)) l = _
      rw [huniq _ hn]; exact ih
    · rw [if_neg hn]; exact ih

/-- Under the body that returns the update, a fold over positions among which the one landing update `j0` occurs
    ends at `upd j0`, whatever it started from. -/
theorem foldl_set_of_mem (j0 : u.Idx) (h0 : d.resultIdx? j0 idx = some i)
    (huniq : ∀ j : u.Idx, d.resultIdx? j idx = some i → j = j0)
    (l : List (Fin u.numel)) (hmem : u.rowMajor j0 ∈ l) (a : α) :
    l.foldl (fun a n => if d.resultIdx? (u.rowMajor.symm n) idx = some i
      then (fun _ b => b) a (upd (u.rowMajor.symm n)) else a) a = upd j0 := by
  induction l generalizing a with
  | nil => exact absurd hmem List.not_mem_nil
  | cons n l ih =>
    rw [List.foldl_cons]
    rcases List.mem_cons.mp hmem with hn | hl
    · have hs : u.rowMajor.symm n = j0 := by rw [← hn]; exact u.rowMajor.symm_apply_apply j0
      rw [hs, if_pos h0]
      exact foldl_set_fix d idx upd i j0 huniq l
    · exact ih hl _

/-- An entry exactly one update `j0` lands on, under the body that returns the update, is `upd j0`. -/
theorem scatter_set_apply_of_unique (j0 : u.Idx) (h0 : d.resultIdx? j0 idx = some i)
    (huniq : ∀ j : u.Idx, d.resultIdx? j idx = some i → j = j0) :
    Host.scatter d (fun _ b => b) x idx upd i = upd j0 := by
  rw [scatter_apply]
  exact foldl_set_of_mem d idx upd i j0 h0 huniq _ (List.mem_finRange _) _

end Fold

/-! ## The scatter whose body is the signed maximum -/

section Maxsi

variable {s si u : Shape} {w w' : Nat} (d : ScatterDims s si u)
  (x : s.Idx → BitVec w') (idx : IVec si w) (upd : u.Idx → BitVec w') (i : s.Idx)

/-- The signed maximum is at least its first argument. -/
theorem maxsi_ge_left (a b : BitVec w') : a.toInt ≤ (IntOp.maxsi a b).toInt := by
  unfold IntOp.maxsi
  split
  · exact Int.le_refl _
  · rename_i h
    have := mt BitVec.slt_iff_toInt_lt.mpr h
    omega

/-- The signed maximum is at least its second argument. -/
theorem maxsi_ge_right (a b : BitVec w') : b.toInt ≤ (IntOp.maxsi a b).toInt := by
  unfold IntOp.maxsi
  split
  · rename_i h
    have := BitVec.slt_iff_toInt_lt.mp h
    omega
  · exact Int.le_refl _

/-- The signed maximum is one of its two arguments. -/
theorem maxsi_eq_or (a b : BitVec w') : IntOp.maxsi a b = a ∨ IntOp.maxsi a b = b := by
  unfold IntOp.maxsi
  split
  · exact Or.inl rfl
  · exact Or.inr rfl

/-- A fold of the maximum step is at least its start. -/
theorem foldl_maxsi_ge_init (l : List (Fin u.numel)) (a : BitVec w') :
    a.toInt ≤ (l.foldl (fun a n => if d.resultIdx? (u.rowMajor.symm n) idx = some i
      then IntOp.maxsi a (upd (u.rowMajor.symm n)) else a) a).toInt := by
  induction l generalizing a with
  | nil => exact Int.le_refl _
  | cons n l ih =>
    rw [List.foldl_cons]
    refine Int.le_trans ?_ (ih _)
    split
    · exact maxsi_ge_left _ _
    · exact Int.le_refl _

/-- A fold of the maximum step is at least every update of the list that lands on `i`. -/
theorem foldl_maxsi_ge_hit (l : List (Fin u.numel)) (a : BitVec w') (n0 : Fin u.numel) (hmem : n0 ∈ l)
    (h : d.resultIdx? (u.rowMajor.symm n0) idx = some i) :
    (upd (u.rowMajor.symm n0)).toInt ≤ (l.foldl (fun a n => if d.resultIdx? (u.rowMajor.symm n) idx = some i
      then IntOp.maxsi a (upd (u.rowMajor.symm n)) else a) a).toInt := by
  induction l generalizing a with
  | nil => exact absurd hmem List.not_mem_nil
  | cons n l ih =>
    rw [List.foldl_cons]
    rcases List.mem_cons.mp hmem with hn | hl
    · subst hn
      rw [if_pos h]
      exact Int.le_trans (maxsi_ge_right _ _) (foldl_maxsi_ge_init d idx upd i l _)
    · exact ih _ hl

/-- A fold of the maximum step is its start or an update of the list that lands on `i`. -/
theorem foldl_maxsi_mem (l : List (Fin u.numel)) (a : BitVec w') :
    l.foldl (fun a n => if d.resultIdx? (u.rowMajor.symm n) idx = some i
        then IntOp.maxsi a (upd (u.rowMajor.symm n)) else a) a = a
      ∨ ∃ n ∈ l, d.resultIdx? (u.rowMajor.symm n) idx = some i
          ∧ l.foldl (fun a n => if d.resultIdx? (u.rowMajor.symm n) idx = some i
              then IntOp.maxsi a (upd (u.rowMajor.symm n)) else a) a = upd (u.rowMajor.symm n) := by
  induction l generalizing a with
  | nil => exact Or.inl rfl
  | cons n l ih =>
    rw [List.foldl_cons]
    rcases ih (if d.resultIdx? (u.rowMajor.symm n) idx = some i
        then IntOp.maxsi a (upd (u.rowMajor.symm n)) else a) with h | ⟨m, hm, hhit, he⟩
    · rw [h]
      by_cases hn : d.resultIdx? (u.rowMajor.symm n) idx = some i
      · rw [if_pos hn]
        rcases maxsi_eq_or a (upd (u.rowMajor.symm n)) with e | e
        · exact Or.inl e
        · exact Or.inr ⟨n, List.mem_cons_self, hn, e⟩
      · rw [if_neg hn]; exact Or.inl rfl
    · exact Or.inr ⟨m, List.mem_cons_of_mem _ hm, hhit, he⟩

/-- Under the signed maximum, the entry is at least every update landing on it. -/
theorem scatter_maxsi_ge_hit (j : u.Idx) (h : d.resultIdx? j idx = some i) :
    (upd j).toInt ≤ (Host.scatter d IntOp.maxsi x idx upd i).toInt := by
  rw [scatter_apply]
  have hs : u.rowMajor.symm (u.rowMajor j) = j := u.rowMajor.symm_apply_apply j
  have := foldl_maxsi_ge_hit d idx upd i (List.finRange u.numel) (x i) (u.rowMajor j) (List.mem_finRange _)
    (by rw [hs]; exact h)
  rw [hs] at this
  exact this

/-- Under the signed maximum, the entry is at least the operand's. -/
theorem scatter_maxsi_ge_init : (x i).toInt ≤ (Host.scatter d IntOp.maxsi x idx upd i).toInt := by
  rw [scatter_apply]
  exact foldl_maxsi_ge_init d idx upd i _ _

/-- Under the signed maximum, the entry is the operand's or an update landing on it. -/
theorem scatter_maxsi_mem :
    Host.scatter d IntOp.maxsi x idx upd i = x i
      ∨ ∃ j : u.Idx, d.resultIdx? j idx = some i ∧ Host.scatter d IntOp.maxsi x idx upd i = upd j := by
  rw [scatter_apply]
  rcases foldl_maxsi_mem d idx upd i (List.finRange u.numel) (x i) with h | ⟨n, _, hhit, he⟩
  · exact Or.inl h
  · exact Or.inr ⟨u.rowMajor.symm n, hhit, he⟩

end Maxsi

/-! ## One axis: a vector written, and read, at the positions an integer array names -/

/-- A rank-1 index's coordinate is below the extent, written as `n` itself so that `omega` can use it. -/
theorem idx1_lt {n : Nat} (j : (⟨1, ![n]⟩ : Shape).Idx) : (j 0).val < n := (j 0).isLt

/-- The dimension numbers of a one-axis scatter: operand `[N]`, scatter indices `[E, 1]`, updates `[E]`; no window
    axis, the operand's one axis inserted. Their conditions `wf` are decided on literal extents. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter

variable {N E w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window of update `e` starts at the index `idx[e, 0]`, read signed. -/
theorem vecScatter_start :
    (vecScatterDims N E wf).start j idx (0 : Fin 1)
      = (idx (ix2 (⟨(j 0).val, idx1_lt j⟩ : Fin E) (⟨0, Nat.one_pos⟩ : Fin 1))).toInt := by
  unfold ScatterDims.start
  split
  · rename_i ha
    have hsi : (vecScatterDims N E wf).siIdx j ⟨List.idxOf (0 : Fin 1) (vecScatterDims N E wf).scatterDimsToOperandDims,
        List.idxOf_lt_length_iff.2 ha⟩ = ix2 (⟨(j 0).val, idx1_lt j⟩ : Fin E) (⟨0, Nat.one_pos⟩ : Fin 1) := by
      funext b; refine Fin.ext ?_
      match b with
      | ⟨0, _⟩ => rfl
      | ⟨1, _⟩ => rfl
    rw [hsi]
  · rename_i ha
    exact absurd (List.mem_singleton.mpr rfl) ha

/-- The operand's one axis is inserted: no window coordinate. -/
theorem vecScatter_window : (vecScatterDims N E wf).window j (0 : Fin 1) = 0 := by
  unfold ScatterDims.window
  split
  · rename_i ha
    have : (0 : Fin 1) ∉ (vecScatterDims N E wf).insertedWindowDims := by
      simpa [ScatterDims.sKept, Shape.kept, List.mem_filter] using ha
    exact absurd (List.mem_singleton.mpr rfl) this
  · rfl

/-- WHERE AN UPDATE LANDS: update `e` lands on entry `n` exactly when its index `idx[e, 0]`, read signed, is `n`;
    an index outside `[0, N)` lands nowhere. -/
theorem vecScatter_resultIdx?_eq_some_iff (i : (⟨1, ![N]⟩ : Shape).Idx) :
    (vecScatterDims N E wf).resultIdx? j idx = some i
      ↔ (idx (ix2 (⟨(j 0).val, idx1_lt j⟩ : Fin E) (⟨0, Nat.one_pos⟩ : Fin 1))).toInt = ((i 0).val : ℤ) := by
  have hi0 : (i 0).val < N := idx1_lt i
  unfold ScatterDims.resultIdx?
  split
  · rename_i h
    have h0 := h 0
    rw [vecScatter_start, vecScatter_window] at h0
    constructor
    · intro he
      have he' := congrFun (Option.some.inj he)
      have e0 := congrArg Fin.val (he' 0)
      simp only [vecScatter_start, vecScatter_window] at e0
      omega
    · intro e0
      refine congrArg some (funext fun a => Fin.ext ?_)
      match a with
      | ⟨0, _⟩ =>
        show ((vecScatterDims N E wf).start j idx (0 : Fin 1) + ((vecScatterDims N E wf).window j (0 : Fin 1) : ℤ)).toNat = (i 0).val
        rw [vecScatter_start, vecScatter_window, e0]; simp
  · rename_i h
    constructor
    · intro he; exact absurd he (by simp)
    · intro e0
      refine absurd (fun a => ?_) h
      match a with
      | ⟨0, _⟩ =>
        show 0 ≤ (vecScatterDims N E wf).start j idx (0 : Fin 1) + ((vecScatterDims N E wf).window j (0 : Fin 1) : ℤ)
          ∧ (vecScatterDims N E wf).start j idx (0 : Fin 1) + ((vecScatterDims N E wf).window j (0 : Fin 1) : ℤ) < (N : ℤ)
        rw [vecScatter_start, vecScatter_window, e0]
        constructor <;> omega

/-- The same, with the update and the entry given by their coordinates. -/
theorem vecScatter_resultIdx?_ix1 (e : Fin E) (n : Fin N) :
    (vecScatterDims N E wf).resultIdx? (ix1 e) idx = some (ix1 n)
      ↔ (idx (ix2 e (⟨0, Nat.one_pos⟩ : Fin 1))).toInt = (n.val : ℤ) :=
  vecScatter_resultIdx?_eq_some_iff wf idx (ix1 e) (ix1 n)

end VecScatter

/-- The dimension numbers of a one-axis gather: operand `[N]`, start indices `[E, 1]`, result `[E]`; the operand's
    one axis collapsed, slices of one element. Their conditions `wf` are decided on literal extents. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ONE-AXIS GATHER READ AT `e`: the operand at the start index `idx[e, 0]`, read signed and clamped into
    `[0, N - 1]`. -/
theorem vec_gather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y
      = x (ix1 ⟨min (idx (ix2 (⟨(y 0).val, idx1_lt y⟩ : Fin E) (⟨0, Nat.one_pos⟩ : Fin 1))).toInt.toNat (N - 1),
          by omega⟩) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩
        = ix2 (⟨(y 0).val, idx1_lt y⟩ : Fin E) (⟨0, Nat.one_pos⟩ : Fin 1) := by
    funext b; refine Fin.ext ?_
    match b with
    | ⟨0, _⟩ => rfl
    | ⟨1, _⟩ => rfl
  rw [hsi]
  rfl

end Cert.Lib.Scatter

end
-- ==== Proof.KI.Weights.lean ====
import proofs.«163546_j27127013442152_2_alg».proof.Proof.KI.Stages
import proofs.«163546_j27127013442152_2_alg».proof.Proof.LibScatter
import proofs.«163546_j27127013442152_2_alg».proof.Proof.LibReal
import Idealize.ShloMosaic.Lib.Pipeline.Value
import Idealize.ShloMosaic.Lib.ValueIdx
import Idealize.ShloMosaic.Lib.IdealHost
import Idealize.ShloMosaic.PureOps.Ideal.Laws

/-! # The edge weights are real numbers

Node `v`'s degree is a sum of ones, one for each of the 1700000 rows of the target list whose entry is `v`: a natural
number. Row `1600000 + v` of the target list is the self loop of `v`, so the degree is at least 1. The reciprocal
square root of a positive real is a real; an edge's weight is the product of two such values, each read at some
node (the edge's source and target, clamped into range). Hence every weight is a real number. -/

noncomputable section

namespace Cert.KernelIdeal.HandValue

open Idealize.ShloMosaic Idealize.ShloMosaic.ValueIdx
open Cert.KernelIdeal Cert.KernelIdeal.Gen Cert.Lib.Real Cert.Lib.Scatter

/-- A finite sum of ones is the number of its terms. -/
theorem sum_ones {ι : Type} (S : Finset ι) : (∑ _j ∈ S, (1 : EReal)) = ((S.card : ℝ) : EReal) := by
  classical
  induction S using Finset.induction_on with
  | empty => simp
  | insert a s ha ih =>
    rw [Finset.sum_insert ha, ih, Finset.card_insert_of_notMem ha]
    push_cast
    rw [add_comm]

/-- A small natural number, as a 32-bit word read signed, is itself. -/
theorem toInt_ofNat_small (n : Nat) (h : n < 100000) : (BitVec.ofNat 32 n).toInt = (n : ℤ) := by
  rw [BitVec.toInt_eq_toNat_cond, BitVec.toNat_ofNat, Nat.mod_eq_of_lt (by omega)]
  split <;> omega

/-- Row `1600000 + v` of the target list is the self loop of `v`. -/
theorem dsts_loop (e : IVec S2x1600000 32) (v : Fin 100000) (j : Fin 1700000) (hj : j.val = 1600000 + v.val) :
    dsts e (ix1 j) = BitVec.ofNat 32 v.val := by
  unfold dsts withLoops
  exact (concatenate_pair_apply_right (t := S1700000) (s₁ := S1600000) (s₂ := S100000) (0 : Fin 1) _ _
    concatenates_S1600000_S100000_S1700000_d0 (ix1 j) rfl rfl (ix1 v)
    (fun b hb => absurd (Subsingleton.elim _ _) hb) (by show v.val + 1600000 = j.val; omega)).trans rfl

/-- The target list as a one-column table, at row `j`. -/
theorem col_apply (x : IVec S1700000 32) (j : Fin 1700000) :
    broadcastInDim S1700000x1 ![0] bcast_S1700000_S1700000x1_0 x (ix2 j (⟨0, Nat.one_pos⟩ : Fin 1)) = x (ix1 j) :=
  broadcastInDim_apply ![0] bcast_S1700000_S1700000x1_0 x (ix2 j (⟨0, Nat.one_pos⟩ : Fin 1)) (ix1 j) (by
    intro a
    obtain rfl : a = 0 := Subsingleton.elim _ _
    exact (if_neg (by decide)).symm)

/-- The self loop of `v` lands on entry `v`. -/
theorem loop_lands (e : IVec S2x1600000 32) (v : Fin 100000) (j : Fin 1700000) (hj : j.val = 1600000 + v.val) :
    scatter_S100000_S1700000x1_S1700000_n_0_0_1.resultIdx? (ix1 j)
      (broadcastInDim S1700000x1 ![0] bcast_S1700000_S1700000x1_0 (dsts e)) = some (ix1 v) := by
  refine (vecScatter_resultIdx?_ix1 (N := 100000) (E := 1700000) scatter_S100000_S1700000x1_S1700000_n_0_0_1_wf _ j v).mpr ?_
  rw [col_apply, dsts_loop e v j hj]
  exact toInt_ofNat_small v.val v.isLt

/-- A sum of ones into zero, at an entry some update lands on, is a positive real. -/
theorem scatterAdd_ones_pos {s si su : Shape} (d : ScatterDims s si su) {w : Nat} (idx : IVec si w) (i : s.Idx) (j0 : su.Idx)
    (h0 : d.resultIdx? j0 idx = some i) :
    ∃ r : ℝ, 0 < r ∧ Ideal.hostScatterAdd d (fun _ => (0 : EReal)) idx (fun _ => (1 : EReal)) i = (r : EReal) := by
  unfold Ideal.hostScatterAdd
  rw [sum_ones, zero_add]
  exact ⟨_, by exact_mod_cast Finset.card_pos.mpr ⟨j0, Finset.mem_filter.mpr ⟨Finset.mem_univ _, h0⟩⟩, rfl⟩

/-- The degrees: ones summed into zero at the rows' targets. -/
theorem deg_eq (e : IVec S2x1600000 32) :
    deg (F := Ideal) e = Ideal.hostScatterAdd scatter_S100000_S1700000x1_S1700000_n_0_0_1 (fun _ => (0 : EReal))
      (broadcastInDim S1700000x1 ![0] bcast_S1700000_S1700000x1_0 (dsts e)) (fun _ => (1 : EReal)) := by
  have hx : (broadcastInDim S100000 ![] bcast_S_S100000 (constant (F := Ideal) S_ .f32 0x00000000#32) : S100000.Idx → EReal)
      = fun _ => (0 : EReal) := funext fun j => by
    rw [broadcastInDim_scalar_apply, constant_apply, Ideal.ofBits_zero_f32]
  have hu : (broadcastInDim S1700000 ![] bcast_S_S1700000 (constant (F := Ideal) S_ .f32 0x3F800000#32) : S1700000.Idx → EReal)
      = fun _ => (1 : EReal) := funext fun j => by
    rw [broadcastInDim_scalar_apply, constant_apply, Ideal.ofBits_one_f32]
  unfold deg Host.scatterAdd
  rw [Ideal.hostScatterAdd_def, hx, hu]

/-- Every node has a self-loop row. -/
theorem loop_row (v : Fin 100000) : ∃ j : Fin 1700000, j.val = 1600000 + v.val :=
  ⟨⟨1600000 + v.val, by have := v.isLt; omega⟩, rfl⟩

/-- An array of ones summed into zero is a positive real at every entry some row lands on. -/
theorem pos_of_lands (d : FVec Ideal S100000 .f32) (idx : IVec S1700000x1 32)
    (hd : d = Ideal.hostScatterAdd scatter_S100000_S1700000x1_S1700000_n_0_0_1 (fun _ => (0 : EReal)) idx (fun _ => (1 : EReal)))
    (v : Fin 100000) (j : Fin 1700000)
    (hl : scatter_S100000_S1700000x1_S1700000_n_0_0_1.resultIdx? (ix1 j) idx = some (ix1 v)) :
    ∃ r : ℝ, 0 < r ∧ d (ix1 v) = (r : EReal) := by
  subst hd
  exact scatterAdd_ones_pos scatter_S100000_S1700000x1_S1700000_n_0_0_1 idx (ix1 v) (ix1 j) hl

/-- Every node's degree is a positive real. -/
theorem deg_pos (e : IVec S2x1600000 32) (v : Fin 100000) : ∃ r : ℝ, 0 < r ∧ deg (F := Ideal) e (ix1 v) = (r : EReal) := by
  obtain ⟨j, hj⟩ := loop_row v
  exact pos_of_lands (deg (F := Ideal) e) _ (deg_eq e) v j (loop_lands e v j hj)

/-- The pointwise reciprocal square root of an array, at an entry. -/
theorem rsqrt_apply {s : Shape} (a : FVec Ideal s .f32) (i : s.Idx) : Host.rsqrt a i = Ideal.rsqrt (a i) := rfl

/-- The reciprocal square root of an array is real wherever the array is a positive real. -/
theorem rsqrt_real_of_pos (d : FVec Ideal S100000 .f32) (v : Fin 100000) (h : ∃ r : ℝ, 0 < r ∧ d (ix1 v) = (r : EReal)) :
    IsReal (Host.rsqrt d (ix1 v)) := by
  obtain ⟨r, hr, h⟩ := h
  rw [rsqrt_apply, h]
  exact isReal_rsqrt_of_pos hr

/-- The reciprocal square root of every node's degree is a real. -/
theorem dinv_real (e : IVec S2x1600000 32) (v : Fin 100000) : IsReal (dinv (F := Ideal) e (ix1 v)) :=
  rsqrt_real_of_pos (deg (F := Ideal) e) v (deg_pos e v)

/-- Reading those values at the nodes an index table names gives reals. -/
theorem gather_dinv_real (e : IVec S2x1600000 32) (idx : IVec S1700000x1 32) (j : Fin 1700000) :
    IsReal (Host.gather gather_S100000_S1700000x1_S1700000_n_0_n_n_0_1_1 (dinv (F := Ideal) e) idx (ix1 j)) := by
  have h := vec_gather_apply (α := EReal) (N := 100000) (E := 1700000) (by omega)
    gather_S100000_S1700000x1_S1700000_n_0_n_n_0_1_1_wf (dinv (F := Ideal) e) idx (ix1 j)
  rw [show Host.gather gather_S100000_S1700000x1_S1700000_n_0_n_n_0_1_1 (dinv (F := Ideal) e) idx (ix1 j) = _ from h]
  exact dinv_real e _

/-- EVERY EDGE WEIGHT IS A REAL NUMBER. -/
theorem nrm_real (e : IVec S2x1600000 32) (j : Fin 1700000) : IsReal (nrm (F := Ideal) e (ix1 j)) := by
  unfold nrm
  rw [mulf_apply]
  exact (gather_dinv_real e (wrapped (srcs e)) j).mul (gather_dinv_real e (wrapped (dsts e)) j)

end Cert.KernelIdeal.HandValue

end
-- ==== Proof.lean ====
/-
  The certificate of a graph-convolution layer with a skip projection, batch normalisation over the nodes and a ReLU,
  computed by three pallas calls between stretches of host operations, against its plain array reference.

  Both programs derive, by the same host operations on the edge table, the self-looped edge list, every node's degree
  (at least 1: the self loop), the edge weights 1/sqrt(deg src · deg dst), the rows read and the rows written. The
  reference projects x to 128 columns first and sums 128-wide weighted rows per target node; the kernel sums 64-wide
  weighted rows of x per target node and projects the sum inside its first call, adding the skip product and the bias
  there. For real entries the two are equal: multiplication by a weight column distributes over the finite sum of rows
  landing on a node (`Cert.Alg.agg_then_project`) — on the extended reals this is where the finiteness of the inputs and
  the positivity of the degrees are used. The second call sums each column and its squares over the 100000 rows, carried
  across twenty blocks of 5000 rows; the host turns the sums into the mean and mean-of-squares minus squared mean, which
  is the reference's mean of squared deviations (`Cert.Lib.BatchNorm.variance_two_pass_eq_one_pass`); the third call
  normalises, scales, shifts and clamps at zero, as the reference does.

  Frames: each kernel program runs as five segments (host, call, call, host, call) with every unscoped buffer's contents
  named at the six boundaries (KI/Run.lean, K/Run.lean); the reference is a straight line of host operations (R/Run.lean).
-/
import proofs.«163546_j27127013442152_2_alg».proof.Defs
import proofs.«163546_j27127013442152_2_alg».proof.Proof.Gen.Kernel
import proofs.«163546_j27127013442152_2_alg».proof.Proof.Gen.KernelIdeal
import proofs.«163546_j27127013442152_2_alg».proof.Proof.Gen.ReferenceIdeal
import proofs.«163546_j27127013442152_2_alg».proof.Proof.Gen.Pre_finite_inputs
import proofs.«163546_j27127013442152_2_alg».proof.Proof.K.Frame
import proofs.«163546_j27127013442152_2_alg».proof.Proof.KI.Frame
import proofs.«163546_j27127013442152_2_alg».proof.Proof.R.Run
import proofs.«163546_j27127013442152_2_alg».proof.Proof.Bridge
import proofs.«163546_j27127013442152_2_alg».proof.Proof.Finite
import proofs.«163546_j27127013442152_2_alg».proof.Proof.KI.Weights
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Hand.run m ρ)

/-- The ideal pass rewrote nothing: the idealized kernel is the kernel's own text read on the extended reals. -/
theorem preserves : Cert.preserves_Kernel_KernelIdeal := trivial

/-- Both programs run; the kernel's result array is what its run leaves in the result buffer, and the reference's
    composed term is that array: entry by entry both are the normalised layer (`Cert.Bridge.result_eq`), every float
    entry being real by the precondition and every edge weight by the self loops. -/
theorem algebraic : Cert.algebraic_KernelIdeal_ReferenceIdeal := by
  intro m ρ m' ρ' hpre hagree
  refine ⟨fun c => Cert.KernelIdeal.Hand.W5 m ρ c (Proc.devRef .tc Cert.KernelIdeal.main_v54),
    Cert.KernelIdeal.Hand.frame_with_result (F := Ideal) m ρ, ?_⟩
  refine (θ_run Cert.ReferenceIdeal.defs _ _).mono (fun r h c => ⟨(h c).1.trans ?_, (h c).2⟩)
    (Cert.ReferenceIdeal.Hand.run m' ρ')
  obtain ⟨a0, a1, a2, a3, a4, a5, a6⟩ := hagree c
  rw [a0, a1, a2, a3, a4, a5, a6]
  obtain ⟨hx, hw, hb, hsw, -, -⟩ := Cert.Finite.entries_real _ _ _ _ _ _ _ (hpre c)
  funext i
  obtain ⟨p, q, rfl⟩ : ∃ (p : Fin 100000) (q : Fin 128), i = ValueIdx.ix2 p q := ⟨i 0, i 1, ValueIdx.eq_ix2 i⟩
  rw [Cert.Bridge.result_eq _ _ _ _ _ _ _ hx hw hb hsw (Cert.KernelIdeal.HandValue.nrm_real _) p q]
  exact (Cert.KernelIdeal.HandValue.result_at m ρ c p q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
